-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S3x64x64 : Shape := ⟨3, ![3, 64, 64]⟩
abbrev S3x64 : Shape := ⟨2, ![3, 64]⟩
abbrev S2x1600000 : Shape := ⟨2, ![2, 1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part1 {F : FTy → Type} [FloatOps F] (main_arg4 : FVec F S3x64 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3x64 .f32 := Host.absf main_arg4
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  main_v23

def fn {F : FTy → Type} [FloatOps F] (main_arg0 : FVec F S100000x64 .f32) (main_arg1 : FVec F S3x64x64 .f32) (main_arg2 : FVec F S3x64 .f32) (main_arg3 : FVec F S3x64 .f32) (main_arg4 : FVec F S3x64 .f32) (main_arg5 : IVec S2x1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3x64x64 .f32 := Host.absf main_arg1
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg2
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S3x64 .f32 := Host.absf main_arg3
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg4 main_v13 main_v16
-- ==== Kernel.lean ====
abbrev S100000x64 : Shape := ⟨2, ![100000, 64]⟩
abbrev S3x64x64 : Shape := ⟨3, ![3, 64, 64]⟩
abbrev S3x64 : Shape := ⟨2, ![3, 64]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x64x64 : Shape := ⟨3, ![1, 64, 64]⟩
abbrev S64x64 : Shape := ⟨2, ![64, 64]⟩
abbrev S10000x64 : Shape := ⟨2, ![10000, 64]⟩
abbrev S1700000x64 : Shape := ⟨2, ![1700000, 64]⟩
abbrev S1x64 : Shape := ⟨2, ![1, 64]⟩
abbrev S64 : Shape := ⟨1, ![64]⟩
abbrev S10000 : Shape := ⟨1, ![10000]⟩
abbrev S10000x1 : Shape := ⟨2, ![10000, 1]⟩

abbrev nBuf : Space → Nat
  | .hbm => 132
  | .vmem => 36
  | .smem => 0
  | _ => 0

abbrev hbmTy0_0 (i : Nat) : BufTy := match i % 128 with
  | 0 => ⟨S100000x64, .f32⟩
  | 1 => ⟨S3x64x64, .f32⟩
  | 2 => ⟨S3x64, .f32⟩
  | 3 => ⟨S3x64, .f32⟩
  | 4 => ⟨S3x64, .f32⟩
  | 5 => ⟨S2x1600000, .i32⟩
  | 6 => ⟨S100000, .i32⟩
  | 7 => ⟨S1x1600000, .i32⟩
  | 8 => ⟨S1600000, .i32⟩
  | 9 => ⟨S1700000, .i32⟩
  | 10 => ⟨S1x1600000, .i32⟩
  | 11 => ⟨S1600000, .i32⟩
  | 12 => ⟨S1700000, .i32⟩
  | 13 => ⟨S_, .f32⟩
  | 14 => ⟨S1700000, .f32⟩
  | 15 => ⟨S_, .f32⟩
  | 16 => ⟨S100000, .f32⟩
  | 17 => ⟨S1700000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S100000, .f32⟩
  | 25 => ⟨S100000, .f32⟩
  | 26 => ⟨S_, .i32⟩
  | 27 => ⟨S1700000, .i32⟩
  | 28 => ⟨S1700000, .i1⟩
  | 29 => ⟨S_, .i32⟩
  | 30 => ⟨S1700000, .i32⟩
  | 31 => ⟨S1700000, .i32⟩
  | 32 => ⟨S1700000, .i32⟩
  | 33 => ⟨S1700000x1, .i32⟩
  | 34 => ⟨S1700000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S1700000, .f32⟩
  | 45 => ⟨S1x64x64, .f32⟩
  | 46 => ⟨S64x64, .f32⟩
  | 47 => ⟨S100000x64, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x64, .f32⟩
  | 57 => ⟨S1700000x1, .f32⟩
  | 58 => ⟨S1700000x64, .f32⟩
  | 59 => ⟨S1700000x64, .f32⟩
  | 60 => ⟨S_, .f32⟩
  | 61 => ⟨S100000x64, .f32⟩
  | 62 => ⟨S1700000x1, .i32⟩
  | 63 => ⟨S100000x64, .f32⟩
  | 64 => ⟨S1x64, .f32⟩
  | 65 => ⟨S64, .f32⟩
  | 66 => ⟨S1x64, .f32⟩
  | 67 => ⟨S64, .f32⟩
  | 68 => ⟨S1x64, .f32⟩
  | 69 => ⟨S64, .f32⟩
  | 70 => ⟨S1x64, .f32⟩
  | 71 => ⟨S1x64, .f32⟩
  | 72 => ⟨S1x64, .f32⟩
  | 73 => ⟨S100000x64, .f32⟩
  | 74 => ⟨S1x64x64, .f32⟩
  | 75 => ⟨S64x64, .f32⟩
  | 76 => ⟨S100000x64, .f32⟩
  | 77 => ⟨S_, .i32⟩
  | 78 => ⟨S1700000, .i32⟩
  | 79 => ⟨S1700000, .i1⟩
  | 80 => ⟨S_, .i32⟩
  | 81 => ⟨S1700000, .i32⟩
  | 82 => ⟨S1700000, .i32⟩
  | 83 => ⟨S1700000, .i32⟩
  | 84 => ⟨S1700000x1, .i32⟩
  | 85 => ⟨S1700000x64, .f32⟩
  | 86 => ⟨S1700000x1, .f32⟩
  | 87 => ⟨S1700000x64, .f32⟩
  | 88 => ⟨S1700000x64, .f32⟩
  | 89 => ⟨S_, .f32⟩
  | 90 => ⟨S100000x64, .f32⟩
  | 91 => ⟨S1700000x1, .i32⟩
  | 92 => ⟨S100000x64, .f32⟩
  | 93 => ⟨S1x64, .f32⟩
  | 94 => ⟨S64, .f32⟩
  | 95 => ⟨S1x64, .f32⟩
  | 96 => ⟨S64, .f32⟩
  | 97 => ⟨S1x64, .f32⟩
  | 98 => ⟨S64, .f32⟩
  | 99 => ⟨S1x64, .f32⟩
  | 100 => ⟨S1x64, .f32⟩
  | 101 => ⟨S1x64, .f32⟩
  | 102 => ⟨S100000x64, .f32⟩
  | 103 => ⟨S1x64x64, .f32⟩
  | 104 => ⟨S64x64, .f32⟩
  | 105 => ⟨S100000x64, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000x64, .f32⟩
  | 115 => ⟨S1700000x1, .f32⟩
  | 116 => ⟨S1700000x64, .f32⟩
  | 117 => ⟨S1700000x64, .f32⟩
  | 118 => ⟨S_, .f32⟩
  | 119 => ⟨S100000x64, .f32⟩
  | 120 => ⟨S1700000x1, .i32⟩
  | 121 => ⟨S100000x64, .f32⟩
  | 122 => ⟨S1x64, .f32⟩
  | 123 => ⟨S64, .f32⟩
  | 124 => ⟨S1x64, .f32⟩
  | 125 => ⟨S64, .f32⟩
  | 126 => ⟨S1x64, .f32⟩
  | 127 => ⟨S64, .f32⟩
  | _ => ⟨S100000x64, .f32⟩

abbrev hbmTy0_1 (i : Nat) : BufTy := match i % 128 with
  | 0 => ⟨S1x64, .f32⟩
  | 1 => ⟨S1x64, .f32⟩
  | 2 => ⟨S1x64, .f32⟩
  | 3 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S64x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S64x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S10000x64, .f32⟩
  | .local _ .vmem, ⟨35, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_c_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_c_9 : Ref sig .tc := ⟨.hbm, 77, rfl⟩
abbrev main_v60 : Ref sig .tc := ⟨.hbm, 78, rfl⟩
abbrev main_v61 : Ref sig .tc := ⟨.hbm, 79, rfl⟩
abbrev main_c_10 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_11 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_c_12 : Ref sig .tc := ⟨.hbm, 106, rfl⟩
abbrev main_v86 : Ref sig .tc := ⟨.hbm, 107, rfl⟩
abbrev main_v87 : Ref sig .tc := ⟨.hbm, 108, rfl⟩
abbrev main_c_13 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_cst_14 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg4_0 : Ref sig .tc := ⟨.vmem, 34, rfl⟩
abbrev cc5_stg4_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem4_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem4_0 : DmaSem sig := 34
abbrev cc5_sem4_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S10000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  slices_S3x64x64_S1x64x64_0_0_0 : S3x64x64.Slices ![0, 0, 0] S1x64x64
  shapeCasts_S1x64x64_S64x64 : S1x64x64.ShapeCasts S64x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  slices_S3x64_S1x64_0_0 : S3x64.Slices ![0, 0] S1x64
  shapeCasts_S1x64_S64 : S1x64.ShapeCasts S64
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  reduces_S10000x64_S10000 : S10000x64.Reduces [1] S10000
  shapeCasts_S10000_S10000x1 : S10000.ShapeCasts S10000x1
  broadcasts_S10000x1_S10000x64 : S10000x1.Broadcasts S10000x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S100000x64.size a
  hwx3_4 : ∀ i : grid3.Coords, EltTy.bits .f32 = 32 ∨ (Rect.block (s := S100000x64) S10000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10000x64.size a ≤ S100000x64.size a
  hwx5_4 : ∀ i : grid5.Coords, EltTy.bits .f32 = 32 ∨ (Rect.block (s := S100000x64) S10000x64.size (cc5_transform_4 i) (hinb5_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v56) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v56) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v72) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v79) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v80) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v81) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v82) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v82) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v84) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v85) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v98) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v105) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v106) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v107) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v108) S10000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x64 : Shape := ⟨2, ![100000, 64]⟩
abbrev S3x64x64 : Shape := ⟨3, ![3, 64, 64]⟩
abbrev S3x64 : Shape := ⟨2, ![3, 64]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x64x64 : Shape := ⟨3, ![1, 64, 64]⟩
abbrev S64x64 : Shape := ⟨2, ![64, 64]⟩
abbrev S1700000x64 : Shape := ⟨2, ![1700000, 64]⟩
abbrev S1x64 : Shape := ⟨2, ![1, 64]⟩
abbrev S64 : Shape := ⟨1, ![64]⟩
abbrev S100000x1 : Shape := ⟨2, ![100000, 1]⟩

abbrev nBuf : Space → Nat
  | .hbm => 222
  | .vmem => 0
  | .smem => 0
  | _ => 0

abbrev hbmTy0_0 (i : Nat) : BufTy := match i % 128 with
  | 0 => ⟨S100000x64, .f32⟩
  | 1 => ⟨S3x64x64, .f32⟩
  | 2 => ⟨S3x64, .f32⟩
  | 3 => ⟨S3x64, .f32⟩
  | 4 => ⟨S3x64, .f32⟩
  | 5 => ⟨S2x1600000, .i32⟩
  | 6 => ⟨S100000, .i32⟩
  | 7 => ⟨S1x1600000, .i32⟩
  | 8 => ⟨S1600000, .i32⟩
  | 9 => ⟨S1700000, .i32⟩
  | 10 => ⟨S1x1600000, .i32⟩
  | 11 => ⟨S1600000, .i32⟩
  | 12 => ⟨S1700000, .i32⟩
  | 13 => ⟨S_, .f32⟩
  | 14 => ⟨S1700000, .f32⟩
  | 15 => ⟨S_, .f32⟩
  | 16 => ⟨S100000, .f32⟩
  | 17 => ⟨S1700000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S100000, .f32⟩
  | 25 => ⟨S100000, .f32⟩
  | 26 => ⟨S_, .i32⟩
  | 27 => ⟨S1700000, .i32⟩
  | 28 => ⟨S1700000, .i1⟩
  | 29 => ⟨S_, .i32⟩
  | 30 => ⟨S1700000, .i32⟩
  | 31 => ⟨S1700000, .i32⟩
  | 32 => ⟨S1700000, .i32⟩
  | 33 => ⟨S1700000x1, .i32⟩
  | 34 => ⟨S1700000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S1700000, .f32⟩
  | 45 => ⟨S1x64x64, .f32⟩
  | 46 => ⟨S64x64, .f32⟩
  | 47 => ⟨S100000x64, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x64, .f32⟩
  | 57 => ⟨S1700000x1, .f32⟩
  | 58 => ⟨S1700000x64, .f32⟩
  | 59 => ⟨S1700000x64, .f32⟩
  | 60 => ⟨S_, .f32⟩
  | 61 => ⟨S100000x64, .f32⟩
  | 62 => ⟨S1700000x1, .i32⟩
  | 63 => ⟨S100000x64, .f32⟩
  | 64 => ⟨S1x64, .f32⟩
  | 65 => ⟨S64, .f32⟩
  | 66 => ⟨S1x64, .f32⟩
  | 67 => ⟨S100000x64, .f32⟩
  | 68 => ⟨S100000x64, .f32⟩
  | 69 => ⟨S1x64, .f32⟩
  | 70 => ⟨S64, .f32⟩
  | 71 => ⟨S1x64, .f32⟩
  | 72 => ⟨S64, .f32⟩
  | 73 => ⟨S_, .f32⟩
  | 74 => ⟨S100000, .f32⟩
  | 75 => ⟨S100000x1, .f32⟩
  | 76 => ⟨S_, .f32⟩
  | 77 => ⟨S100000x1, .f32⟩
  | 78 => ⟨S100000x1, .f32⟩
  | 79 => ⟨S100000x64, .f32⟩
  | 80 => ⟨S100000x64, .f32⟩
  | 81 => ⟨S100000x64, .f32⟩
  | 82 => ⟨S_, .f32⟩
  | 83 => ⟨S100000, .f32⟩
  | 84 => ⟨S100000x1, .f32⟩
  | 85 => ⟨S_, .f32⟩
  | 86 => ⟨S100000x1, .f32⟩
  | 87 => ⟨S100000x1, .f32⟩
  | 88 => ⟨S100000x64, .f32⟩
  | 89 => ⟨S100000x64, .f32⟩
  | 90 => ⟨S_, .f32⟩
  | 91 => ⟨S100000x1, .f32⟩
  | 92 => ⟨S100000x1, .f32⟩
  | 93 => ⟨S100000x1, .f32⟩
  | 94 => ⟨S100000x64, .f32⟩
  | 95 => ⟨S100000x64, .f32⟩
  | 96 => ⟨S1x64, .f32⟩
  | 97 => ⟨S100000x64, .f32⟩
  | 98 => ⟨S100000x64, .f32⟩
  | 99 => ⟨S1x64, .f32⟩
  | 100 => ⟨S100000x64, .f32⟩
  | 101 => ⟨S100000x64, .f32⟩
  | 102 => ⟨S_, .f32⟩
  | 103 => ⟨S100000x64, .f32⟩
  | 104 => ⟨S100000x64, .f32⟩
  | 105 => ⟨S1x64x64, .f32⟩
  | 106 => ⟨S64x64, .f32⟩
  | 107 => ⟨S100000x64, .f32⟩
  | 108 => ⟨S_, .i32⟩
  | 109 => ⟨S1700000, .i32⟩
  | 110 => ⟨S1700000, .i1⟩
  | 111 => ⟨S_, .i32⟩
  | 112 => ⟨S1700000, .i32⟩
  | 113 => ⟨S1700000, .i32⟩
  | 114 => ⟨S1700000, .i32⟩
  | 115 => ⟨S1700000x1, .i32⟩
  | 116 => ⟨S1700000x64, .f32⟩
  | 117 => ⟨S1700000x1, .f32⟩
  | 118 => ⟨S1700000x64, .f32⟩
  | 119 => ⟨S1700000x64, .f32⟩
  | 120 => ⟨S_, .f32⟩
  | 121 => ⟨S100000x64, .f32⟩
  | 122 => ⟨S1700000x1, .i32⟩
  | 123 => ⟨S100000x64, .f32⟩
  | 124 => ⟨S1x64, .f32⟩
  | 125 => ⟨S64, .f32⟩
  | 126 => ⟨S1x64, .f32⟩
  | 127 => ⟨S100000x64, .f32⟩
  | _ => ⟨S100000x64, .f32⟩

abbrev hbmTy0_1 (i : Nat) : BufTy := match i % 128 with
  | 0 => ⟨S100000x64, .f32⟩
  | 1 => ⟨S1x64, .f32⟩
  | 2 => ⟨S64, .f32⟩
  | 3 => ⟨S1x64, .f32⟩
  | 4 => ⟨S64, .f32⟩
  | 5 => ⟨S_, .f32⟩
  | 6 => ⟨S100000, .f32⟩
  | 7 => ⟨S100000x1, .f32⟩
  | 8 => ⟨S_, .f32⟩
  | 9 => ⟨S100000x1, .f32⟩
  | 10 => ⟨S100000x1, .f32⟩
  | 11 => ⟨S100000x64, .f32⟩
  | 12 => ⟨S100000x64, .f32⟩
  | 13 => ⟨S100000x64, .f32⟩
  | 14 => ⟨S_, .f32⟩
  | 15 => ⟨S100000, .f32⟩
  | 16 => ⟨S100000x1, .f32⟩
  | 17 => ⟨S_, .f32⟩
  | 18 => ⟨S100000x1, .f32⟩
  | 19 => ⟨S100000x1, .f32⟩
  | 20 => ⟨S100000x64, .f32⟩
  | 21 => ⟨S100000x64, .f32⟩
  | 22 => ⟨S_, .f32⟩
  | 23 => ⟨S100000x1, .f32⟩
  | 24 => ⟨S100000x1, .f32⟩
  | 25 => ⟨S100000x1, .f32⟩
  | 26 => ⟨S100000x64, .f32⟩
  | 27 => ⟨S100000x64, .f32⟩
  | 28 => ⟨S1x64, .f32⟩
  | 29 => ⟨S100000x64, .f32⟩
  | 30 => ⟨S100000x64, .f32⟩
  | 31 => ⟨S1x64, .f32⟩
  | 32 => ⟨S100000x64, .f32⟩
  | 33 => ⟨S100000x64, .f32⟩
  | 34 => ⟨S_, .f32⟩
  | 35 => ⟨S100000x64, .f32⟩
  | 36 => ⟨S100000x64, .f32⟩
  | 37 => ⟨S1x64x64, .f32⟩
  | 38 => ⟨S64x64, .f32⟩
  | 39 => ⟨S100000x64, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000x64, .f32⟩
  | 49 => ⟨S1700000x1, .f32⟩
  | 50 => ⟨S1700000x64, .f32⟩
  | 51 => ⟨S1700000x64, .f32⟩
  | 52 => ⟨S_, .f32⟩
  | 53 => ⟨S100000x64, .f32⟩
  | 54 => ⟨S1700000x1, .i32⟩
  | 55 => ⟨S100000x64, .f32⟩
  | 56 => ⟨S1x64, .f32⟩
  | 57 => ⟨S64, .f32⟩
  | 58 => ⟨S1x64, .f32⟩
  | 59 => ⟨S100000x64, .f32⟩
  | 60 => ⟨S100000x64, .f32⟩
  | 61 => ⟨S1x64, .f32⟩
  | 62 => ⟨S64, .f32⟩
  | 63 => ⟨S1x64, .f32⟩
  | 64 => ⟨S64, .f32⟩
  | 65 => ⟨S_, .f32⟩
  | 66 => ⟨S100000, .f32⟩
  | 67 => ⟨S100000x1, .f32⟩
  | 68 => ⟨S_, .f32⟩
  | 69 => ⟨S100000x1, .f32⟩
  | 70 => ⟨S100000x1, .f32⟩
  | 71 => ⟨S100000x64, .f32⟩
  | 72 => ⟨S100000x64, .f32⟩
  | 73 => ⟨S100000x64, .f32⟩
  | 74 => ⟨S_, .f32⟩
  | 75 => ⟨S100000, .f32⟩
  | 76 => ⟨S100000x1, .f32⟩
  | 77 => ⟨S_, .f32⟩
  | 78 => ⟨S100000x1, .f32⟩
  | 79 => ⟨S100000x1, .f32⟩
  | 80 => ⟨S100000x64, .f32⟩
  | 81 => ⟨S100000x64, .f32⟩
  | 82 => ⟨S_, .f32⟩
  | 83 => ⟨S100000x1, .f32⟩
  | 84 => ⟨S100000x1, .f32⟩
  | 85 => ⟨S100000x1, .f32⟩
  | 86 => ⟨S100000x64, .f32⟩
  | 87 => ⟨S100000x64, .f32⟩
  | 88 => ⟨S1x64, .f32⟩
  | 89 => ⟨S100000x64, .f32⟩
  | 90 => ⟨S100000x64, .f32⟩
  | 91 => ⟨S1x64, .f32⟩
  | 92 => ⟨S100000x64, .f32⟩
  | 93 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_c_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_9 : Ref sig .tc := ⟨.hbm, 73, rfl⟩
abbrev main_v56 : Ref sig .tc := ⟨.hbm, 74, rfl⟩
abbrev main_v57 : Ref sig .tc := ⟨.hbm, 75, rfl⟩
abbrev main_cst_10 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_11 : Ref sig .tc := ⟨.hbm, 82, rfl⟩
abbrev main_v63 : Ref sig .tc := ⟨.hbm, 83, rfl⟩
abbrev main_v64 : Ref sig .tc := ⟨.hbm, 84, rfl⟩
abbrev main_cst_12 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_13 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_call1_cst : Ref sig .tc := ⟨.hbm, 102, rfl⟩
abbrev main_call1_v0 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_c_14 : Ref sig .tc := ⟨.hbm, 108, rfl⟩
abbrev main_v84 : Ref sig .tc := ⟨.hbm, 109, rfl⟩
abbrev main_v85 : Ref sig .tc := ⟨.hbm, 110, rfl⟩
abbrev main_c_15 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_cst_16 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_cst_17 : Ref sig .tc := ⟨.hbm, 133, rfl⟩
abbrev main_v106 : Ref sig .tc := ⟨.hbm, 134, rfl⟩
abbrev main_v107 : Ref sig .tc := ⟨.hbm, 135, rfl⟩
abbrev main_cst_18 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_cst_19 : Ref sig .tc := ⟨.hbm, 142, rfl⟩
abbrev main_v113 : Ref sig .tc := ⟨.hbm, 143, rfl⟩
abbrev main_v114 : Ref sig .tc := ⟨.hbm, 144, rfl⟩
abbrev main_cst_20 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_cst_21 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_call2_cst : Ref sig .tc := ⟨.hbm, 162, rfl⟩
abbrev main_call2_v0 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_c_22 : Ref sig .tc := ⟨.hbm, 168, rfl⟩
abbrev main_v134 : Ref sig .tc := ⟨.hbm, 169, rfl⟩
abbrev main_v135 : Ref sig .tc := ⟨.hbm, 170, rfl⟩
abbrev main_c_23 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_cst_24 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_cst_25 : Ref sig .tc := ⟨.hbm, 193, rfl⟩
abbrev main_v156 : Ref sig .tc := ⟨.hbm, 194, rfl⟩
abbrev main_v157 : Ref sig .tc := ⟨.hbm, 195, rfl⟩
abbrev main_cst_26 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_cst_27 : Ref sig .tc := ⟨.hbm, 202, rfl⟩
abbrev main_v163 : Ref sig .tc := ⟨.hbm, 203, rfl⟩
abbrev main_v164 : Ref sig .tc := ⟨.hbm, 204, rfl⟩
abbrev main_cst_28 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_cst_29 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  slices_S3x64x64_S1x64x64_0_0_0 : S3x64x64.Slices ![0, 0, 0] S1x64x64
  shapeCasts_S1x64x64_S64x64 : S1x64x64.ShapeCasts S64x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Spec.lean ====
/-
  A three-layer graph convolution with layer normalisation, written once as a function of the argument arrays.

  Each edge list entry (s, d) carries features from node s to node d; every node also sends to itself.  With
  deg(d) the number of entries arriving at d and w(s, d) = deg(s)^(-1/2) · deg(d)^(-1/2), one layer maps the
  node features H to  LN( Σ_{(s,d)} w(s,d) · (H · W)[s]  accumulated at d,  + b ), where LN normalises each
  row to mean 0 and variance 1 (variance shifted by a small constant), scales by γ and shifts by β; the first
  two layers are followed by max(·, 0).  Every piece below is one step of that description over whole arrays.
-/
import proofs.«162604_j70600672412128_1_alg».proof.Proof.Gen.ReferenceIdeal
import Idealize.ShloMosaic.PureOps.Ideal

noncomputable section

namespace Cert.Gcn

open Cert.ReferenceIdeal Cert.ReferenceIdeal.Gen Idealize.ShloMosaic Idealize.ShloMosaic.TcCoe

variable {F : FTy → Type} [FloatOps F]

/-- Node features: one row of 64 numbers per node. -/
abbrev Feat (F : FTy → Type) := (⟨S100000x64, .f32⟩ : BufTy).Contents (Elt F)
/-- A 64 × 64 weight matrix. -/
abbrev Mat (F : FTy → Type) := (⟨S64x64, .f32⟩ : BufTy).Contents (Elt F)
/-- A vector of 64 numbers (a bias, a scale, a shift). -/
abbrev Row (F : FTy → Type) := (⟨S64, .f32⟩ : BufTy).Contents (Elt F)
/-- One number per node, as a column. -/
abbrev Col (F : FTy → Type) := (⟨S100000x1, .f32⟩ : BufTy).Contents (Elt F)
/-- One node number per edge-list entry (self entries included). -/
abbrev Ends (F : FTy → Type) := (⟨S1700000, .i32⟩ : BufTy).Contents (Elt F)
/-- One weight per edge-list entry. -/
abbrev Wts (F : FTy → Type) := (⟨S1700000, .f32⟩ : BufTy).Contents (Elt F)

/-- The sources of the entries: row 0 of the edge list, then every node once. -/
def sources (e : (⟨S2x1600000, .i32⟩ : BufTy).Contents (Elt F)) : Ends F :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The targets of the entries: row 1 of the edge list, then every node once. -/
def targets (e : (⟨S2x1600000, .i32⟩ : BufTy).Contents (Elt F)) : Ends F :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- Node numbers as a lookup reads them: a negative number counts from the end. -/
def lookupAt (v : Ends F) : (⟨S1700000x1, .i32⟩ : BufTy).Contents (Elt F) :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- deg: how many entries arrive at each node. -/
def degree (dv : Ends F) : (⟨S100000, .f32⟩ : BufTy).Contents (Elt F) :=
  Host.scatterAdd scatter_S100000_S1700000x1_S1700000_n_0_0_1 (broadcastInDim S100000 ![] bcast_S_S100000 (constant S_ .f32 0x00000000#32))
    (broadcastInDim S1700000x1 ![0] bcast_S1700000_S1700000x1_0 dv) (broadcastInDim S1700000 ![] bcast_S_S1700000 (constant S_ .f32 0x3F800000#32))

/-- deg^(-1/2) where deg is positive, 0 elsewhere. -/
def degInvSqrt (dv : Ends F) : (⟨S100000, .f32⟩ : BufTy).Contents (Elt F) :=
  select (cmpf .ogt (degree dv) (broadcastInDim S100000 ![] bcast_S_S100000 (constant S_ .f32 0x00000000#32))) (Host.rsqrt (degree dv))
    (broadcastInDim S100000 ![] bcast_S_S100000 (constant S_ .f32 0x00000000#32))

/-- w(s, d) = deg(s)^(-1/2) · deg(d)^(-1/2), per entry. -/
def weights (sv dv : Ends F) : Wts F :=
  mulf (Host.gather gather_S100000_S1700000x1_S1700000_n_0_n_n_0_1_1 (degInvSqrt dv) (lookupAt sv))
    (Host.gather gather_S100000_S1700000x1_S1700000_n_0_n_n_0_1_1 (degInvSqrt dv) (lookupAt dv))

/-- Σ over the entries (s, d) of w(s, d) · X[s], accumulated at row d. -/
def aggregate (sv dv : Ends F) (w : Wts F) (x : Feat F) : Feat F :=
  Host.scatterAdd scatter_S100000x64_S1700000x1_S1700000x64_1_0_0_1 (broadcastInDim S100000x64 ![] bcast_S_S100000x64 (constant S_ .f32 0x00000000#32))
    (broadcastInDim S1700000x1 ![0] bcast_S1700000_S1700000x1_0 dv)
    (mulf (Host.gather gather_S100000x64_S1700000x1_S1700000x64_1_0_n_n_0_1_164 x (lookupAt sv))
      (broadcastInDim S1700000x64 ![0, 1] bcast_S1700000x1_S1700000x64_0_1 (broadcastInDim S1700000x1 ![0] bcast_S1700000_S1700000x1_0 w)))

/-- H · W. -/
def dense (h : Feat F) (w : Mat F) : Feat F :=
  Host.dotGeneral dot_S100000x64_S64x64_S100000x64_1_0_0_1_n_n none h w

/-- Layer k's weight matrix. -/
def matOf (k : Nat) (hk : S3x64x64.Slices ![k, 0, 0] S1x64x64) (W : (⟨S3x64x64, .f32⟩ : BufTy).Contents (Elt F)) : Mat F :=
  shapeCast _ (extractStridedSlice S1x64x64 ![k, 0, 0] W hk) shapeCasts_S1x64x64_S64x64

/-- Layer k's row of a [3, 64] parameter. -/
def rowOf (k : Nat) (hk : S3x64.Slices ![k, 0] S1x64) (B : (⟨S3x64, .f32⟩ : BufTy).Contents (Elt F)) : Row F :=
  shapeCast _ (extractStridedSlice S1x64 ![k, 0] B hk) shapeCasts_S1x64_S64

/-- A vector of 64 repeated on every row. -/
def everyRow (b : Row F) : Feat F :=
  broadcastInDim S100000x64 ![0, 1] bcast_S1x64_S100000x64_0_1 (broadcastInDim S1x64 ![1] bcast_S64_S1x64_1 b)

/-- A column repeated across the 64 lanes. -/
def acrossLanes (v : Col F) : Feat F :=
  broadcastInDim S100000x64 ![0, 1] bcast_S100000x1_S100000x64_0_1 v

/-- The mean of each row: its sum divided by 64. -/
def rowMean (h : Feat F) : Col F :=
  Host.divf (broadcastInDim S100000x1 ![0] bcast_S100000_S100000x1_0 (Host.reduceAdd h (constant S_ .f32 0x00000000#32) reducesTo_S100000x64_S100000_d1 h_S_))
    (broadcastInDim S100000x1 ![] bcast_S_S100000x1 (constant S_ .f32 0x42800000#32))

/-- Each row minus its mean. -/
def centred (h : Feat F) : Feat F := subf h (acrossLanes (rowMean h))

/-- (variance + ε)^(-1/2) of each row, the variance the mean of the squared centred row. -/
def invStd (h : Feat F) : Col F :=
  Host.rsqrt (addf (rowMean (mulf (centred h) (centred h))) (broadcastInDim S100000x1 ![] bcast_S_S100000x1 (constant S_ .f32 0x3727C5AC#32)))

/-- LN(a + b): centred, scaled to unit variance, times γ, plus β. -/
def layerNorm (a : Feat F) (b g β : Row F) : Feat F :=
  addf (mulf (mulf (centred (addf a (everyRow b))) (acrossLanes (invStd (addf a (everyRow b))))) (everyRow g)) (everyRow β)

/-- max(·, 0). -/
def relu (x : Feat F) : Feat F :=
  maximumf x (broadcastInDim S100000x64 ![] bcast_S_S100000x64 (constant S_ .f32 0x00000000#32))

/-- One layer before its activation. -/
def layer (sv dv : Ends F) (w : Wts F) (h : Feat F) (wk : Mat F) (b g β : Row F) : Feat F :=
  layerNorm (aggregate sv dv w (dense h wk)) b g β

/-- The network: three layers, max(·, 0) after the first two. -/
def gcn (x : Feat F) (W : (⟨S3x64x64, .f32⟩ : BufTy).Contents (Elt F)) (B G Bt : (⟨S3x64, .f32⟩ : BufTy).Contents (Elt F))
    (e : (⟨S2x1600000, .i32⟩ : BufTy).Contents (Elt F)) : Feat F :=
  layer (sources e) (targets e) (weights (sources e) (targets e))
    (relu (layer (sources e) (targets e) (weights (sources e) (targets e))
      (relu (layer (sources e) (targets e) (weights (sources e) (targets e)) x
        (matOf 0 slices_S3x64x64_S1x64x64_0_0_0 W) (rowOf 0 slices_S3x64_S1x64_0_0 B) (rowOf 0 slices_S3x64_S1x64_0_0 G) (rowOf 0 slices_S3x64_S1x64_0_0 Bt)))
      (matOf 1 slices_S3x64x64_S1x64x64_1_0_0 W) (rowOf 1 slices_S3x64_S1x64_1_0 B) (rowOf 1 slices_S3x64_S1x64_1_0 G) (rowOf 1 slices_S3x64_S1x64_1_0 Bt)))
    (matOf 2 slices_S3x64x64_S1x64x64_2_0_0 W) (rowOf 2 slices_S3x64_S1x64_2_0 B) (rowOf 2 slices_S3x64_S1x64_2_0 G) (rowOf 2 slices_S3x64_S1x64_2_0 Bt)

end Cert.Gcn

end
-- ==== Proof.KernelReads.lean ====
/-
  The kernel program's host stretches, read one buffer at a time.

  Between the launches the program runs plain host operations.  Over ANY contents K of the buffers a stretch finds,
  each buffer the proof follows is either left alone by the stretch or written with a named piece of the network's
  description applied to what K holds: the sources and targets of the entry lists, the degree's inverse square
  root, the entries' weights, a layer's weight matrix, the weighted sum over the entries arriving at each node, and
  the three parameter rows of a layer as [1, 64] arrays.
-/
import proofs.«162604_j70600672412128_1_alg».proof.Proof.Gen.KernelIdeal.Frame
import proofs.«162604_j70600672412128_1_alg».proof.Proof.Spec
import Idealize.ShloMosaic.Lib.StableHlo.Run
import Idealize.ShloMosaic.Lib.ValueIdx

set_option maxRecDepth 16384

noncomputable section

namespace Cert.KernelIdeal.Out

open Cert.KernelIdeal Cert.KernelIdeal.Gen
open Idealize.ShloMosaic Idealize.ShloMosaic.TcCoe Idealize.ShloMosaic.ValueIdx
open Idealize.SL.Sem
open Idealize.ShloMosaic.Pipeline (Dat Cfg Window)

open Idealize.ShloMosaic.StableHlo

/-- No operation of a literal stretch writes the buffer: each operation's result buffer is another one. -/
macro "host_keeps " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## Buffers a stretch of host operations leaves alone -/

theorem kept_hostOps0_arg0 (K : Valuation τ sig (Elt Ideal)) : StableHlo.after hostOps0 K (Proc.devRef .tc main_arg0) = K (Proc.devRef .tc main_arg0) := by host_keeps hostOps0
theorem kept_hostOps0_arg1 (K : Valuation τ sig (Elt Ideal)) : StableHlo.after hostOps0 K (Proc.devRef .tc main_arg1) = K (Proc.devRef .tc main_arg1) := by host_keeps hostOps0
theorem kept_hostOps0_arg2 (K : Valuation τ sig (Elt Ideal)) : StableHlo.after hostOps0 K (Proc.devRef .tc main_arg2) = K (Proc.devRef .tc main_arg2) := by host_keeps hostOps0
theorem kept_hostOps0_arg3 (K : Valuation τ sig (Elt Ideal)) : StableHlo.after hostOps0 K (Proc.devRef .tc main_arg3) = K (Proc.devRef .tc main_arg3) := by host_keeps hostOps0
theorem kept_hostOps0_arg4 (K : Valuation τ sig (Elt Ideal)) : StableHlo.after hostOps0 K (Proc.devRef .tc main_arg4) = K (Proc.devRef .tc main_arg4) := by host_keeps hostOps0
theorem kept_hostOps0_1_v3 (K : Valuation τ sig (Elt Ideal)) : StableHlo.after hostOps0_1 K (Proc.devRef .tc main_v3) = K (Proc.devRef .tc main_v3) := by host_keeps hostOps0_1
theorem kept_hostOps0_1_v6 (K : Valuation τ sig (Elt Ideal)) : StableHlo.after hostOps0_1 K (Proc.devRef .tc main_v6) = K (Proc.devRef .tc main_v6) := by host_keeps hostOps0_1
theorem kept_hostOps0_1_arg0 (K : Valuation τ sig (Elt Ideal)) : StableHlo.after hostOps0_1 K (Proc.devRef .tc main_arg0) = K (Proc.devRef .tc main_arg0) := by host_keeps hostOps0_1
theorem kept_hostOps0_1_arg1 (K : Valuation τ sig (Elt Ideal)) : StableHlo.after hostOps0_1 K (Proc.devRef .tc main_arg1) = K (Proc.devRef .tc main_arg1) := by host_keeps hostOps0_1
theorem kept_hostOps0_1_arg2 (K : Valuation τ sig (Elt Ideal)) : StableHlo.after hostOps0_1 K (Proc.devRef .tc main_arg2) = K (Proc.devRef .tc main_arg2) := by host_keeps hostOps0_1
theorem kept_hostOps0_1_arg3 (K : Valuation τ sig (Elt Ideal)) : StableHlo.after hostOps0_1 K (Proc.devRef .tc main_arg3) = K (Proc.devRef .tc main_arg3) := by host_keeps hostOps0_1
theorem kept_hostOps0_1_arg4 (K : Valuation τ sig (Elt Ideal)) : StableHlo.after hostOps0_1 K (Proc.devRef .tc main_arg4) = K (Proc.devRef .tc main_arg4) := by host_keeps hostOps0_1
theorem kept_hostOps0_2_v3 (K : Valuation τ sig (Elt Ideal)) : StableHlo.after hostOps0_2 K (Proc.devRef .tc main_v3) = K (Proc.devRef .tc main_v3) := by host_keeps hostOps0_2
theorem kept_hostOps0_2_v6 (K : Valuation τ sig (Elt Ideal)) : StableHlo.after hostOps0_2 K (Proc.devRef .tc main_v6) = K (Proc.devRef .tc main_v6) := by host_keeps hostOps0_2
theorem kept_hostOps0_2_arg0 (K : Valuation τ sig (Elt Ideal)) : StableHlo.after hostOps0_2 K (Proc.devRef .tc main_arg0) = K (Proc.devRef .tc main_arg0) := by host_keeps hostOps0_2
theorem kept_hostOps0_2_arg1 (K : Valuation τ sig (Elt Ideal)) : StableHlo.after hostOps0_2 K (Proc.devRef .tc main_arg1) = K (Proc.devRef .tc main_arg1) := by host_keeps hostOps0_2
theorem kept_hostOps0_2_arg2 (K : Valuation τ sig (Elt Ideal)) : StableHlo.after hostOps0_2 K (Proc.devRef .tc main_arg2) = K (Proc.devRef .tc main_arg2) := by host_keeps hostOps0_2
theorem kept_hostOps0_2_arg3 (K : Valuation τ sig (Elt Ideal)) : StableHlo.after hostOps0_2 K (Proc.devRef .tc main_arg3) = K (Proc.devRef .tc main_arg3) := by host_keeps hostOps0_2
theorem kept_hostOps0_2_arg4 (K : Valuation τ sig (Elt Ideal)) : StableHlo.after hostOps0_2 K (Proc.devRef .tc main_arg4) = K (Proc.devRef .tc main_arg4) := by host_keeps hostOps0_2
theorem kept_hostOps1_v3 (K : Valuation τ sig (Elt Ideal)) : StableHlo.after hostOps1 K (Proc.devRef .tc main_v3) = K (Proc.devRef .tc main_v3) := by host_keeps hostOps1
theorem kept_hostOps1_v6 (K : Valuation τ sig (Elt Ideal)) : StableHlo.after hostOps1 K (Proc.devRef .tc main_v6) = K (Proc.devRef .tc main_v6) := by host_keeps hostOps1
theorem kept_hostOps1_v30 (K : Valuation τ sig (Elt Ideal)) : StableHlo.after hostOps1 K (Proc.devRef .tc main_v30) = K (Proc.devRef .tc main_v30) := by host_keeps hostOps1
theorem kept_hostOps1_arg1 (K : Valuation τ sig (Elt Ideal)) : StableHlo.after hostOps1 K (Proc.devRef .tc main_arg1) = K (Proc.devRef .tc main_arg1) := by host_keeps hostOps1
theorem kept_hostOps1_arg2 (K : Valuation τ sig (Elt Ideal)) : StableHlo.after hostOps1 K (Proc.devRef .tc main_arg2) = K (Proc.devRef .tc main_arg2) := by host_keeps hostOps1
theorem kept_hostOps1_arg3 (K : Valuation τ sig (Elt Ideal)) : StableHlo.after hostOps1 K (Proc.devRef .tc main_arg3) = K (Proc.devRef .tc main_arg3) := by host_keeps hostOps1
theorem kept_hostOps1_arg4 (K : Valuation τ sig (Elt Ideal)) : StableHlo.after hostOps1 K (Proc.devRef .tc main_arg4) = K (Proc.devRef .tc main_arg4) := by host_keeps hostOps1
theorem kept_hostOps2_v3 (K : Valuation τ sig (Elt Ideal)) : StableHlo.after hostOps2 K (Proc.devRef .tc main_v3) = K (Proc.devRef .tc main_v3) := by host_keeps hostOps2
theorem kept_hostOps2_v6 (K : Valuation τ sig (Elt Ideal)) : StableHlo.after hostOps2 K (Proc.devRef .tc main_v6) = K (Proc.devRef .tc main_v6) := by host_keeps hostOps2
theorem kept_hostOps2_v30 (K : Valuation τ sig (Elt Ideal)) : StableHlo.after hostOps2 K (Proc.devRef .tc main_v30) = K (Proc.devRef .tc main_v30) := by host_keeps hostOps2
theorem kept_hostOps2_arg1 (K : Valuation τ sig (Elt Ideal)) : StableHlo.after hostOps2 K (Proc.devRef .tc main_arg1) = K (Proc.devRef .tc main_arg1) := by host_keeps hostOps2
theorem kept_hostOps2_arg2 (K : Valuation τ sig (Elt Ideal)) : StableHlo.after hostOps2 K (Proc.devRef .tc main_arg2) = K (Proc.devRef .tc main_arg2) := by host_keeps hostOps2
theorem kept_hostOps2_arg3 (K : Valuation τ sig (Elt Ideal)) : StableHlo.after hostOps2 K (Proc.devRef .tc main_arg3) = K (Proc.devRef .tc main_arg3) := by host_keeps hostOps2
theorem kept_hostOps2_arg4 (K : Valuation τ sig (Elt Ideal)) : StableHlo.after hostOps2 K (Proc.devRef .tc main_arg4) = K (Proc.devRef .tc main_arg4) := by host_keeps hostOps2
theorem kept_hostOps2_v56 (K : Valuation τ sig (Elt Ideal)) : StableHlo.after hostOps2 K (Proc.devRef .tc main_v56) = K (Proc.devRef .tc main_v56) := by host_keeps hostOps2
theorem kept_hostOps3_v3 (K : Valuation τ sig (Elt Ideal)) : StableHlo.after hostOps3 K (Proc.devRef .tc main_v3) = K (Proc.devRef .tc main_v3) := by host_keeps hostOps3
theorem kept_hostOps3_v6 (K : Valuation τ sig (Elt Ideal)) : StableHlo.after hostOps3 K (Proc.devRef .tc main_v6) = K (Proc.devRef .tc main_v6) := by host_keeps hostOps3
theorem kept_hostOps3_v30 (K : Valuation τ sig (Elt Ideal)) : StableHlo.after hostOps3 K (Proc.devRef .tc main_v30) = K (Proc.devRef .tc main_v30) := by host_keeps hostOps3
theorem kept_hostOps3_arg1 (K : Valuation τ sig (Elt Ideal)) : StableHlo.after hostOps3 K (Proc.devRef .tc main_arg1) = K (Proc.devRef .tc main_arg1) := by host_keeps hostOps3
theorem kept_hostOps3_arg2 (K : Valuation τ sig (Elt Ideal)) : StableHlo.after hostOps3 K (Proc.devRef .tc main_arg2) = K (Proc.devRef .tc main_arg2) := by host_keeps hostOps3
theorem kept_hostOps3_arg3 (K : Valuation τ sig (Elt Ideal)) : StableHlo.after hostOps3 K (Proc.devRef .tc main_arg3) = K (Proc.devRef .tc main_arg3) := by host_keeps hostOps3
theorem kept_hostOps3_arg4 (K : Valuation τ sig (Elt Ideal)) : StableHlo.after hostOps3 K (Proc.devRef .tc main_arg4) = K (Proc.devRef .tc main_arg4) := by host_keeps hostOps3
theorem kept_hostOps4_v3 (K : Valuation τ sig (Elt Ideal)) : StableHlo.after hostOps4 K (Proc.devRef .tc main_v3) = K (Proc.devRef .tc main_v3) := by host_keeps hostOps4
theorem kept_hostOps4_v6 (K : Valuation τ sig (Elt Ideal)) : StableHlo.after hostOps4 K (Proc.devRef .tc main_v6) = K (Proc.devRef .tc main_v6) := by host_keeps hostOps4
theorem kept_hostOps4_v30 (K : Valuation τ sig (Elt Ideal)) : StableHlo.after hostOps4 K (Proc.devRef .tc main_v30) = K (Proc.devRef .tc main_v30) := by host_keeps hostOps4
theorem kept_hostOps4_arg1 (K : Valuation τ sig (Elt Ideal)) : StableHlo.after hostOps4 K (Proc.devRef .tc main_arg1) = K (Proc.devRef .tc main_arg1) := by host_keeps hostOps4
theorem kept_hostOps4_arg2 (K : Valuation τ sig (Elt Ideal)) : StableHlo.after hostOps4 K (Proc.devRef .tc main_arg2) = K (Proc.devRef .tc main_arg2) := by host_keeps hostOps4
theorem kept_hostOps4_arg3 (K : Valuation τ sig (Elt Ideal)) : StableHlo.after hostOps4 K (Proc.devRef .tc main_arg3) = K (Proc.devRef .tc main_arg3) := by host_keeps hostOps4
theorem kept_hostOps4_arg4 (K : Valuation τ sig (Elt Ideal)) : StableHlo.after hostOps4 K (Proc.devRef .tc main_arg4) = K (Proc.devRef .tc main_arg4) := by host_keeps hostOps4
theorem kept_hostOps4_v82 (K : Valuation τ sig (Elt Ideal)) : StableHlo.after hostOps4 K (Proc.devRef .tc main_v82) = K (Proc.devRef .tc main_v82) := by host_keeps hostOps4

/-! ## What a stretch of host operations writes, as a piece of the network's description -/

set_option maxHeartbeats 4000000 in
theorem read_sources (K : Valuation τ sig (Elt Ideal)) : StableHlo.after hostOps0 K (Proc.devRef .tc main_v3) = Cert.Gcn.sources (F := Ideal) (K (Proc.devRef .tc main_arg5)) := by
  after_results_simp <;> rfl
set_option maxHeartbeats 4000000 in
theorem read_targets (K : Valuation τ sig (Elt Ideal)) : StableHlo.after hostOps0 K (Proc.devRef .tc main_v6) = Cert.Gcn.targets (F := Ideal) (K (Proc.devRef .tc main_arg5)) := by
  after_results_simp <;> rfl
set_option maxHeartbeats 4000000 in
theorem read_degPositive (K : Valuation τ sig (Elt Ideal)) : StableHlo.after hostOps0 K (Proc.devRef .tc main_v12)
    = (cmpf (F := Ideal) .ogt (Cert.Gcn.degree (F := Ideal) (Cert.Gcn.targets (F := Ideal) (K (Proc.devRef .tc main_arg5)))) (broadcastInDim S100000 ![] bcast_S_S100000 (constant (F := Ideal) S_ .f32 0x00000000#32)) : (⟨S100000, .i1⟩ : BufTy).Contents (Elt Ideal)) := by
  after_results_simp <;> rfl
set_option maxHeartbeats 4000000 in
theorem read_degRsqrt (K : Valuation τ sig (Elt Ideal)) : StableHlo.after hostOps0 K (Proc.devRef .tc main_v13)
    = (Host.rsqrt (F := Ideal) (φ := .f32) (Cert.Gcn.degree (F := Ideal) (Cert.Gcn.targets (F := Ideal) (K (Proc.devRef .tc main_arg5)))) : (⟨S100000, .f32⟩ : BufTy).Contents (Elt Ideal)) := by
  after_results_simp <;> rfl
set_option maxHeartbeats 4000000 in
theorem read_zeros (K : Valuation τ sig (Elt Ideal)) : StableHlo.after hostOps0 K (Proc.devRef .tc main_v14)
    = (broadcastInDim S100000 ![] bcast_S_S100000 (constant (F := Ideal) S_ .f32 0x00000000#32) : (⟨S100000, .f32⟩ : BufTy).Contents (Elt Ideal)) := by
  after_results_simp <;> rfl
set_option maxHeartbeats 4000000 in
theorem read_degInvSqrt (K : Valuation τ sig (Elt Ideal)) : StableHlo.after hostOps0_1 K (Proc.devRef .tc main_v15)
    = (select (K (Proc.devRef .tc main_v12)) (K (Proc.devRef .tc main_v13)) (K (Proc.devRef .tc main_v14)) : (⟨S100000, .f32⟩ : BufTy).Contents (Elt Ideal)) := by
  after_results_simp <;> rfl
set_option maxHeartbeats 4000000 in
theorem read_weights (K : Valuation τ sig (Elt Ideal)) : StableHlo.after hostOps0_2 K (Proc.devRef .tc main_v30)
    = (mulf (F := Ideal) (φ := .f32) (Host.gather Cert.ReferenceIdeal.gather_S100000_S1700000x1_S1700000_n_0_n_n_0_1_1 (K (Proc.devRef .tc main_v15)) (Cert.Gcn.lookupAt (F := Ideal) (K (Proc.devRef .tc main_v3))))
        (Host.gather Cert.ReferenceIdeal.gather_S100000_S1700000x1_S1700000_n_0_n_n_0_1_1 (K (Proc.devRef .tc main_v15)) (Cert.Gcn.lookupAt (F := Ideal) (K (Proc.devRef .tc main_v6)))) : (⟨S1700000, .f32⟩ : BufTy).Contents (Elt Ideal)) := by
  after_results_simp <;> rfl
set_option maxHeartbeats 4000000 in
theorem read_matrix0 (K : Valuation τ sig (Elt Ideal)) : StableHlo.after hostOps0_2 K (Proc.devRef .tc main_v32) = Cert.Gcn.matOf (F := Ideal) 0 Cert.ReferenceIdeal.Gen.slices_S3x64x64_S1x64x64_0_0_0 (K (Proc.devRef .tc main_arg1)) := by
  after_results_simp <;> rfl
set_option maxHeartbeats 4000000 in
theorem read_aggregate0 (K : Valuation τ sig (Elt Ideal)) : StableHlo.after hostOps1 K (Proc.devRef .tc main_v46)
    = Cert.Gcn.aggregate (F := Ideal) (K (Proc.devRef .tc main_v3)) (K (Proc.devRef .tc main_v6)) (K (Proc.devRef .tc main_v30)) (K (Proc.devRef .tc main_v33)) := by
  after_results_simp <;> rfl
set_option maxHeartbeats 4000000 in
theorem read_bias0 (K : Valuation τ sig (Elt Ideal)) : StableHlo.after hostOps1 K (Proc.devRef .tc main_v53)
    = shapeCast _ (Cert.Gcn.rowOf (F := Ideal) 0 Cert.ReferenceIdeal.Gen.slices_S3x64_S1x64_0_0 (K (Proc.devRef .tc main_arg2))) shapeCasts_S64_S1x64 := by
  after_results_simp <;> rfl
set_option maxHeartbeats 4000000 in
theorem read_scale0 (K : Valuation τ sig (Elt Ideal)) : StableHlo.after hostOps1 K (Proc.devRef .tc main_v54)
    = shapeCast _ (Cert.Gcn.rowOf (F := Ideal) 0 Cert.ReferenceIdeal.Gen.slices_S3x64_S1x64_0_0 (K (Proc.devRef .tc main_arg3))) shapeCasts_S64_S1x64 := by
  after_results_simp <;> rfl
set_option maxHeartbeats 4000000 in
theorem read_shift0 (K : Valuation τ sig (Elt Ideal)) : StableHlo.after hostOps1 K (Proc.devRef .tc main_v55)
    = shapeCast _ (Cert.Gcn.rowOf (F := Ideal) 0 Cert.ReferenceIdeal.Gen.slices_S3x64_S1x64_0_0 (K (Proc.devRef .tc main_arg4))) shapeCasts_S64_S1x64 := by
  after_results_simp <;> rfl
set_option maxHeartbeats 4000000 in
theorem read_matrix1 (K : Valuation τ sig (Elt Ideal)) : StableHlo.after hostOps2 K (Proc.devRef .tc main_v58) = Cert.Gcn.matOf (F := Ideal) 1 Cert.ReferenceIdeal.Gen.slices_S3x64x64_S1x64x64_1_0_0 (K (Proc.devRef .tc main_arg1)) := by
  after_results_simp <;> rfl
set_option maxHeartbeats 4000000 in
theorem read_aggregate1 (K : Valuation τ sig (Elt Ideal)) : StableHlo.after hostOps3 K (Proc.devRef .tc main_v72)
    = Cert.Gcn.aggregate (F := Ideal) (K (Proc.devRef .tc main_v3)) (K (Proc.devRef .tc main_v6)) (K (Proc.devRef .tc main_v30)) (K (Proc.devRef .tc main_v59)) := by
  after_results_simp <;> rfl
set_option maxHeartbeats 4000000 in
theorem read_bias1 (K : Valuation τ sig (Elt Ideal)) : StableHlo.after hostOps3 K (Proc.devRef .tc main_v79)
    = shapeCast _ (Cert.Gcn.rowOf (F := Ideal) 1 Cert.ReferenceIdeal.Gen.slices_S3x64_S1x64_1_0 (K (Proc.devRef .tc main_arg2))) shapeCasts_S64_S1x64 := by
  after_results_simp <;> rfl
set_option maxHeartbeats 4000000 in
theorem read_scale1 (K : Valuation τ sig (Elt Ideal)) : StableHlo.after hostOps3 K (Proc.devRef .tc main_v80)
    = shapeCast _ (Cert.Gcn.rowOf (F := Ideal) 1 Cert.ReferenceIdeal.Gen.slices_S3x64_S1x64_1_0 (K (Proc.devRef .tc main_arg3))) shapeCasts_S64_S1x64 := by
  after_results_simp <;> rfl
set_option maxHeartbeats 4000000 in
theorem read_shift1 (K : Valuation τ sig (Elt Ideal)) : StableHlo.after hostOps3 K (Proc.devRef .tc main_v81)
    = shapeCast _ (Cert.Gcn.rowOf (F := Ideal) 1 Cert.ReferenceIdeal.Gen.slices_S3x64_S1x64_1_0 (K (Proc.devRef .tc main_arg4))) shapeCasts_S64_S1x64 := by
  after_results_simp <;> rfl
set_option maxHeartbeats 4000000 in
theorem read_matrix2 (K : Valuation τ sig (Elt Ideal)) : StableHlo.after hostOps4 K (Proc.devRef .tc main_v84) = Cert.Gcn.matOf (F := Ideal) 2 Cert.ReferenceIdeal.Gen.slices_S3x64x64_S1x64x64_2_0_0 (K (Proc.devRef .tc main_arg1)) := by
  after_results_simp <;> rfl
set_option maxHeartbeats 4000000 in
theorem read_aggregate2 (K : Valuation τ sig (Elt Ideal)) : StableHlo.after hostOps5 K (Proc.devRef .tc main_v98)
    = Cert.Gcn.aggregate (F := Ideal) (K (Proc.devRef .tc main_v3)) (K (Proc.devRef .tc main_v6)) (K (Proc.devRef .tc main_v30)) (K (Proc.devRef .tc main_v85)) := by
  after_results_simp <;> rfl
set_option maxHeartbeats 4000000 in
theorem read_bias2 (K : Valuation τ sig (Elt Ideal)) : StableHlo.after hostOps5 K (Proc.devRef .tc main_v105)
    = shapeCast _ (Cert.Gcn.rowOf (F := Ideal) 2 Cert.ReferenceIdeal.Gen.slices_S3x64_S1x64_2_0 (K (Proc.devRef .tc main_arg2))) shapeCasts_S64_S1x64 := by
  after_results_simp <;> rfl
set_option maxHeartbeats 4000000 in
theorem read_scale2 (K : Valuation τ sig (Elt Ideal)) : StableHlo.after hostOps5 K (Proc.devRef .tc main_v106)
    = shapeCast _ (Cert.Gcn.rowOf (F := Ideal) 2 Cert.ReferenceIdeal.Gen.slices_S3x64_S1x64_2_0 (K (Proc.devRef .tc main_arg3))) shapeCasts_S64_S1x64 := by
  after_results_simp <;> rfl
set_option maxHeartbeats 4000000 in
theorem read_shift2 (K : Valuation τ sig (Elt Ideal)) : StableHlo.after hostOps5 K (Proc.devRef .tc main_v107)
    = shapeCast _ (Cert.Gcn.rowOf (F := Ideal) 2 Cert.ReferenceIdeal.Gen.slices_S3x64_S1x64_2_0 (K (Proc.devRef .tc main_arg4))) shapeCasts_S64_S1x64 := by
  after_results_simp <;> rfl

end Cert.KernelIdeal.Out

end
-- ==== Proof.DenseBlock.lean ====
/-
  One block of rows through the matrix product, entry by entry.

  Row p of the block is row ρ p of the whole array; entry (p, q) of the block's product with the weight matrix is
  the sum over k of block[p, k] · W[k, q], which is entry (ρ p, q) of the whole product.  Rounding the operands to
  a shorter float format on the way in does nothing on the extended reals.
-/
import proofs.«162604_j70600672412128_1_alg».proof.Proof.Spec
import proofs.«162604_j70600672412128_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Gcn

open Idealize.ShloMosaic Idealize.ShloMosaic.ValueIdx

/-- The dimension numbers of a block's product: [10000, 64] times [64, 64], contracting the block's columns with the
    matrix's rows. -/
abbrev blockDot := Cert.KernelIdeal.dot_S10000x64_S64x64_S10000x64_1_0_0_1_n_n
/-- The dimension numbers of the whole array's product: [100000, 64] times [64, 64], the same contraction. -/
abbrev wholeDot := Cert.ReferenceIdeal.dot_S100000x64_S64x64_S100000x64_1_0_0_1_n_n

/-! ### The operand indices of the block's product

At output position i and contraction position c the left operand is read at (i 0, c) and the right at (c, i 1). -/

theorem blockDot_lhs_row (i : Cert.KernelIdeal.S10000x64.Idx) (c : blockDot.contr.Idx) :
    (blockDot.lhsIdx i c 0).val = (i 0).val := by
  unfold DotDims.lhsIdx
  rw [dif_neg (show ¬(0 : Fin Cert.KernelIdeal.S10000x64.rank) ∈ blockDot.lhsBatch by decide),
    dif_pos (show (0 : Fin Cert.KernelIdeal.S10000x64.rank) ∈ blockDot.lhsNonContracting by decide)]
  rfl
theorem blockDot_lhs_col (i : Cert.KernelIdeal.S10000x64.Idx) (c : blockDot.contr.Idx) :
    (blockDot.lhsIdx i c 1).val = (c ⟨0, by decide⟩).val :=
  blockDot.lhsIdx_val_of_single rfl i c
theorem blockDot_rhs_row (i : Cert.KernelIdeal.S10000x64.Idx) (c : blockDot.contr.Idx) :
    (blockDot.rhsIdx i c 0).val = (c ⟨0, by decide⟩).val :=
  blockDot.rhsIdx_val_of_single rfl i c
theorem blockDot_rhs_col (i : Cert.KernelIdeal.S10000x64.Idx) (c : blockDot.contr.Idx) :
    (blockDot.rhsIdx i c 1).val = (i 1).val := by
  unfold DotDims.rhsIdx
  rw [dif_neg (show ¬(1 : Fin Cert.KernelIdeal.S64x64.rank) ∈ blockDot.rhsBatch by decide),
    dif_pos (show (1 : Fin Cert.KernelIdeal.S64x64.rank) ∈ blockDot.rhsNonContracting by decide)]
  rfl

/-- A block's product into the zero accumulator, at (p, q): the sum over k of a[p, k] · b[k, q]. -/
theorem blockMatmul_apply (a : FVec Ideal Cert.KernelIdeal.S10000x64 .bf16) (b : FVec Ideal Cert.KernelIdeal.S64x64 .bf16)
    (p : Fin 10000) (q : Fin 64) :
    matmul (F := Ideal) blockDot none a b (constant (F := Ideal) Cert.KernelIdeal.S10000x64 .f32 0x00000000#32) (ix2 p q)
      = ∑ k : Fin 64, a (ix2 p k) * b (ix2 k q) := by
  simp only [matmul]
  rw [Ideal.matmul_constant_zero_apply, ← Equiv.sum_comp (contrEquiv1 blockDot 64 rfl rfl).symm]
  refine Finset.sum_congr rfl fun k _ => ?_
  have hk := contrEquiv1_symm_val blockDot 64 rfl rfl k
  have el : blockDot.lhsIdx (ix2 p q) ((contrEquiv1 blockDot 64 rfl rfl).symm k) = ix2 p k := funext fun a => Fin.ext (by
    match a with
    | ⟨0, _⟩ => exact blockDot_lhs_row _ _
    | ⟨1, _⟩ => exact (blockDot_lhs_col _ _).trans hk)
  have er : blockDot.rhsIdx (ix2 p q) ((contrEquiv1 blockDot 64 rfl rfl).symm k) = ix2 k q := funext fun a => Fin.ext (by
    match a with
    | ⟨0, _⟩ => exact (blockDot_rhs_row _ _).trans hk
    | ⟨1, _⟩ => exact blockDot_rhs_col _ _)
  rw [el, er]

/-! ### The operand indices of the whole array's product -/

theorem wholeDot_lhs_row (i : Cert.ReferenceIdeal.S100000x64.Idx) (c : wholeDot.contr.Idx) :
    (wholeDot.lhsIdx i c 0).val = (i 0).val := by
  unfold DotDims.lhsIdx
  rw [dif_neg (show ¬(0 : Fin Cert.ReferenceIdeal.S100000x64.rank) ∈ wholeDot.lhsBatch by decide),
    dif_pos (show (0 : Fin Cert.ReferenceIdeal.S100000x64.rank) ∈ wholeDot.lhsNonContracting by decide)]
  rfl
theorem wholeDot_lhs_col (i : Cert.ReferenceIdeal.S100000x64.Idx) (c : wholeDot.contr.Idx) :
    (wholeDot.lhsIdx i c 1).val = (c ⟨0, by decide⟩).val :=
  wholeDot.lhsIdx_val_of_single rfl i c
theorem wholeDot_rhs_row (i : Cert.ReferenceIdeal.S100000x64.Idx) (c : wholeDot.contr.Idx) :
    (wholeDot.rhsIdx i c 0).val = (c ⟨0, by decide⟩).val :=
  wholeDot.rhsIdx_val_of_single rfl i c
theorem wholeDot_rhs_col (i : Cert.ReferenceIdeal.S100000x64.Idx) (c : wholeDot.contr.Idx) :
    (wholeDot.rhsIdx i c 1).val = (i 1).val := by
  unfold DotDims.rhsIdx
  rw [dif_neg (show ¬(1 : Fin Cert.ReferenceIdeal.S64x64.rank) ∈ wholeDot.rhsBatch by decide),
    dif_pos (show (1 : Fin Cert.ReferenceIdeal.S64x64.rank) ∈ wholeDot.rhsNonContracting by decide)]
  rfl

/-- H · W at (r, q): the sum over k of H[r, k] · W[k, q]. -/
theorem dense_apply (h : Feat Ideal) (w : Mat Ideal) (r : Fin 100000) (q : Fin 64) :
    dense (F := Ideal) h w (ix2 r q) = ∑ k : Fin 64, h (ix2 r k) * w (ix2 k q) := by
  unfold dense
  simp only [Host.dotGeneral]
  rw [Ideal.dotGeneral_apply, ← Equiv.sum_comp (contrEquiv1 wholeDot 64 rfl rfl).symm]
  refine Finset.sum_congr rfl fun k _ => ?_
  have hk := contrEquiv1_symm_val wholeDot 64 rfl rfl k
  have el : wholeDot.lhsIdx (ix2 r q) ((contrEquiv1 wholeDot 64 rfl rfl).symm k) = ix2 r k := funext fun a => Fin.ext (by
    match a with
    | ⟨0, _⟩ => exact wholeDot_lhs_row _ _
    | ⟨1, _⟩ => exact (wholeDot_lhs_col _ _).trans hk)
  have er : wholeDot.rhsIdx (ix2 r q) ((contrEquiv1 wholeDot 64 rfl rfl).symm k) = ix2 k q := funext fun a => Fin.ext (by
    match a with
    | ⟨0, _⟩ => exact (wholeDot_rhs_row _ _).trans hk
    | ⟨1, _⟩ => exact wholeDot_rhs_col _ _)
  rw [el, er]

/-- The first layer's product of a block with the weight matrix. -/
theorem dense_block (h : Feat Ideal) (w : Mat Ideal) (ρ : Fin 10000 → Fin 100000)
    (x0 : Vec Ideal Cert.KernelIdeal.S10000x64 .f32) (x1 : Vec Ideal Cert.KernelIdeal.S64x64 .f32)
    (h0 : ∀ (p : Fin 10000) (q : Fin 64), x0 (ix2 p q) = h (ix2 (ρ p) q))
    (h1 : ∀ (k q : Fin 64), x1 (ix2 k q) = w (ix2 k q))
    (p : Fin 10000) (q : Fin 64) :
    Cert.KernelIdeal.Gen.k0_pay1 (F := Ideal) x0 x1 (ix2 p q) = dense (F := Ideal) h w (ix2 (ρ p) q) := by
  refine (blockMatmul_apply
    (truncf .bf16 x0 Cert.KernelIdeal.Gen.bitsLt_bf16_f32)
    (truncf .bf16 (shapeCast Cert.KernelIdeal.S64x64 x1 Cert.KernelIdeal.Gen.shapeCasts_S64x64_S64x64) Cert.KernelIdeal.Gen.bitsLt_bf16_f32)
    p q).trans ?_
  rw [dense_apply, shapeCast_self]
  refine Finset.sum_congr rfl fun k _ => ?_
  rw [truncf_apply, truncf_apply, h0, h1]

/-- The later layers' product (the block passes through a reshape to its own shape first). -/
theorem dense_block' (h : Feat Ideal) (w : Mat Ideal) (ρ : Fin 10000 → Fin 100000)
    (x0 : Vec Ideal Cert.KernelIdeal.S10000x64 .f32) (x1 : Vec Ideal Cert.KernelIdeal.S64x64 .f32)
    (h0 : ∀ (p : Fin 10000) (q : Fin 64), x0 (ix2 p q) = h (ix2 (ρ p) q))
    (h1 : ∀ (k q : Fin 64), x1 (ix2 k q) = w (ix2 k q))
    (p : Fin 10000) (q : Fin 64) :
    Cert.KernelIdeal.Gen.k2_pay1 (F := Ideal) x0 x1 (ix2 p q) = dense (F := Ideal) h w (ix2 (ρ p) q) := by
  refine (blockMatmul_apply
    (truncf .bf16 (shapeCast Cert.KernelIdeal.S10000x64 x0 Cert.KernelIdeal.Gen.shapeCasts_S10000x64_S10000x64) Cert.KernelIdeal.Gen.bitsLt_bf16_f32)
    (truncf .bf16 (shapeCast Cert.KernelIdeal.S64x64 x1 Cert.KernelIdeal.Gen.shapeCasts_S64x64_S64x64) Cert.KernelIdeal.Gen.bitsLt_bf16_f32)
    p q).trans ?_
  rw [dense_apply, shapeCast_self, shapeCast_self]
  refine Finset.sum_congr rfl fun k _ => ?_
  rw [truncf_apply, truncf_apply, h0, h1]

end Cert.Gcn

end
-- ==== Proof.ProductLaunches.lean ====
/-
  The three product launches, each read as one array.

  A launch walks ten blocks of 10000 rows.  At block t the body multiplies rows 10000·t … 10000·t + 9999 of the
  node features by the whole weight matrix and writes the result back to the same rows of the output.  The blocks
  tile the output, so after the launch the output array is the product of the whole feature array with the matrix.
-/
import proofs.«162604_j70600672412128_1_alg».proof.Proof.Gen.KernelIdeal.Frame
import proofs.«162604_j70600672412128_1_alg».proof.Proof.DenseBlock
import Idealize.ShloMosaic.Lib.Pipeline.Value
import Idealize.ShloMosaic.Lib.ValueIdx

set_option maxRecDepth 16384

noncomputable section

namespace Cert.KernelIdeal.Out

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- A block is read and written from its first row and first lane. -/
theorem offsets_zero : (![0, 0] : Fin 2 → Nat) = fun _ => 0 := funext fun a => by fin_cases a <;> rfl

/-- Row p of block t is row 10000·t + p of the array. -/
def blockRow (t : Nat) (ht : t < 10) (p : Fin 10000) : Fin 100000 := ⟨t * 10000 + p.val, by have := p.isLt; omega⟩

/-! ## Launch 0: features main_arg0 times matrix main_v32 into main_v33 -/

/-- Block t of the features and of the output starts at row 10000·t; the weight matrix is one block. -/
theorem starts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What block t writes back is rows 10000·t … 10000·t + 9999 of the whole product. -/
theorem dense_flushed0 (c : Dev nD) (t : Fin cfg0.N) :
    (dat0 V c).flushed 2 t = ((cfg0.win 2).blk t).view.read (Elt Ideal) (Cert.Gcn.dense (F := Ideal) (V c main_arg0) (V c main_v32)) := by
  show (cfg0.win 2).cut (grid0.coords t) ((dat0 V c).after 2 t) = _
  rw [after0_2]
  unfold out0_2
  rw [View.canon_unit_zero offsets_zero]
  simp only [View.ld_unit_zero (S := S10000x64) offsets_zero, View.ld_unit_zero (S := S64x64) offsets_zero]
  funext y
  obtain ⟨p, q, rfl⟩ : ∃ (p : Fin 10000) (q : Fin 64), y = ix2 p q := ⟨y 0, y 1, eq_ix2 y⟩
  have ht : t.val < 10 := lt_of_lt_of_eq t.isLt N_0
  obtain ⟨e00, e01, e10, e11, e20, e21⟩ := starts0 t
  show k0_pay1 (F := Ideal) (iblk0 V c 0 t) (iblk0 V c 1 t) (ix2 p q)
    = Cert.Gcn.dense (F := Ideal) (V c main_arg0) (V c main_v32) (((cfg0.win 2).blk t).view.emb (ix2 p q))
  have hemb : ((cfg0.win 2).blk t).view.emb (ix2 p q) = ix2 (blockRow t.val ht p) q := by
    funext a; apply Fin.ext
    match a with
    | ⟨0, _⟩ => show win0_2.index t (0 : Fin 2) * 10000 + 1 * p.val = t.val * 10000 + p.val; omega
    | ⟨1, _⟩ => show win0_2.index t (1 : Fin 2) * 64 + 1 * q.val = q.val; omega
  rw [hemb]
  refine Cert.Gcn.dense_block (V c main_arg0) (V c main_v32) (blockRow t.val ht) (iblk0 V c 0 t) (iblk0 V c 1 t) ?_ ?_ p q
  · intro p q
    show V c main_arg0 (((cfg0.win 0).blk t).view.emb (ix2 p q)) = V c main_arg0 (ix2 (blockRow t.val ht p) q)
    refine congrArg _ (funext fun a => Fin.ext ?_)
    match a with
    | ⟨0, _⟩ => show win0_0.index t (0 : Fin 2) * 10000 + 1 * p.val = t.val * 10000 + p.val; omega
    | ⟨1, _⟩ => show win0_0.index t (1 : Fin 2) * 64 + 1 * q.val = q.val; omega
  · intro k q
    show V c main_v32 (((cfg0.win 1).blk t).view.emb (ix2 k q)) = V c main_v32 (ix2 k q)
    refine congrArg _ (funext fun a => Fin.ext ?_)
    match a with
    | ⟨0, _⟩ => show win0_1.index t (0 : Fin 2) * 64 + 1 * k.val = k.val; omega
    | ⟨1, _⟩ => show win0_1.index t (1 : Fin 2) * 64 + 1 * q.val = q.val; omega

/-- An index of the output lies in block t iff its row is among rows 10000·t … 10000·t + 9999. -/
theorem mem_block0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v33).slice (win0_2.rect t)).set ↔ _
  rw [View.set_slice_whole, Rect.mem_set_unit]
  exact Iff.rfl

/-- Every index of the output lies in the block numbered by its row's quotient by 10000. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  refine ⟨⟨(i 0).val / 10000, by rw [hN]; omega⟩, flush0_2 _, ?_⟩
  rw [mem_block0]
  obtain ⟨e00, e01, e10, e11, e20, e21⟩ := starts0 ⟨(i 0).val / 10000, by rw [hN]; omega⟩
  intro a
  match a with
  | ⟨0, _⟩ => show win0_2.index _ (0 : Fin 2) * 10000 ≤ (i 0).val ∧ (i 0).val < win0_2.index _ (0 : Fin 2) * 10000 + 10000; rw [e20]; show (i 0).val / 10000 * 10000 ≤ _ ∧ _ < (i 0).val / 10000 * 10000 + 10000; omega
  | ⟨1, _⟩ => show win0_2.index _ (1 : Fin 2) * 64 ≤ (i 1).val ∧ (i 1).val < win0_2.index _ (1 : Fin 2) * 64 + 64; rw [e21]; omega

/-- After the launch the output array is the whole product. -/
theorem dense_final0 (c : Dev nD) :
    (dat0 V c).arrAt 2 cfg0.N = Cert.Gcn.dense (F := Ideal) (V c main_arg0) (V c main_v32) :=
  (dat0 V c).arrAt_eq_of_cover 2 _ (fun t _ => dense_flushed0 V c t) cover0

/-! ## Launch 2: features main_v56 times matrix main_v58 into main_v59 -/

/-- Block t of the features and of the output starts at row 10000·t; the weight matrix is one block. -/
theorem starts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What block t writes back is rows 10000·t … 10000·t + 9999 of the whole product. -/
theorem dense_flushed2 (c : Dev nD) (t : Fin cfg2.N) :
    (dat2 V c).flushed 2 t = ((cfg2.win 2).blk t).view.read (Elt Ideal) (Cert.Gcn.dense (F := Ideal) (V c main_v56) (V c main_v58)) := by
  show (cfg2.win 2).cut (grid2.coords t) ((dat2 V c).after 2 t) = _
  rw [after2_2]
  unfold out2_2
  rw [View.canon_unit_zero offsets_zero]
  simp only [View.ld_unit_zero (S := S10000x64) offsets_zero, View.ld_unit_zero (S := S64x64) offsets_zero]
  funext y
  obtain ⟨p, q, rfl⟩ : ∃ (p : Fin 10000) (q : Fin 64), y = ix2 p q := ⟨y 0, y 1, eq_ix2 y⟩
  have ht : t.val < 10 := lt_of_lt_of_eq t.isLt N_2
  obtain ⟨e00, e01, e10, e11, e20, e21⟩ := starts2 t
  show k2_pay1 (F := Ideal) (iblk2 V c 0 t) (iblk2 V c 1 t) (ix2 p q)
    = Cert.Gcn.dense (F := Ideal) (V c main_v56) (V c main_v58) (((cfg2.win 2).blk t).view.emb (ix2 p q))
  have hemb : ((cfg2.win 2).blk t).view.emb (ix2 p q) = ix2 (blockRow t.val ht p) q := by
    funext a; apply Fin.ext
    match a with
    | ⟨0, _⟩ => show win2_2.index t (0 : Fin 2) * 10000 + 1 * p.val = t.val * 10000 + p.val; omega
    | ⟨1, _⟩ => show win2_2.index t (1 : Fin 2) * 64 + 1 * q.val = q.val; omega
  rw [hemb]
  refine Cert.Gcn.dense_block' (V c main_v56) (V c main_v58) (blockRow t.val ht) (iblk2 V c 0 t) (iblk2 V c 1 t) ?_ ?_ p q
  · intro p q
    show V c main_v56 (((cfg2.win 0).blk t).view.emb (ix2 p q)) = V c main_v56 (ix2 (blockRow t.val ht p) q)
    refine congrArg _ (funext fun a => Fin.ext ?_)
    match a with
    | ⟨0, _⟩ => show win2_0.index t (0 : Fin 2) * 10000 + 1 * p.val = t.val * 10000 + p.val; omega
    | ⟨1, _⟩ => show win2_0.index t (1 : Fin 2) * 64 + 1 * q.val = q.val; omega
  · intro k q
    show V c main_v58 (((cfg2.win 1).blk t).view.emb (ix2 k q)) = V c main_v58 (ix2 k q)
    refine congrArg _ (funext fun a => Fin.ext ?_)
    match a with
    | ⟨0, _⟩ => show win2_1.index t (0 : Fin 2) * 64 + 1 * k.val = k.val; omega
    | ⟨1, _⟩ => show win2_1.index t (1 : Fin 2) * 64 + 1 * q.val = q.val; omega

/-- An index of the output lies in block t iff its row is among rows 10000·t … 10000·t + 9999. -/
theorem mem_block2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v59).slice (win2_2.rect t)).set ↔ _
  rw [View.set_slice_whole, Rect.mem_set_unit]
  exact Iff.rfl

/-- Every index of the output lies in the block numbered by its row's quotient by 10000. -/
theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  refine ⟨⟨(i 0).val / 10000, by rw [hN]; omega⟩, flush2_2 _, ?_⟩
  rw [mem_block2]
  obtain ⟨e00, e01, e10, e11, e20, e21⟩ := starts2 ⟨(i 0).val / 10000, by rw [hN]; omega⟩
  intro a
  match a with
  | ⟨0, _⟩ => show win2_2.index _ (0 : Fin 2) * 10000 ≤ (i 0).val ∧ (i 0).val < win2_2.index _ (0 : Fin 2) * 10000 + 10000; rw [e20]; show (i 0).val / 10000 * 10000 ≤ _ ∧ _ < (i 0).val / 10000 * 10000 + 10000; omega
  | ⟨1, _⟩ => show win2_2.index _ (1 : Fin 2) * 64 ≤ (i 1).val ∧ (i 1).val < win2_2.index _ (1 : Fin 2) * 64 + 64; rw [e21]; omega

/-- After the launch the output array is the whole product. -/
theorem dense_final2 (c : Dev nD) :
    (dat2 V c).arrAt 2 cfg2.N = Cert.Gcn.dense (F := Ideal) (V c main_v56) (V c main_v58) :=
  (dat2 V c).arrAt_eq_of_cover 2 _ (fun t _ => dense_flushed2 V c t) cover2

/-! ## Launch 4: features main_v82 times matrix main_v84 into main_v85 -/

/-- Block t of the features and of the output starts at row 10000·t; the weight matrix is one block. -/
theorem starts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What block t writes back is rows 10000·t … 10000·t + 9999 of the whole product. -/
theorem dense_flushed4 (c : Dev nD) (t : Fin cfg4.N) :
    (dat4 V c).flushed 2 t = ((cfg4.win 2).blk t).view.read (Elt Ideal) (Cert.Gcn.dense (F := Ideal) (V c main_v82) (V c main_v84)) := by
  show (cfg4.win 2).cut (grid4.coords t) ((dat4 V c).after 2 t) = _
  rw [after4_2]
  unfold out4_2
  rw [View.canon_unit_zero offsets_zero]
  simp only [View.ld_unit_zero (S := S10000x64) offsets_zero, View.ld_unit_zero (S := S64x64) offsets_zero]
  funext y
  obtain ⟨p, q, rfl⟩ : ∃ (p : Fin 10000) (q : Fin 64), y = ix2 p q := ⟨y 0, y 1, eq_ix2 y⟩
  have ht : t.val < 10 := lt_of_lt_of_eq t.isLt N_4
  obtain ⟨e00, e01, e10, e11, e20, e21⟩ := starts4 t
  show k2_pay1 (F := Ideal) (iblk4 V c 0 t) (iblk4 V c 1 t) (ix2 p q)
    = Cert.Gcn.dense (F := Ideal) (V c main_v82) (V c main_v84) (((cfg4.win 2).blk t).view.emb (ix2 p q))
  have hemb : ((cfg4.win 2).blk t).view.emb (ix2 p q) = ix2 (blockRow t.val ht p) q := by
    funext a; apply Fin.ext
    match a with
    | ⟨0, _⟩ => show win4_2.index t (0 : Fin 2) * 10000 + 1 * p.val = t.val * 10000 + p.val; omega
    | ⟨1, _⟩ => show win4_2.index t (1 : Fin 2) * 64 + 1 * q.val = q.val; omega
  rw [hemb]
  refine Cert.Gcn.dense_block' (V c main_v82) (V c main_v84) (blockRow t.val ht) (iblk4 V c 0 t) (iblk4 V c 1 t) ?_ ?_ p q
  · intro p q
    show V c main_v82 (((cfg4.win 0).blk t).view.emb (ix2 p q)) = V c main_v82 (ix2 (blockRow t.val ht p) q)
    refine congrArg _ (funext fun a => Fin.ext ?_)
    match a with
    | ⟨0, _⟩ => show win4_0.index t (0 : Fin 2) * 10000 + 1 * p.val = t.val * 10000 + p.val; omega
    | ⟨1, _⟩ => show win4_0.index t (1 : Fin 2) * 64 + 1 * q.val = q.val; omega
  · intro k q
    show V c main_v84 (((cfg4.win 1).blk t).view.emb (ix2 k q)) = V c main_v84 (ix2 k q)
    refine congrArg _ (funext fun a => Fin.ext ?_)
    match a with
    | ⟨0, _⟩ => show win4_1.index t (0 : Fin 2) * 64 + 1 * k.val = k.val; omega
    | ⟨1, _⟩ => show win4_1.index t (1 : Fin 2) * 64 + 1 * q.val = q.val; omega

/-- An index of the output lies in block t iff its row is among rows 10000·t … 10000·t + 9999. -/
theorem mem_block4 (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v85).slice (win4_2.rect t)).set ↔ _
  rw [View.set_slice_whole, Rect.mem_set_unit]
  exact Iff.rfl

/-- Every index of the output lies in the block numbered by its row's quotient by 10000. -/
theorem cover4 (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 10 := N_4
  refine ⟨⟨(i 0).val / 10000, by rw [hN]; omega⟩, flush4_2 _, ?_⟩
  rw [mem_block4]
  obtain ⟨e00, e01, e10, e11, e20, e21⟩ := starts4 ⟨(i 0).val / 10000, by rw [hN]; omega⟩
  intro a
  match a with
  | ⟨0, _⟩ => show win4_2.index _ (0 : Fin 2) * 10000 ≤ (i 0).val ∧ (i 0).val < win4_2.index _ (0 : Fin 2) * 10000 + 10000; rw [e20]; show (i 0).val / 10000 * 10000 ≤ _ ∧ _ < (i 0).val / 10000 * 10000 + 10000; omega
  | ⟨1, _⟩ => show win4_2.index _ (1 : Fin 2) * 64 ≤ (i 1).val ∧ (i 1).val < win4_2.index _ (1 : Fin 2) * 64 + 64; rw [e21]; omega

/-- After the launch the output array is the whole product. -/
theorem dense_final4 (c : Dev nD) :
    (dat4 V c).arrAt 2 cfg4.N = Cert.Gcn.dense (F := Ideal) (V c main_v82) (V c main_v84) :=
  (dat4 V c).arrAt_eq_of_cover 2 _ (fun t _ => dense_flushed4 V c t) cover4

end Cert.KernelIdeal.Out

end
-- ==== Proof.NormBlock.lean ====
/-
  One block of rows through the normalisation step, entry by entry.

  A block of 10000 rows is a window onto the node features: row p of the block is row ρ p of the whole array.
  Normalising a row uses that row alone (its mean, its variance), so the block's result at (p, q) is the
  whole array's result at (ρ p, q).
  Both programs compute, for a row f of 64 extended reals, the same scalar expression
      (f q − m) · rsqrt( mean((f − m)²) + ε ) · γ q + β q,     m = mean f = (Σ_k f k) / 64,
  one with vector operations on the block, the other with host operations on the whole array.  Each layout
  operation (a cast that adds a unit axis, a row or a column repeated, a single number repeated) reads one
  entry of its operand, each lane sum is the sum of the row's 64 entries (the host's starts from the zero
  word, which is 0), and division and reciprocal square root are the same functions of extended reals on
  both sides; so both sides at an entry are that expression of the row, and the rows agree by hypothesis.
-/
import proofs.«162604_j70600672412128_1_alg».proof.Proof.Spec
import proofs.«162604_j70600672412128_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Gcn

open Idealize.ShloMosaic Idealize.ShloMosaic.ValueIdx

namespace NormBlock

/-! ## Layout operations read at an index given by coordinates -/

section Layout
variable {α : Type}

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[b]` array placed as the one row of `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A `[1, b]` row repeated on `a` rows reads, at `(r, c)`, the row at `c`. -/
theorem broadcastInDim_1b_ab_apply {a b : ℕ} (x : (⟨2, ![1, b]⟩ : Shape).Idx → α)
    (h : (⟨2, ![1, b]⟩ : Shape).BroadcastsInDim ⟨2, ![a, b]⟩ ![0, 1]) (r : Fin a) (c : Fin b) :
    broadcastInDim ⟨2, ![a, b]⟩ ![0, 1] h x (ix2 r c) = x (ix2 (0 : Fin 1) c) := by
  refine broadcastInDim_apply _ h x (ix2 r c) (ix2 (0 : Fin 1) c) fun ax => ?_
  match ax with
  | ⟨0, _⟩ => rfl
  | ⟨1, _⟩ =>
    show c.val = if b = 1 then 0 else c.val
    split
    · have := c.isLt; omega
    · rfl

/-- An `[a]` array placed as the one column of `[a, 1]` reads, at `(r, u)`, the operand at `r`. -/
theorem broadcastInDim_a_a1_apply {a : ℕ} (x : (⟨1, ![a]⟩ : Shape).Idx → α)
    (h : (⟨1, ![a]⟩ : Shape).BroadcastsInDim ⟨2, ![a, 1]⟩ ![0]) (r : Fin a) (u : Fin 1) :
    broadcastInDim ⟨2, ![a, 1]⟩ ![0] h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- An `[a, 1]` column repeated across `b` lanes reads, at `(r, c)`, the column at `r`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (r : Fin a) (c : Fin b) :
    broadcastInDim ⟨2, ![a, b]⟩ ![0, 1] h x (ix2 r c) = x (ix2 r (0 : Fin 1)) := by
  refine broadcastInDim_apply _ h x (ix2 r c) (ix2 r (0 : Fin 1)) fun ax => ?_
  match ax with
  | ⟨0, _⟩ =>
    show r.val = if a = 1 then 0 else r.val
    split
    · have := r.isLt; omega
    · rfl
  | ⟨1, _⟩ => rfl

/-- A single number repeated over a shape reads that number at every index. -/
theorem broadcastInDim_scalar_apply {t : Shape} (x : (⟨0, ![]⟩ : Shape).Idx → α)
    (h : (⟨0, ![]⟩ : Shape).BroadcastsInDim t ![]) (j : t.Idx) : broadcastInDim t ![] h x j = x ix0 :=
  broadcastInDim_apply _ h x j ix0 (fun ax => ax.elim0)

end Layout

/-! ## The two lane sums -/

/-- The vector unit's sum over the lanes of an `[a, b]` block, at row `p`: the sum of that row's `b` entries. -/
theorem laneSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ v 0x00000000#32 h hφ hacc (ix1 p) = ∑ k : Fin b, v (ix2 p k) := by
  refine (Ideal.multiReduction_add_single v _ h hφ hacc (ix1 p)).trans ?_
  refine Finset.sum_congr rfl fun k _ => ?_
  exact congrArg v (funext fun ax => Fin.ext (by match ax with | ⟨0, _⟩ => rfl | ⟨1, _⟩ => rfl))

/-- The host's sum over the lanes of an `[a, b]` array, at row `r`: its initial value plus that row's `b` entries. -/
theorem hostLaneSum_apply {a b : ℕ} (x : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduceAdd (F := Ideal) x init h' hu (ix1 r) = init (Shape.Idx.first hu) + ∑ k : Fin b, x (ix2 r k) := by
  show Ideal.hostReduceAdd h' x (init (Shape.Idx.first hu)) (ix1 r) = _
  refine (Ideal.hostReduceAdd_single h' h x _ (ix1 r)).trans ?_
  refine congrArg (_ + ·) (Finset.sum_congr rfl fun k _ => ?_)
  exact congrArg x (funext fun ax => Fin.ext (by match ax with | ⟨0, _⟩ => rfl | ⟨1, _⟩ => rfl))

/-! ## One row's arithmetic, as both programs do it -/

/-- The mean of 64 numbers: their sum divided by the number 64. -/
def mean64 (f : Fin 64 → EReal) : EReal := Ideal.div (∑ k : Fin 64, f k) (Ideal.ofBits .f32 0x42800000#32)

/-- A row's entry `q` less the row's mean. -/
def centredAt (f : Fin 64 → EReal) (q : Fin 64) : EReal := f q - mean64 f

/-- (variance + ε)^(-1/2) of a row, the variance the mean of the squared centred entries. -/
def invStdOf (f : Fin 64 → EReal) : EReal :=
  Ideal.rsqrt (mean64 (fun k => centredAt f k * centredAt f k) + Ideal.ofBits .f32 0x3727C5AC#32)

/-! ## The block's steps, named as the whole array's are -/

section Block
open Cert.KernelIdeal Cert.KernelIdeal.Facts₀

/-- A `[1, 64]` parameter row shown on every row of the block. -/
def blockEveryRow (x : FVec Ideal S1x64 .f32) : FVec Ideal S10000x64 .f32 :=
  broadcastTo S10000x64 (shapeCast S1x64 x shapeCasts_S1x64_S1x64) broadcasts_S1x64_S10000x64

/-- A column of the block repeated across the 64 lanes. -/
def blockAcrossLanes (v : FVec Ideal S10000x1 .f32) : FVec Ideal S10000x64 .f32 :=
  broadcastTo S10000x64 v broadcasts_S10000x1_S10000x64

/-- The mean of each row of the block: its lane sum, as a column, divided by 64. -/
def blockRowMean (h : FVec Ideal S10000x64 .f32) : FVec Ideal S10000x1 .f32 :=
  divf (shapeCast S10000x1 (multiReduction (F := Ideal) .add [1] S10000 h 0x00000000#32 reduces_S10000x64_S10000 (.inl rfl) rfl)
      shapeCasts_S10000_S10000x1)
    (broadcast (α := Ideal .f32) S10000x1 (Scalar.ofBits (F := Ideal) .f32 0x42800000#32))

/-- Each row of the block minus its mean. -/
def blockCentred (h : FVec Ideal S10000x64 .f32) : FVec Ideal S10000x64 .f32 :=
  subf h (blockAcrossLanes (blockRowMean h))

/-- (variance + ε)^(-1/2) of each row of the block. -/
def blockInvStd (h : FVec Ideal S10000x64 .f32) : FVec Ideal S10000x1 .f32 :=
  rsqrt (addf (blockRowMean (mulf (blockCentred h) (blockCentred h)))
    (broadcast (α := Ideal .f32) S10000x1 (Scalar.ofBits (F := Ideal) .f32 0x3727C5AC#32)))

/-- The block's rows with the bias row added. -/
def blockBiased (x0 : FVec Ideal S10000x64 .f32) (x1 : FVec Ideal S1x64 .f32) : FVec Ideal S10000x64 .f32 :=
  addf (shapeCast S10000x64 x0 shapeCasts_S10000x64_S10000x64) (blockEveryRow x1)

/-- The block's normalisation: centred, scaled to unit variance, times γ, plus β. -/
def blockLayerNorm (x0 : FVec Ideal S10000x64 .f32) (x1 x2 x3 : FVec Ideal S1x64 .f32) : FVec Ideal S10000x64 .f32 :=
  addf (mulf (mulf (blockCentred (blockBiased x0 x1)) (blockAcrossLanes (blockInvStd (blockBiased x0 x1)))) (blockEveryRow x2))
    (blockEveryRow x3)

/-- The kernel's normalisation payload is that composition of steps. -/
theorem k5_pay1_eq_blockLayerNorm (x0 : FVec Ideal S10000x64 .f32) (x1 x2 x3 : FVec Ideal S1x64 .f32) :
    Gen.k5_pay1 (F := Ideal) x0 x1 x2 x3 = blockLayerNorm x0 x1 x2 x3 := rfl

/-- The kernel's payload with the activation is the same followed by max(·, 0). -/
theorem k1_pay1_eq_max_blockLayerNorm (x0 : FVec Ideal S10000x64 .f32) (x1 x2 x3 : FVec Ideal S1x64 .f32) :
    Gen.k1_pay1 (F := Ideal) x0 x1 x2 x3
      = maximumf (blockLayerNorm x0 x1 x2 x3) (broadcast (α := Ideal .f32) S10000x64 (Scalar.ofBits (F := Ideal) .f32 0x00000000#32)) := rfl

theorem blockEveryRow_apply (x : FVec Ideal S1x64 .f32) (p : Fin 10000) (q : Fin 64) :
    blockEveryRow x (ix2 p q) = x (ix2 (0 : Fin 1) q) :=
  (broadcastTo_1b_ab_apply (shapeCast S1x64 x shapeCasts_S1x64_S1x64) broadcasts_S1x64_S10000x64 p q).trans
    (congrFun (shapeCast_self x shapeCasts_S1x64_S1x64) _)

theorem blockAcrossLanes_apply (v : FVec Ideal S10000x1 .f32) (p : Fin 10000) (q : Fin 64) :
    blockAcrossLanes v (ix2 p q) = v (ix2 p (0 : Fin 1)) :=
  broadcastTo_a1_ab_apply v broadcasts_S10000x1_S10000x64 p q

theorem blockRowMean_apply (h : FVec Ideal S10000x64 .f32) (p : Fin 10000) (u : Fin 1) :
    blockRowMean h (ix2 p u) = mean64 fun k => h (ix2 p k) := by
  refine congrArg (fun s => Ideal.div s (Ideal.ofBits .f32 0x42800000#32)) ?_
  exact (shapeCast_a_a1_apply _ shapeCasts_S10000_S10000x1 p u).trans
    (laneSum_apply h reduces_S10000x64_S10000 (.inl rfl) rfl p)

theorem blockCentred_apply (h : FVec Ideal S10000x64 .f32) (p : Fin 10000) (q : Fin 64) :
    blockCentred h (ix2 p q) = centredAt (fun k => h (ix2 p k)) q := by
  show h (ix2 p q) - blockAcrossLanes (blockRowMean h) (ix2 p q) = _
  rw [blockAcrossLanes_apply, blockRowMean_apply]
  rfl

theorem blockInvStd_apply (h : FVec Ideal S10000x64 .f32) (p : Fin 10000) (u : Fin 1) :
    blockInvStd h (ix2 p u) = invStdOf fun k => h (ix2 p k) := by
  show Ideal.rsqrt (blockRowMean (mulf (blockCentred h) (blockCentred h)) (ix2 p u) + Ideal.ofBits .f32 0x3727C5AC#32) = _
  rw [blockRowMean_apply]
  refine congrArg (fun s => Ideal.rsqrt (mean64 s + Ideal.ofBits .f32 0x3727C5AC#32)) (funext fun k => ?_)
  show blockCentred h (ix2 p k) * blockCentred h (ix2 p k) = _
  rw [blockCentred_apply]

theorem blockBiased_apply (x0 : FVec Ideal S10000x64 .f32) (x1 : FVec Ideal S1x64 .f32) (p : Fin 10000) (q : Fin 64) :
    blockBiased x0 x1 (ix2 p q) = x0 (ix2 p q) + x1 (ix2 (0 : Fin 1) q) := by
  show shapeCast S10000x64 x0 shapeCasts_S10000x64_S10000x64 (ix2 p q) + blockEveryRow x1 (ix2 p q) = _
  rw [shapeCast_self, blockEveryRow_apply]

/-- The block's normalisation at `(p, q)`, as a scalar expression of row `p` with the bias added. -/
theorem blockLayerNorm_apply (x0 : FVec Ideal S10000x64 .f32) (x1 x2 x3 : FVec Ideal S1x64 .f32) (p : Fin 10000) (q : Fin 64) :
    blockLayerNorm x0 x1 x2 x3 (ix2 p q)
      = centredAt (fun k => x0 (ix2 p k) + x1 (ix2 (0 : Fin 1) k)) q * invStdOf (fun k => x0 (ix2 p k) + x1 (ix2 (0 : Fin 1) k))
          * x2 (ix2 (0 : Fin 1) q) + x3 (ix2 (0 : Fin 1) q) := by
  show blockCentred (blockBiased x0 x1) (ix2 p q) * blockAcrossLanes (blockInvStd (blockBiased x0 x1)) (ix2 p q)
      * blockEveryRow x2 (ix2 p q) + blockEveryRow x3 (ix2 p q) = _
  rw [blockCentred_apply, blockAcrossLanes_apply, blockInvStd_apply, blockEveryRow_apply, blockEveryRow_apply]
  simp only [blockBiased_apply]

end Block

/-! ## The whole array's steps read at an entry -/

section Whole
open Cert.ReferenceIdeal

theorem everyRow_apply (b : FVec Ideal S64 .f32) (r : Fin 100000) (q : Fin 64) :
    everyRow (F := Ideal) b (ix2 r q) = b (ix1 q) :=
  (broadcastInDim_1b_ab_apply _ _ r q).trans (broadcastInDim_b_1b_apply b _ (0 : Fin 1) q)

theorem acrossLanes_apply (v : FVec Ideal S100000x1 .f32) (r : Fin 100000) (q : Fin 64) :
    acrossLanes (F := Ideal) v (ix2 r q) = v (ix2 r (0 : Fin 1)) :=
  broadcastInDim_a1_ab_apply v _ r q

theorem rowMean_apply (h : FVec Ideal S100000x64 .f32) (r : Fin 100000) (u : Fin 1) :
    rowMean (F := Ideal) h (ix2 r u) = mean64 fun k => h (ix2 r k) := by
  refine congrArg₂ Ideal.div ?_ ?_
  · refine (broadcastInDim_a_a1_apply _ _ r u).trans ?_
    refine (hostLaneSum_apply h _ _ (by decide) _ r).trans ?_
    show Ideal.ofBits .f32 0x00000000#32 + _ = _
    rw [Ideal.ofBits_zero_f32, zero_add]
  · exact broadcastInDim_scalar_apply _ _ _

theorem centred_apply (h : FVec Ideal S100000x64 .f32) (r : Fin 100000) (q : Fin 64) :
    centred (F := Ideal) h (ix2 r q) = centredAt (fun k => h (ix2 r k)) q := by
  show h (ix2 r q) - acrossLanes (F := Ideal) (rowMean (F := Ideal) h) (ix2 r q) = _
  rw [acrossLanes_apply, rowMean_apply]
  rfl

theorem invStd_apply (h : FVec Ideal S100000x64 .f32) (r : Fin 100000) (u : Fin 1) :
    invStd (F := Ideal) h (ix2 r u) = invStdOf fun k => h (ix2 r k) := by
  refine congrArg Ideal.rsqrt (congrArg₂ (· + ·) ?_ ?_)
  · refine (rowMean_apply _ r u).trans (congrArg mean64 (funext fun k => ?_))
    show centred (F := Ideal) h (ix2 r k) * centred (F := Ideal) h (ix2 r k) = _
    rw [centred_apply]
  · exact broadcastInDim_scalar_apply _ _ _

/-- The whole array's normalisation at `(r, q)`, as the same scalar expression of row `r` with the bias added. -/
theorem layerNorm_apply (a : FVec Ideal S100000x64 .f32) (b g β : FVec Ideal S64 .f32) (r : Fin 100000) (q : Fin 64) :
    layerNorm (F := Ideal) a b g β (ix2 r q)
      = centredAt (fun k => a (ix2 r k) + b (ix1 k)) q * invStdOf (fun k => a (ix2 r k) + b (ix1 k)) * g (ix1 q) + β (ix1 q) := by
  show centred (F := Ideal) (addf a (everyRow (F := Ideal) b)) (ix2 r q)
        * acrossLanes (F := Ideal) (invStd (F := Ideal) (addf a (everyRow (F := Ideal) b))) (ix2 r q)
        * everyRow (F := Ideal) g (ix2 r q) + everyRow (F := Ideal) β (ix2 r q) = _
  rw [centred_apply, acrossLanes_apply, invStd_apply, everyRow_apply, everyRow_apply]
  have e : (fun k => addf a (everyRow (F := Ideal) b) (ix2 r k)) = fun k => a (ix2 r k) + b (ix1 k) :=
    funext fun k => congrArg (a (ix2 r k) + ·) (everyRow_apply b r k)
  rw [e]

end Whole

end NormBlock

open NormBlock

/-- The block's normalised rows (no activation) are the whole array's, at the rows the block shows. -/
theorem norm_block (a : Feat Ideal) (b g β : Row Ideal) (ρ : Fin 10000 → Fin 100000)
    (x0 : Vec Ideal Cert.KernelIdeal.S10000x64 .f32) (x1 x2 x3 : Vec Ideal Cert.KernelIdeal.S1x64 .f32)
    (h0 : ∀ (p : Fin 10000) (q : Fin 64), x0 (ix2 p q) = a (ix2 (ρ p) q))
    (h1 : ∀ q : Fin 64, x1 (ix2 (0 : Fin 1) q) = b (ix1 q))
    (h2 : ∀ q : Fin 64, x2 (ix2 (0 : Fin 1) q) = g (ix1 q))
    (h3 : ∀ q : Fin 64, x3 (ix2 (0 : Fin 1) q) = β (ix1 q))
    (p : Fin 10000) (q : Fin 64) :
    Cert.KernelIdeal.Gen.k5_pay1 (F := Ideal) x0 x1 x2 x3 (ix2 p q) = layerNorm (F := Ideal) a b g β (ix2 (ρ p) q) := by
  refine (congrFun (k5_pay1_eq_blockLayerNorm x0 x1 x2 x3) (ix2 p q)).trans ?_
  refine (blockLayerNorm_apply x0 x1 x2 x3 p q).trans ((layerNorm_apply a b g β (ρ p) q).trans ?_).symm
  have e : (fun k => a (ix2 (ρ p) k) + b (ix1 k)) = fun k => x0 (ix2 p k) + x1 (ix2 (0 : Fin 1) k) :=
    funext fun k => by rw [h0, h1]
  rw [e, h2, h3]

/-- The same followed by max(·, 0). -/
theorem norm_relu_block (a : Feat Ideal) (b g β : Row Ideal) (ρ : Fin 10000 → Fin 100000)
    (x0 : Vec Ideal Cert.KernelIdeal.S10000x64 .f32) (x1 x2 x3 : Vec Ideal Cert.KernelIdeal.S1x64 .f32)
    (h0 : ∀ (p : Fin 10000) (q : Fin 64), x0 (ix2 p q) = a (ix2 (ρ p) q))
    (h1 : ∀ q : Fin 64, x1 (ix2 (0 : Fin 1) q) = b (ix1 q))
    (h2 : ∀ q : Fin 64, x2 (ix2 (0 : Fin 1) q) = g (ix1 q))
    (h3 : ∀ q : Fin 64, x3 (ix2 (0 : Fin 1) q) = β (ix1 q))
    (p : Fin 10000) (q : Fin 64) :
    Cert.KernelIdeal.Gen.k1_pay1 (F := Ideal) x0 x1 x2 x3 (ix2 p q) = relu (F := Ideal) (layerNorm (F := Ideal) a b g β) (ix2 (ρ p) q) := by
  refine (congrFun (k1_pay1_eq_max_blockLayerNorm x0 x1 x2 x3) (ix2 p q)).trans ?_
  show max (blockLayerNorm x0 x1 x2 x3 (ix2 p q)) (Ideal.ofBits .f32 0x00000000#32)
      = max (layerNorm (F := Ideal) a b g β (ix2 (ρ p) q)) (Ideal.ofBits .f32 0x00000000#32)
  refine congrArg (fun s => max s (Ideal.ofBits .f32 0x00000000#32)) ?_
  exact (congrFun (k5_pay1_eq_blockLayerNorm x0 x1 x2 x3) (ix2 p q)).symm.trans (norm_block a b g β ρ x0 x1 x2 x3 h0 h1 h2 h3 p q)

end Cert.Gcn

end
-- ==== Proof.NormLaunches.lean ====
/-
  The three normalisation launches, each read as one array.

  A launch walks ten blocks of 10000 rows.  At block t the body adds the bias row to rows 10000·t … 10000·t + 9999 of
  the aggregated features, normalises each row by its own mean and variance, scales and shifts it by the two
  parameter rows (and, in the first two launches, takes max(·, 0)), and writes the rows back to the same place in
  the output.  A row's result depends on that row alone, and the blocks tile the output: after the launch the
  output is the whole array normalised.  The parameter rows arrive as [1, 64] arrays holding a vector of 64.
-/
import proofs.«162604_j70600672412128_1_alg».proof.Proof.Gen.KernelIdeal.Frame
import proofs.«162604_j70600672412128_1_alg».proof.Proof.NormBlock
import proofs.«162604_j70600672412128_1_alg».proof.Proof.ProductLaunches
import Idealize.ShloMosaic.Lib.Pipeline.Value
import Idealize.ShloMosaic.Lib.ValueIdx
import Idealize.ShloMosaic.Lib.ValueLayout

set_option maxRecDepth 16384

noncomputable section

namespace Cert.KernelIdeal.Out

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## Launch 1: main_v46 normalised into main_v56 -/

/-- Block t of the input and of the output starts at row 10000·t; each parameter row is one block. -/
theorem starts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What block t writes back is rows 10000·t … 10000·t + 9999 of the whole normalised array. -/
theorem norm_flushed1 (c : Dev nD) (t : Fin cfg1.N) (b g β : Cert.Gcn.Row Ideal)
    (hb : V c main_v53 = shapeCast _ b shapeCasts_S64_S1x64) (hg : V c main_v54 = shapeCast _ g shapeCasts_S64_S1x64)
    (hβ : V c main_v55 = shapeCast _ β shapeCasts_S64_S1x64) :
    (dat1 V c).flushed 4 t = ((cfg1.win 4).blk t).view.read (Elt Ideal) (Cert.Gcn.relu (F := Ideal) (Cert.Gcn.layerNorm (F := Ideal) (V c main_v46) b g β)) := by
  show (cfg1.win 4).cut (grid1.coords t) ((dat1 V c).after 4 t) = _
  rw [after1_4]
  unfold out1_4
  rw [View.canon_unit_zero offsets_zero]
  simp only [View.ld_unit_zero (S := S10000x64) offsets_zero, View.ld_unit_zero (S := S1x64) offsets_zero]
  funext y
  obtain ⟨p, q, rfl⟩ : ∃ (p : Fin 10000) (q : Fin 64), y = ix2 p q := ⟨y 0, y 1, eq_ix2 y⟩
  have ht : t.val < 10 := lt_of_lt_of_eq t.isLt N_1
  obtain ⟨e00, e01, e10, e11, e20, e21, e30, e31, e40, e41⟩ := starts1 t
  show k1_pay1 (F := Ideal) (iblk1 V c 0 t) (iblk1 V c 1 t) (iblk1 V c 2 t) (iblk1 V c 3 t) (ix2 p q)
    = (Cert.Gcn.relu (F := Ideal) (Cert.Gcn.layerNorm (F := Ideal) (V c main_v46) b g β)) (((cfg1.win 4).blk t).view.emb (ix2 p q))
  have hemb : ((cfg1.win 4).blk t).view.emb (ix2 p q) = ix2 (blockRow t.val ht p) q := by
    funext a; apply Fin.ext
    match a with
    | ⟨0, _⟩ => show win1_4.index t (0 : Fin 2) * 10000 + 1 * p.val = t.val * 10000 + p.val; omega
    | ⟨1, _⟩ => show win1_4.index t (1 : Fin 2) * 64 + 1 * q.val = q.val; omega
  rw [hemb]
  refine Cert.Gcn.norm_relu_block (V c main_v46) b g β (blockRow t.val ht) (iblk1 V c 0 t) (iblk1 V c 1 t) (iblk1 V c 2 t) (iblk1 V c 3 t) ?_ ?_ ?_ ?_ p q
  · intro p q
    show V c main_v46 (((cfg1.win 0).blk t).view.emb (ix2 p q)) = V c main_v46 (ix2 (blockRow t.val ht p) q)
    refine congrArg _ (funext fun a => Fin.ext ?_)
    match a with
    | ⟨0, _⟩ => show win1_0.index t (0 : Fin 2) * 10000 + 1 * p.val = t.val * 10000 + p.val; omega
    | ⟨1, _⟩ => show win1_0.index t (1 : Fin 2) * 64 + 1 * q.val = q.val; omega
  · intro q
    show V c main_v53 (((cfg1.win 1).blk t).view.emb (ix2 (0 : Fin 1) q)) = b (ix1 q)
    have e : ((cfg1.win 1).blk t).view.emb (ix2 (0 : Fin 1) q) = ix2 (0 : Fin 1) q := by
      funext a; apply Fin.ext
      match a with
      | ⟨0, _⟩ => show win1_1.index t (0 : Fin 2) * 1 + 1 * 0 = 0; omega
      | ⟨1, _⟩ => show win1_1.index t (1 : Fin 2) * 64 + 1 * q.val = q.val; omega
    rw [e, hb]
    exact shapeCast_a_1a_apply b _ 0 q
  · intro q
    show V c main_v54 (((cfg1.win 2).blk t).view.emb (ix2 (0 : Fin 1) q)) = g (ix1 q)
    have e : ((cfg1.win 2).blk t).view.emb (ix2 (0 : Fin 1) q) = ix2 (0 : Fin 1) q := by
      funext a; apply Fin.ext
      match a with
      | ⟨0, _⟩ => show win1_2.index t (0 : Fin 2) * 1 + 1 * 0 = 0; omega
      | ⟨1, _⟩ => show win1_2.index t (1 : Fin 2) * 64 + 1 * q.val = q.val; omega
    rw [e, hg]
    exact shapeCast_a_1a_apply g _ 0 q
  · intro q
    show V c main_v55 (((cfg1.win 3).blk t).view.emb (ix2 (0 : Fin 1) q)) = β (ix1 q)
    have e : ((cfg1.win 3).blk t).view.emb (ix2 (0 : Fin 1) q) = ix2 (0 : Fin 1) q := by
      funext a; apply Fin.ext
      match a with
      | ⟨0, _⟩ => show win1_3.index t (0 : Fin 2) * 1 + 1 * 0 = 0; omega
      | ⟨1, _⟩ => show win1_3.index t (1 : Fin 2) * 64 + 1 * q.val = q.val; omega
    rw [e, hβ]
    exact shapeCast_a_1a_apply β _ 0 q

/-- An index of the output lies in block t iff its row is among rows 10000·t … 10000·t + 9999. -/
theorem mem_block1 (t : Fin cfg1.N) (i : S100000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v56).slice (win1_4.rect t)).set ↔ _
  rw [View.set_slice_whole, Rect.mem_set_unit]
  exact Iff.rfl

/-- Every index of the output lies in the block numbered by its row's quotient by 10000. -/
theorem cover1 (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 10 := N_1
  refine ⟨⟨(i 0).val / 10000, by rw [hN]; omega⟩, flush1_4 _, ?_⟩
  rw [mem_block1]
  obtain ⟨e00, e01, e10, e11, e20, e21, e30, e31, e40, e41⟩ := starts1 ⟨(i 0).val / 10000, by rw [hN]; omega⟩
  intro a
  match a with
  | ⟨0, _⟩ => show win1_4.index _ (0 : Fin 2) * 10000 ≤ (i 0).val ∧ (i 0).val < win1_4.index _ (0 : Fin 2) * 10000 + 10000; rw [e40]; show (i 0).val / 10000 * 10000 ≤ _ ∧ _ < (i 0).val / 10000 * 10000 + 10000; omega
  | ⟨1, _⟩ => show win1_4.index _ (1 : Fin 2) * 64 ≤ (i 1).val ∧ (i 1).val < win1_4.index _ (1 : Fin 2) * 64 + 64; rw [e41]; omega

/-- After the launch the output array is the whole normalised array. -/
theorem norm_final1 (c : Dev nD) (b g β : Cert.Gcn.Row Ideal)
    (hb : V c main_v53 = shapeCast _ b shapeCasts_S64_S1x64) (hg : V c main_v54 = shapeCast _ g shapeCasts_S64_S1x64)
    (hβ : V c main_v55 = shapeCast _ β shapeCasts_S64_S1x64) :
    (dat1 V c).arrAt 4 cfg1.N = (Cert.Gcn.relu (F := Ideal) (Cert.Gcn.layerNorm (F := Ideal) (V c main_v46) b g β)) :=
  (dat1 V c).arrAt_eq_of_cover 4 _ (fun t _ => norm_flushed1 V c t b g β hb hg hβ) cover1

/-! ## Launch 3: main_v72 normalised into main_v82 -/

/-- Block t of the input and of the output starts at row 10000·t; each parameter row is one block. -/
theorem starts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What block t writes back is rows 10000·t … 10000·t + 9999 of the whole normalised array. -/
theorem norm_flushed3 (c : Dev nD) (t : Fin cfg3.N) (b g β : Cert.Gcn.Row Ideal)
    (hb : V c main_v79 = shapeCast _ b shapeCasts_S64_S1x64) (hg : V c main_v80 = shapeCast _ g shapeCasts_S64_S1x64)
    (hβ : V c main_v81 = shapeCast _ β shapeCasts_S64_S1x64) :
    (dat3 V c).flushed 4 t = ((cfg3.win 4).blk t).view.read (Elt Ideal) (Cert.Gcn.relu (F := Ideal) (Cert.Gcn.layerNorm (F := Ideal) (V c main_v72) b g β)) := by
  show (cfg3.win 4).cut (grid3.coords t) ((dat3 V c).after 4 t) = _
  rw [after3_4]
  unfold out3_4
  rw [View.canon_unit_zero offsets_zero]
  simp only [View.ld_unit_zero (S := S10000x64) offsets_zero, View.ld_unit_zero (S := S1x64) offsets_zero]
  funext y
  obtain ⟨p, q, rfl⟩ : ∃ (p : Fin 10000) (q : Fin 64), y = ix2 p q := ⟨y 0, y 1, eq_ix2 y⟩
  have ht : t.val < 10 := lt_of_lt_of_eq t.isLt N_3
  obtain ⟨e00, e01, e10, e11, e20, e21, e30, e31, e40, e41⟩ := starts3 t
  show k1_pay1 (F := Ideal) (iblk3 V c 0 t) (iblk3 V c 1 t) (iblk3 V c 2 t) (iblk3 V c 3 t) (ix2 p q)
    = (Cert.Gcn.relu (F := Ideal) (Cert.Gcn.layerNorm (F := Ideal) (V c main_v72) b g β)) (((cfg3.win 4).blk t).view.emb (ix2 p q))
  have hemb : ((cfg3.win 4).blk t).view.emb (ix2 p q) = ix2 (blockRow t.val ht p) q := by
    funext a; apply Fin.ext
    match a with
    | ⟨0, _⟩ => show win3_4.index t (0 : Fin 2) * 10000 + 1 * p.val = t.val * 10000 + p.val; omega
    | ⟨1, _⟩ => show win3_4.index t (1 : Fin 2) * 64 + 1 * q.val = q.val; omega
  rw [hemb]
  refine Cert.Gcn.norm_relu_block (V c main_v72) b g β (blockRow t.val ht) (iblk3 V c 0 t) (iblk3 V c 1 t) (iblk3 V c 2 t) (iblk3 V c 3 t) ?_ ?_ ?_ ?_ p q
  · intro p q
    show V c main_v72 (((cfg3.win 0).blk t).view.emb (ix2 p q)) = V c main_v72 (ix2 (blockRow t.val ht p) q)
    refine congrArg _ (funext fun a => Fin.ext ?_)
    match a with
    | ⟨0, _⟩ => show win3_0.index t (0 : Fin 2) * 10000 + 1 * p.val = t.val * 10000 + p.val; omega
    | ⟨1, _⟩ => show win3_0.index t (1 : Fin 2) * 64 + 1 * q.val = q.val; omega
  · intro q
    show V c main_v79 (((cfg3.win 1).blk t).view.emb (ix2 (0 : Fin 1) q)) = b (ix1 q)
    have e : ((cfg3.win 1).blk t).view.emb (ix2 (0 : Fin 1) q) = ix2 (0 : Fin 1) q := by
      funext a; apply Fin.ext
      match a with
      | ⟨0, _⟩ => show win3_1.index t (0 : Fin 2) * 1 + 1 * 0 = 0; omega
      | ⟨1, _⟩ => show win3_1.index t (1 : Fin 2) * 64 + 1 * q.val = q.val; omega
    rw [e, hb]
    exact shapeCast_a_1a_apply b _ 0 q
  · intro q
    show V c main_v80 (((cfg3.win 2).blk t).view.emb (ix2 (0 : Fin 1) q)) = g (ix1 q)
    have e : ((cfg3.win 2).blk t).view.emb (ix2 (0 : Fin 1) q) = ix2 (0 : Fin 1) q := by
      funext a; apply Fin.ext
      match a with
      | ⟨0, _⟩ => show win3_2.index t (0 : Fin 2) * 1 + 1 * 0 = 0; omega
      | ⟨1, _⟩ => show win3_2.index t (1 : Fin 2) * 64 + 1 * q.val = q.val; omega
    rw [e, hg]
    exact shapeCast_a_1a_apply g _ 0 q
  · intro q
    show V c main_v81 (((cfg3.win 3).blk t).view.emb (ix2 (0 : Fin 1) q)) = β (ix1 q)
    have e : ((cfg3.win 3).blk t).view.emb (ix2 (0 : Fin 1) q) = ix2 (0 : Fin 1) q := by
      funext a; apply Fin.ext
      match a with
      | ⟨0, _⟩ => show win3_3.index t (0 : Fin 2) * 1 + 1 * 0 = 0; omega
      | ⟨1, _⟩ => show win3_3.index t (1 : Fin 2) * 64 + 1 * q.val = q.val; omega
    rw [e, hβ]
    exact shapeCast_a_1a_apply β _ 0 q

/-- An index of the output lies in block t iff its row is among rows 10000·t … 10000·t + 9999. -/
theorem mem_block3 (t : Fin cfg3.N) (i : S100000x64.Idx) :
    i ∈ ((cfg3.win 4).blk t).view.set ↔ ∀ a : Fin 2, win3_4.index t a * S10000x64.size a ≤ (i a).val ∧ (i a).val < win3_4.index t a * S10000x64.size a + S10000x64.size a := by
  show i ∈ ((View.whole main_v82).slice (win3_4.rect t)).set ↔ _
  rw [View.set_slice_whole, Rect.mem_set_unit]
  exact Iff.rfl

/-- Every index of the output lies in the block numbered by its row's quotient by 10000. -/
theorem cover3 (i : S100000x64.Idx) : ∃ t : Fin cfg3.N, (cfg3.win 4).flush t = true ∧ i ∈ ((cfg3.win 4).blk t).view.set := by
  have hi0 : (i 0).val < 100000 := (i 0).isLt
  have hi1 : (i 1).val < 64 := (i 1).isLt
  have hN : cfg3.N = 10 := N_3
  refine ⟨⟨(i 0).val / 10000, by rw [hN]; omega⟩, flush3_4 _, ?_⟩
  rw [mem_block3]
  obtain ⟨e00, e01, e10, e11, e20, e21, e30, e31, e40, e41⟩ := starts3 ⟨(i 0).val / 10000, by rw [hN]; omega⟩
  intro a
  match a with
  | ⟨0, _⟩ => show win3_4.index _ (0 : Fin 2) * 10000 ≤ (i 0).val ∧ (i 0).val < win3_4.index _ (0 : Fin 2) * 10000 + 10000; rw [e40]; show (i 0).val / 10000 * 10000 ≤ _ ∧ _ < (i 0).val / 10000 * 10000 + 10000; omega
  | ⟨1, _⟩ => show win3_4.index _ (1 : Fin 2) * 64 ≤ (i 1).val ∧ (i 1).val < win3_4.index _ (1 : Fin 2) * 64 + 64; rw [e41]; omega

/-- After the launch the output array is the whole normalised array. -/
theorem norm_final3 (c : Dev nD) (b g β : Cert.Gcn.Row Ideal)
    (hb : V c main_v79 = shapeCast _ b shapeCasts_S64_S1x64) (hg : V c main_v80 = shapeCast _ g shapeCasts_S64_S1x64)
    (hβ : V c main_v81 = shapeCast _ β shapeCasts_S64_S1x64) :
    (dat3 V c).arrAt 4 cfg3.N = (Cert.Gcn.relu (F := Ideal) (Cert.Gcn.layerNorm (F := Ideal) (V c main_v72) b g β)) :=
  (dat3 V c).arrAt_eq_of_cover 4 _ (fun t _ => norm_flushed3 V c t b g β hb hg hβ) cover3

/-! ## Launch 5: main_v98 normalised into main_v108 -/

/-- Block t of the input and of the output starts at row 10000·t; each parameter row is one block. -/
theorem starts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- What block t writes back is rows 10000·t … 10000·t + 9999 of the whole normalised array. -/
theorem norm_flushed5 (c : Dev nD) (t : Fin cfg5.N) (b g β : Cert.Gcn.Row Ideal)
    (hb : V c main_v105 = shapeCast _ b shapeCasts_S64_S1x64) (hg : V c main_v106 = shapeCast _ g shapeCasts_S64_S1x64)
    (hβ : V c main_v107 = shapeCast _ β shapeCasts_S64_S1x64) :
    (dat5 V c).flushed 4 t = ((cfg5.win 4).blk t).view.read (Elt Ideal) (Cert.Gcn.layerNorm (F := Ideal) (V c main_v98) b g β) := by
  show (cfg5.win 4).cut (grid5.coords t) ((dat5 V c).after 4 t) = _
  rw [after5_4]
  unfold out5_4
  rw [View.canon_unit_zero offsets_zero]
  simp only [View.ld_unit_zero (S := S10000x64) offsets_zero, View.ld_unit_zero (S := S1x64) offsets_zero]
  funext y
  obtain ⟨p, q, rfl⟩ : ∃ (p : Fin 10000) (q : Fin 64), y = ix2 p q := ⟨y 0, y 1, eq_ix2 y⟩
  have ht : t.val < 10 := lt_of_lt_of_eq t.isLt N_5
  obtain ⟨e00, e01, e10, e11, e20, e21, e30, e31, e40, e41⟩ := starts5 t
  show k5_pay1 (F := Ideal) (iblk5 V c 0 t) (iblk5 V c 1 t) (iblk5 V c 2 t) (iblk5 V c 3 t) (ix2 p q)
    = (Cert.Gcn.layerNorm (F := Ideal) (V c main_v98) b g β) (((cfg5.win 4).blk t).view.emb (ix2 p q))
  have hemb : ((cfg5.win 4).blk t).view.emb (ix2 p q) = ix2 (blockRow t.val ht p) q := by
    funext a; apply Fin.ext
    match a with
    | ⟨0, _⟩ => show win5_4.index t (0 : Fin 2) * 10000 + 1 * p.val = t.val * 10000 + p.val; omega
    | ⟨1, _⟩ => show win5_4.index t (1 : Fin 2) * 64 + 1 * q.val = q.val; omega
  rw [hemb]
  refine Cert.Gcn.norm_block (V c main_v98) b g β (blockRow t.val ht) (iblk5 V c 0 t) (iblk5 V c 1 t) (iblk5 V c 2 t) (iblk5 V c 3 t) ?_ ?_ ?_ ?_ p q
  · intro p q
    show V c main_v98 (((cfg5.win 0).blk t).view.emb (ix2 p q)) = V c main_v98 (ix2 (blockRow t.val ht p) q)
    refine congrArg _ (funext fun a => Fin.ext ?_)
    match a with
    | ⟨0, _⟩ => show win5_0.index t (0 : Fin 2) * 10000 + 1 * p.val = t.val * 10000 + p.val; omega
    | ⟨1, _⟩ => show win5_0.index t (1 : Fin 2) * 64 + 1 * q.val = q.val; omega
  · intro q
    show V c main_v105 (((cfg5.win 1).blk t).view.emb (ix2 (0 : Fin 1) q)) = b (ix1 q)
    have e : ((cfg5.win 1).blk t).view.emb (ix2 (0 : Fin 1) q) = ix2 (0 : Fin 1) q := by
      funext a; apply Fin.ext
      match a with
      | ⟨0, _⟩ => show win5_1.index t (0 : Fin 2) * 1 + 1 * 0 = 0; omega
      | ⟨1, _⟩ => show win5_1.index t (1 : Fin 2) * 64 + 1 * q.val = q.val; omega
    rw [e, hb]
    exact shapeCast_a_1a_apply b _ 0 q
  · intro q
    show V c main_v106 (((cfg5.win 2).blk t).view.emb (ix2 (0 : Fin 1) q)) = g (ix1 q)
    have e : ((cfg5.win 2).blk t).view.emb (ix2 (0 : Fin 1) q) = ix2 (0 : Fin 1) q := by
      funext a; apply Fin.ext
      match a with
      | ⟨0, _⟩ => show win5_2.index t (0 : Fin 2) * 1 + 1 * 0 = 0; omega
      | ⟨1, _⟩ => show win5_2.index t (1 : Fin 2) * 64 + 1 * q.val = q.val; omega
    rw [e, hg]
    exact shapeCast_a_1a_apply g _ 0 q
  · intro q
    show V c main_v107 (((cfg5.win 3).blk t).view.emb (ix2 (0 : Fin 1) q)) = β (ix1 q)
    have e : ((cfg5.win 3).blk t).view.emb (ix2 (0 : Fin 1) q) = ix2 (0 : Fin 1) q := by
      funext a; apply Fin.ext
      match a with
      | ⟨0, _⟩ => show win5_3.index t (0 : Fin 2) * 1 + 1 * 0 = 0; omega
      | ⟨1, _⟩ => show win5_3.index t (1 : Fin 2) * 64 + 1 * q.val = q.val; omega
    rw [e, hβ]
    exact shapeCast_a_1a_apply β _ 0 q

/-- An index of the output lies in block t iff its row is among rows 10000·t … 10000·t + 9999. -/
theorem mem_block5 (t : Fin cfg5.N) (i : S100000x64.Idx) :
    i ∈ ((cfg5.win 4).blk t).view.set ↔ ∀ a : Fin 2, win5_4.index t a * S10000x64.size a ≤ (i a).val ∧ (i a).val < win5_4.index t a * S10000x64.size a + S10000x64.size a := by
  show i ∈ ((View.whole main_v108).slice (win5_4.rect t)).set ↔ _
  rw [View.set_slice_whole, Rect.mem_set_unit]
  exact Iff.rfl

/-- Every index of the output lies in the block numbered by its row's quotient by 10000. -/
theorem cover5 (i : S100000x64.Idx) : ∃ t : Fin cfg5.N, (cfg5.win 4).flush t = true ∧ i ∈ ((cfg5.win 4).blk t).view.set := by
  have hi0 : (i 0).val < 100000 := (i 0).isLt
  have hi1 : (i 1).val < 64 := (i 1).isLt
  have hN : cfg5.N = 10 := N_5
  refine ⟨⟨(i 0).val / 10000, by rw [hN]; omega⟩, flush5_4 _, ?_⟩
  rw [mem_block5]
  obtain ⟨e00, e01, e10, e11, e20, e21, e30, e31, e40, e41⟩ := starts5 ⟨(i 0).val / 10000, by rw [hN]; omega⟩
  intro a
  match a with
  | ⟨0, _⟩ => show win5_4.index _ (0 : Fin 2) * 10000 ≤ (i 0).val ∧ (i 0).val < win5_4.index _ (0 : Fin 2) * 10000 + 10000; rw [e40]; show (i 0).val / 10000 * 10000 ≤ _ ∧ _ < (i 0).val / 10000 * 10000 + 10000; omega
  | ⟨1, _⟩ => show win5_4.index _ (1 : Fin 2) * 64 ≤ (i 1).val ∧ (i 1).val < win5_4.index _ (1 : Fin 2) * 64 + 64; rw [e41]; omega

/-- After the launch the output array is the whole normalised array. -/
theorem norm_final5 (c : Dev nD) (b g β : Cert.Gcn.Row Ideal)
    (hb : V c main_v105 = shapeCast _ b shapeCasts_S64_S1x64) (hg : V c main_v106 = shapeCast _ g shapeCasts_S64_S1x64)
    (hβ : V c main_v107 = shapeCast _ β shapeCasts_S64_S1x64) :
    (dat5 V c).arrAt 4 cfg5.N = (Cert.Gcn.layerNorm (F := Ideal) (V c main_v98) b g β) :=
  (dat5 V c).arrAt_eq_of_cover 4 _ (fun t _ => norm_flushed5 V c t b g β hb hg hβ) cover5

end Cert.KernelIdeal.Out

end
-- ==== Proof.KernelChain.lean ====
/-
  The kernel program computes the network of Spec.lean.

  The buffers' contents are followed through the program's fourteen stretches.  Before the first launch the host
  operations leave the sources, the targets and the weights of the entry lists in three buffers that nothing later
  writes, and nothing ever writes the parameter arrays.  Then, three times over: a host stretch cuts the layer's
  weight matrix out of the parameters, a launch forms the product of the current features with it, a host stretch
  gathers the product's rows along the entry lists, weighs them and adds them up at each node, a launch adds the
  bias, normalises each row and applies the layer's scale and shift (and max(·, 0) in the first two layers).  Each
  step is one piece of the description in Spec.lean applied to what the step before left.
-/
import proofs.«162604_j70600672412128_1_alg».proof.Proof.Gen.KernelIdeal.Frame
import proofs.«162604_j70600672412128_1_alg».proof.Proof.Spec
import proofs.«162604_j70600672412128_1_alg».proof.Proof.KernelReads
import proofs.«162604_j70600672412128_1_alg».proof.Proof.ProductLaunches
import proofs.«162604_j70600672412128_1_alg».proof.Proof.NormLaunches

set_option maxRecDepth 16384

noncomputable section

namespace Cert.KernelIdeal.Out

open Cert.KernelIdeal Cert.KernelIdeal.Gen
open Idealize.ShloMosaic Idealize.ShloMosaic.TcCoe
open Idealize.SL.Sem
open Idealize.ShloMosaic.Pipeline (Dat Cfg Window)

variable (m : (ℓ : Loc nD τ sig) → Buf (Elt Ideal) ℓ) (ρ : Dev nD → PrngReg) (c : Dev nD)

/-! ## Before the first launch -/

theorem at1_v3 : W1 m ρ c (Proc.devRef .tc main_v3) = (Cert.Gcn.sources (F := Ideal) (m ((c : Thread nD τ).loc main_arg5))) := read_sources (W0 m ρ c)
theorem at1_v6 : W1 m ρ c (Proc.devRef .tc main_v6) = (Cert.Gcn.targets (F := Ideal) (m ((c : Thread nD τ).loc main_arg5))) := read_targets (W0 m ρ c)
theorem at2_v3 : W2 m ρ c (Proc.devRef .tc main_v3) = (Cert.Gcn.sources (F := Ideal) (m ((c : Thread nD τ).loc main_arg5))) := (kept_hostOps0_1_v3 (W1 m ρ c)).trans (at1_v3 m ρ c)
theorem at2_v6 : W2 m ρ c (Proc.devRef .tc main_v6) = (Cert.Gcn.targets (F := Ideal) (m ((c : Thread nD τ).loc main_arg5))) := (kept_hostOps0_1_v6 (W1 m ρ c)).trans (at1_v6 m ρ c)
theorem at3_v3 : W3 m ρ c (Proc.devRef .tc main_v3) = (Cert.Gcn.sources (F := Ideal) (m ((c : Thread nD τ).loc main_arg5))) := (kept_hostOps0_2_v3 (W2 m ρ c)).trans (at2_v3 m ρ c)
theorem at3_v6 : W3 m ρ c (Proc.devRef .tc main_v6) = (Cert.Gcn.targets (F := Ideal) (m ((c : Thread nD τ).loc main_arg5))) := (kept_hostOps0_2_v6 (W2 m ρ c)).trans (at2_v6 m ρ c)
theorem at2_v15 : W2 m ρ c (Proc.devRef .tc main_v15) = Cert.Gcn.degInvSqrt (F := Ideal) (Cert.Gcn.targets (F := Ideal) (m ((c : Thread nD τ).loc main_arg5))) :=
  (read_degInvSqrt (W1 m ρ c)).trans (by
    rw [show W1 m ρ c (Proc.devRef .tc main_v12) = _ from read_degPositive (W0 m ρ c), show W1 m ρ c (Proc.devRef .tc main_v13) = _ from read_degRsqrt (W0 m ρ c),
      show W1 m ρ c (Proc.devRef .tc main_v14) = _ from read_zeros (W0 m ρ c)]
    rfl)
theorem at3_v30 : W3 m ρ c (Proc.devRef .tc main_v30) = (Cert.Gcn.weights (F := Ideal) (Cert.Gcn.sources (F := Ideal) (m ((c : Thread nD τ).loc main_arg5))) (Cert.Gcn.targets (F := Ideal) (m ((c : Thread nD τ).loc main_arg5)))) :=
  (read_weights (W2 m ρ c)).trans (by rw [at2_v15 m ρ c, at2_v3 m ρ c, at2_v6 m ρ c]; rfl)
theorem at3_arg0 : W3 m ρ c (Proc.devRef .tc main_arg0) = (m ((c : Thread nD τ).loc main_arg0)) :=
  (kept_hostOps0_2_arg0 (W2 m ρ c)).trans ((kept_hostOps0_1_arg0 (W1 m ρ c)).trans (kept_hostOps0_arg0 (W0 m ρ c)))
theorem at3_arg1 : W3 m ρ c (Proc.devRef .tc main_arg1) = (m ((c : Thread nD τ).loc main_arg1)) :=
  (kept_hostOps0_2_arg1 (W2 m ρ c)).trans ((kept_hostOps0_1_arg1 (W1 m ρ c)).trans (kept_hostOps0_arg1 (W0 m ρ c)))
theorem at3_arg2 : W3 m ρ c (Proc.devRef .tc main_arg2) = (m ((c : Thread nD τ).loc main_arg2)) :=
  (kept_hostOps0_2_arg2 (W2 m ρ c)).trans ((kept_hostOps0_1_arg2 (W1 m ρ c)).trans (kept_hostOps0_arg2 (W0 m ρ c)))
theorem at3_arg3 : W3 m ρ c (Proc.devRef .tc main_arg3) = (m ((c : Thread nD τ).loc main_arg3)) :=
  (kept_hostOps0_2_arg3 (W2 m ρ c)).trans ((kept_hostOps0_1_arg3 (W1 m ρ c)).trans (kept_hostOps0_arg3 (W0 m ρ c)))
theorem at3_arg4 : W3 m ρ c (Proc.devRef .tc main_arg4) = (m ((c : Thread nD τ).loc main_arg4)) :=
  (kept_hostOps0_2_arg4 (W2 m ρ c)).trans ((kept_hostOps0_1_arg4 (W1 m ρ c)).trans (kept_hostOps0_arg4 (W0 m ρ c)))

/-! ## What every later stretch and launch leaves alone -/

theorem at4_v3 : W4 m ρ c (Proc.devRef .tc main_v3) = (Cert.Gcn.sources (F := Ideal) (m ((c : Thread nD τ).loc main_arg5))) := (W4_of_ne m ρ c main_v3 (by decide)).trans (at3_v3 m ρ c)
theorem at4_v6 : W4 m ρ c (Proc.devRef .tc main_v6) = (Cert.Gcn.targets (F := Ideal) (m ((c : Thread nD τ).loc main_arg5))) := (W4_of_ne m ρ c main_v6 (by decide)).trans (at3_v6 m ρ c)
theorem at4_v30 : W4 m ρ c (Proc.devRef .tc main_v30) = (Cert.Gcn.weights (F := Ideal) (Cert.Gcn.sources (F := Ideal) (m ((c : Thread nD τ).loc main_arg5))) (Cert.Gcn.targets (F := Ideal) (m ((c : Thread nD τ).loc main_arg5)))) := (W4_of_ne m ρ c main_v30 (by decide)).trans (at3_v30 m ρ c)
theorem at4_arg1 : W4 m ρ c (Proc.devRef .tc main_arg1) = (m ((c : Thread nD τ).loc main_arg1)) := (W4_of_ne m ρ c main_arg1 (by decide)).trans (at3_arg1 m ρ c)
theorem at4_arg2 : W4 m ρ c (Proc.devRef .tc main_arg2) = (m ((c : Thread nD τ).loc main_arg2)) := (W4_of_ne m ρ c main_arg2 (by decide)).trans (at3_arg2 m ρ c)
theorem at4_arg3 : W4 m ρ c (Proc.devRef .tc main_arg3) = (m ((c : Thread nD τ).loc main_arg3)) := (W4_of_ne m ρ c main_arg3 (by decide)).trans (at3_arg3 m ρ c)
theorem at4_arg4 : W4 m ρ c (Proc.devRef .tc main_arg4) = (m ((c : Thread nD τ).loc main_arg4)) := (W4_of_ne m ρ c main_arg4 (by decide)).trans (at3_arg4 m ρ c)
theorem at5_v3 : W5 m ρ c (Proc.devRef .tc main_v3) = (Cert.Gcn.sources (F := Ideal) (m ((c : Thread nD τ).loc main_arg5))) := (kept_hostOps1_v3 (W4 m ρ c)).trans (at4_v3 m ρ c)
theorem at5_v6 : W5 m ρ c (Proc.devRef .tc main_v6) = (Cert.Gcn.targets (F := Ideal) (m ((c : Thread nD τ).loc main_arg5))) := (kept_hostOps1_v6 (W4 m ρ c)).trans (at4_v6 m ρ c)
theorem at5_v30 : W5 m ρ c (Proc.devRef .tc main_v30) = (Cert.Gcn.weights (F := Ideal) (Cert.Gcn.sources (F := Ideal) (m ((c : Thread nD τ).loc main_arg5))) (Cert.Gcn.targets (F := Ideal) (m ((c : Thread nD τ).loc main_arg5)))) := (kept_hostOps1_v30 (W4 m ρ c)).trans (at4_v30 m ρ c)
theorem at5_arg1 : W5 m ρ c (Proc.devRef .tc main_arg1) = (m ((c : Thread nD τ).loc main_arg1)) := (kept_hostOps1_arg1 (W4 m ρ c)).trans (at4_arg1 m ρ c)
theorem at5_arg2 : W5 m ρ c (Proc.devRef .tc main_arg2) = (m ((c : Thread nD τ).loc main_arg2)) := (kept_hostOps1_arg2 (W4 m ρ c)).trans (at4_arg2 m ρ c)
theorem at5_arg3 : W5 m ρ c (Proc.devRef .tc main_arg3) = (m ((c : Thread nD τ).loc main_arg3)) := (kept_hostOps1_arg3 (W4 m ρ c)).trans (at4_arg3 m ρ c)
theorem at5_arg4 : W5 m ρ c (Proc.devRef .tc main_arg4) = (m ((c : Thread nD τ).loc main_arg4)) := (kept_hostOps1_arg4 (W4 m ρ c)).trans (at4_arg4 m ρ c)
theorem at6_v3 : W6 m ρ c (Proc.devRef .tc main_v3) = (Cert.Gcn.sources (F := Ideal) (m ((c : Thread nD τ).loc main_arg5))) := (W6_of_ne m ρ c main_v3 (by decide)).trans (at5_v3 m ρ c)
theorem at6_v6 : W6 m ρ c (Proc.devRef .tc main_v6) = (Cert.Gcn.targets (F := Ideal) (m ((c : Thread nD τ).loc main_arg5))) := (W6_of_ne m ρ c main_v6 (by decide)).trans (at5_v6 m ρ c)
theorem at6_v30 : W6 m ρ c (Proc.devRef .tc main_v30) = (Cert.Gcn.weights (F := Ideal) (Cert.Gcn.sources (F := Ideal) (m ((c : Thread nD τ).loc main_arg5))) (Cert.Gcn.targets (F := Ideal) (m ((c : Thread nD τ).loc main_arg5)))) := (W6_of_ne m ρ c main_v30 (by decide)).trans (at5_v30 m ρ c)
theorem at6_arg1 : W6 m ρ c (Proc.devRef .tc main_arg1) = (m ((c : Thread nD τ).loc main_arg1)) := (W6_of_ne m ρ c main_arg1 (by decide)).trans (at5_arg1 m ρ c)
theorem at6_arg2 : W6 m ρ c (Proc.devRef .tc main_arg2) = (m ((c : Thread nD τ).loc main_arg2)) := (W6_of_ne m ρ c main_arg2 (by decide)).trans (at5_arg2 m ρ c)
theorem at6_arg3 : W6 m ρ c (Proc.devRef .tc main_arg3) = (m ((c : Thread nD τ).loc main_arg3)) := (W6_of_ne m ρ c main_arg3 (by decide)).trans (at5_arg3 m ρ c)
theorem at6_arg4 : W6 m ρ c (Proc.devRef .tc main_arg4) = (m ((c : Thread nD τ).loc main_arg4)) := (W6_of_ne m ρ c main_arg4 (by decide)).trans (at5_arg4 m ρ c)
theorem at7_v3 : W7 m ρ c (Proc.devRef .tc main_v3) = (Cert.Gcn.sources (F := Ideal) (m ((c : Thread nD τ).loc main_arg5))) := (kept_hostOps2_v3 (W6 m ρ c)).trans (at6_v3 m ρ c)
theorem at7_v6 : W7 m ρ c (Proc.devRef .tc main_v6) = (Cert.Gcn.targets (F := Ideal) (m ((c : Thread nD τ).loc main_arg5))) := (kept_hostOps2_v6 (W6 m ρ c)).trans (at6_v6 m ρ c)
theorem at7_v30 : W7 m ρ c (Proc.devRef .tc main_v30) = (Cert.Gcn.weights (F := Ideal) (Cert.Gcn.sources (F := Ideal) (m ((c : Thread nD τ).loc main_arg5))) (Cert.Gcn.targets (F := Ideal) (m ((c : Thread nD τ).loc main_arg5)))) := (kept_hostOps2_v30 (W6 m ρ c)).trans (at6_v30 m ρ c)
theorem at7_arg1 : W7 m ρ c (Proc.devRef .tc main_arg1) = (m ((c : Thread nD τ).loc main_arg1)) := (kept_hostOps2_arg1 (W6 m ρ c)).trans (at6_arg1 m ρ c)
theorem at7_arg2 : W7 m ρ c (Proc.devRef .tc main_arg2) = (m ((c : Thread nD τ).loc main_arg2)) := (kept_hostOps2_arg2 (W6 m ρ c)).trans (at6_arg2 m ρ c)
theorem at7_arg3 : W7 m ρ c (Proc.devRef .tc main_arg3) = (m ((c : Thread nD τ).loc main_arg3)) := (kept_hostOps2_arg3 (W6 m ρ c)).trans (at6_arg3 m ρ c)
theorem at7_arg4 : W7 m ρ c (Proc.devRef .tc main_arg4) = (m ((c : Thread nD τ).loc main_arg4)) := (kept_hostOps2_arg4 (W6 m ρ c)).trans (at6_arg4 m ρ c)
theorem at8_v3 : W8 m ρ c (Proc.devRef .tc main_v3) = (Cert.Gcn.sources (F := Ideal) (m ((c : Thread nD τ).loc main_arg5))) := (W8_of_ne m ρ c main_v3 (by decide)).trans (at7_v3 m ρ c)
theorem at8_v6 : W8 m ρ c (Proc.devRef .tc main_v6) = (Cert.Gcn.targets (F := Ideal) (m ((c : Thread nD τ).loc main_arg5))) := (W8_of_ne m ρ c main_v6 (by decide)).trans (at7_v6 m ρ c)
theorem at8_v30 : W8 m ρ c (Proc.devRef .tc main_v30) = (Cert.Gcn.weights (F := Ideal) (Cert.Gcn.sources (F := Ideal) (m ((c : Thread nD τ).loc main_arg5))) (Cert.Gcn.targets (F := Ideal) (m ((c : Thread nD τ).loc main_arg5)))) := (W8_of_ne m ρ c main_v30 (by decide)).trans (at7_v30 m ρ c)
theorem at8_arg1 : W8 m ρ c (Proc.devRef .tc main_arg1) = (m ((c : Thread nD τ).loc main_arg1)) := (W8_of_ne m ρ c main_arg1 (by decide)).trans (at7_arg1 m ρ c)
theorem at8_arg2 : W8 m ρ c (Proc.devRef .tc main_arg2) = (m ((c : Thread nD τ).loc main_arg2)) := (W8_of_ne m ρ c main_arg2 (by decide)).trans (at7_arg2 m ρ c)
theorem at8_arg3 : W8 m ρ c (Proc.devRef .tc main_arg3) = (m ((c : Thread nD τ).loc main_arg3)) := (W8_of_ne m ρ c main_arg3 (by decide)).trans (at7_arg3 m ρ c)
theorem at8_arg4 : W8 m ρ c (Proc.devRef .tc main_arg4) = (m ((c : Thread nD τ).loc main_arg4)) := (W8_of_ne m ρ c main_arg4 (by decide)).trans (at7_arg4 m ρ c)
theorem at9_v3 : W9 m ρ c (Proc.devRef .tc main_v3) = (Cert.Gcn.sources (F := Ideal) (m ((c : Thread nD τ).loc main_arg5))) := (kept_hostOps3_v3 (W8 m ρ c)).trans (at8_v3 m ρ c)
theorem at9_v6 : W9 m ρ c (Proc.devRef .tc main_v6) = (Cert.Gcn.targets (F := Ideal) (m ((c : Thread nD τ).loc main_arg5))) := (kept_hostOps3_v6 (W8 m ρ c)).trans (at8_v6 m ρ c)
theorem at9_v30 : W9 m ρ c (Proc.devRef .tc main_v30) = (Cert.Gcn.weights (F := Ideal) (Cert.Gcn.sources (F := Ideal) (m ((c : Thread nD τ).loc main_arg5))) (Cert.Gcn.targets (F := Ideal) (m ((c : Thread nD τ).loc main_arg5)))) := (kept_hostOps3_v30 (W8 m ρ c)).trans (at8_v30 m ρ c)
theorem at9_arg1 : W9 m ρ c (Proc.devRef .tc main_arg1) = (m ((c : Thread nD τ).loc main_arg1)) := (kept_hostOps3_arg1 (W8 m ρ c)).trans (at8_arg1 m ρ c)
theorem at9_arg2 : W9 m ρ c (Proc.devRef .tc main_arg2) = (m ((c : Thread nD τ).loc main_arg2)) := (kept_hostOps3_arg2 (W8 m ρ c)).trans (at8_arg2 m ρ c)
theorem at9_arg3 : W9 m ρ c (Proc.devRef .tc main_arg3) = (m ((c : Thread nD τ).loc main_arg3)) := (kept_hostOps3_arg3 (W8 m ρ c)).trans (at8_arg3 m ρ c)
theorem at9_arg4 : W9 m ρ c (Proc.devRef .tc main_arg4) = (m ((c : Thread nD τ).loc main_arg4)) := (kept_hostOps3_arg4 (W8 m ρ c)).trans (at8_arg4 m ρ c)
theorem at10_v3 : W10 m ρ c (Proc.devRef .tc main_v3) = (Cert.Gcn.sources (F := Ideal) (m ((c : Thread nD τ).loc main_arg5))) := (W10_of_ne m ρ c main_v3 (by decide)).trans (at9_v3 m ρ c)
theorem at10_v6 : W10 m ρ c (Proc.devRef .tc main_v6) = (Cert.Gcn.targets (F := Ideal) (m ((c : Thread nD τ).loc main_arg5))) := (W10_of_ne m ρ c main_v6 (by decide)).trans (at9_v6 m ρ c)
theorem at10_v30 : W10 m ρ c (Proc.devRef .tc main_v30) = (Cert.Gcn.weights (F := Ideal) (Cert.Gcn.sources (F := Ideal) (m ((c : Thread nD τ).loc main_arg5))) (Cert.Gcn.targets (F := Ideal) (m ((c : Thread nD τ).loc main_arg5)))) := (W10_of_ne m ρ c main_v30 (by decide)).trans (at9_v30 m ρ c)
theorem at10_arg1 : W10 m ρ c (Proc.devRef .tc main_arg1) = (m ((c : Thread nD τ).loc main_arg1)) := (W10_of_ne m ρ c main_arg1 (by decide)).trans (at9_arg1 m ρ c)
theorem at10_arg2 : W10 m ρ c (Proc.devRef .tc main_arg2) = (m ((c : Thread nD τ).loc main_arg2)) := (W10_of_ne m ρ c main_arg2 (by decide)).trans (at9_arg2 m ρ c)
theorem at10_arg3 : W10 m ρ c (Proc.devRef .tc main_arg3) = (m ((c : Thread nD τ).loc main_arg3)) := (W10_of_ne m ρ c main_arg3 (by decide)).trans (at9_arg3 m ρ c)
theorem at10_arg4 : W10 m ρ c (Proc.devRef .tc main_arg4) = (m ((c : Thread nD τ).loc main_arg4)) := (W10_of_ne m ρ c main_arg4 (by decide)).trans (at9_arg4 m ρ c)
theorem at11_v3 : W11 m ρ c (Proc.devRef .tc main_v3) = (Cert.Gcn.sources (F := Ideal) (m ((c : Thread nD τ).loc main_arg5))) := (kept_hostOps4_v3 (W10 m ρ c)).trans (at10_v3 m ρ c)
theorem at11_v6 : W11 m ρ c (Proc.devRef .tc main_v6) = (Cert.Gcn.targets (F := Ideal) (m ((c : Thread nD τ).loc main_arg5))) := (kept_hostOps4_v6 (W10 m ρ c)).trans (at10_v6 m ρ c)
theorem at11_v30 : W11 m ρ c (Proc.devRef .tc main_v30) = (Cert.Gcn.weights (F := Ideal) (Cert.Gcn.sources (F := Ideal) (m ((c : Thread nD τ).loc main_arg5))) (Cert.Gcn.targets (F := Ideal) (m ((c : Thread nD τ).loc main_arg5)))) := (kept_hostOps4_v30 (W10 m ρ c)).trans (at10_v30 m ρ c)
theorem at11_arg1 : W11 m ρ c (Proc.devRef .tc main_arg1) = (m ((c : Thread nD τ).loc main_arg1)) := (kept_hostOps4_arg1 (W10 m ρ c)).trans (at10_arg1 m ρ c)
theorem at11_arg2 : W11 m ρ c (Proc.devRef .tc main_arg2) = (m ((c : Thread nD τ).loc main_arg2)) := (kept_hostOps4_arg2 (W10 m ρ c)).trans (at10_arg2 m ρ c)
theorem at11_arg3 : W11 m ρ c (Proc.devRef .tc main_arg3) = (m ((c : Thread nD τ).loc main_arg3)) := (kept_hostOps4_arg3 (W10 m ρ c)).trans (at10_arg3 m ρ c)
theorem at11_arg4 : W11 m ρ c (Proc.devRef .tc main_arg4) = (m ((c : Thread nD τ).loc main_arg4)) := (kept_hostOps4_arg4 (W10 m ρ c)).trans (at10_arg4 m ρ c)
theorem at12_v3 : W12 m ρ c (Proc.devRef .tc main_v3) = (Cert.Gcn.sources (F := Ideal) (m ((c : Thread nD τ).loc main_arg5))) := (W12_of_ne m ρ c main_v3 (by decide)).trans (at11_v3 m ρ c)
theorem at12_v6 : W12 m ρ c (Proc.devRef .tc main_v6) = (Cert.Gcn.targets (F := Ideal) (m ((c : Thread nD τ).loc main_arg5))) := (W12_of_ne m ρ c main_v6 (by decide)).trans (at11_v6 m ρ c)
theorem at12_v30 : W12 m ρ c (Proc.devRef .tc main_v30) = (Cert.Gcn.weights (F := Ideal) (Cert.Gcn.sources (F := Ideal) (m ((c : Thread nD τ).loc main_arg5))) (Cert.Gcn.targets (F := Ideal) (m ((c : Thread nD τ).loc main_arg5)))) := (W12_of_ne m ρ c main_v30 (by decide)).trans (at11_v30 m ρ c)
theorem at12_arg1 : W12 m ρ c (Proc.devRef .tc main_arg1) = (m ((c : Thread nD τ).loc main_arg1)) := (W12_of_ne m ρ c main_arg1 (by decide)).trans (at11_arg1 m ρ c)
theorem at12_arg2 : W12 m ρ c (Proc.devRef .tc main_arg2) = (m ((c : Thread nD τ).loc main_arg2)) := (W12_of_ne m ρ c main_arg2 (by decide)).trans (at11_arg2 m ρ c)
theorem at12_arg3 : W12 m ρ c (Proc.devRef .tc main_arg3) = (m ((c : Thread nD τ).loc main_arg3)) := (W12_of_ne m ρ c main_arg3 (by decide)).trans (at11_arg3 m ρ c)
theorem at12_arg4 : W12 m ρ c (Proc.devRef .tc main_arg4) = (m ((c : Thread nD τ).loc main_arg4)) := (W12_of_ne m ρ c main_arg4 (by decide)).trans (at11_arg4 m ρ c)

/-! ## The three layers -/

/-- Layer 1: the features the product launch finds. -/
theorem features0 : W3 m ρ c (Proc.devRef .tc main_arg0) = (m ((c : Thread nD τ).loc main_arg0)) := at3_arg0 m ρ c
/-- Layer 1: the weight matrix the product launch finds. -/
theorem matrix0 : W3 m ρ c (Proc.devRef .tc main_v32) = (Cert.Gcn.matOf (F := Ideal) 0 Cert.ReferenceIdeal.Gen.slices_S3x64x64_S1x64x64_0_0_0 (m ((c : Thread nD τ).loc main_arg1))) :=
  (read_matrix0 (W2 m ρ c)).trans (by rw [show W2 m ρ c (Proc.devRef .tc main_arg1) = _ from (kept_hostOps0_1_arg1 (W1 m ρ c)).trans (kept_hostOps0_arg1 (W0 m ρ c))])
/-- Layer 1: after the product launch the product array holds H · W. -/
theorem product0 : W4 m ρ c (Proc.devRef .tc main_v33) = (Cert.Gcn.dense (F := Ideal) (m ((c : Thread nD τ).loc main_arg0)) (Cert.Gcn.matOf (F := Ideal) 0 Cert.ReferenceIdeal.Gen.slices_S3x64x64_S1x64x64_0_0_0 (m ((c : Thread nD τ).loc main_arg1)))) := by
  have h := dense_final0 (V3 m ρ) c
  have e1 : V3 m ρ c main_arg0 = (m ((c : Thread nD τ).loc main_arg0)) := features0 m ρ c
  have e2 : V3 m ρ c main_v32 = (Cert.Gcn.matOf (F := Ideal) 0 Cert.ReferenceIdeal.Gen.slices_S3x64x64_S1x64x64_0_0_0 (m ((c : Thread nD τ).loc main_arg1))) := matrix0 m ρ c
  rw [e1, e2] at h
  exact (W4_arr m ρ c 2).trans h
/-- Layer 1: the weighted sums over the entries arriving at each node. -/
theorem aggregated0 : W5 m ρ c (Proc.devRef .tc main_v46) = (Cert.Gcn.aggregate (F := Ideal) (Cert.Gcn.sources (F := Ideal) (m ((c : Thread nD τ).loc main_arg5))) (Cert.Gcn.targets (F := Ideal) (m ((c : Thread nD τ).loc main_arg5))) (Cert.Gcn.weights (F := Ideal) (Cert.Gcn.sources (F := Ideal) (m ((c : Thread nD τ).loc main_arg5))) (Cert.Gcn.targets (F := Ideal) (m ((c : Thread nD τ).loc main_arg5)))) (Cert.Gcn.dense (F := Ideal) (m ((c : Thread nD τ).loc main_arg0)) (Cert.Gcn.matOf (F := Ideal) 0 Cert.ReferenceIdeal.Gen.slices_S3x64x64_S1x64x64_0_0_0 (m ((c : Thread nD τ).loc main_arg1))))) :=
  (read_aggregate0 (W4 m ρ c)).trans (by rw [at4_v3 m ρ c, at4_v6 m ρ c, at4_v30 m ρ c, product0 m ρ c])
/-- Layer 1: after the normalisation launch the output array holds the layer's result. -/
theorem out0 : W6 m ρ c (Proc.devRef .tc main_v56) = (Cert.Gcn.relu (F := Ideal) (Cert.Gcn.layerNorm (F := Ideal) (Cert.Gcn.aggregate (F := Ideal) (Cert.Gcn.sources (F := Ideal) (m ((c : Thread nD τ).loc main_arg5))) (Cert.Gcn.targets (F := Ideal) (m ((c : Thread nD τ).loc main_arg5))) (Cert.Gcn.weights (F := Ideal) (Cert.Gcn.sources (F := Ideal) (m ((c : Thread nD τ).loc main_arg5))) (Cert.Gcn.targets (F := Ideal) (m ((c : Thread nD τ).loc main_arg5)))) (Cert.Gcn.dense (F := Ideal) (m ((c : Thread nD τ).loc main_arg0)) (Cert.Gcn.matOf (F := Ideal) 0 Cert.ReferenceIdeal.Gen.slices_S3x64x64_S1x64x64_0_0_0 (m ((c : Thread nD τ).loc main_arg1))))) (Cert.Gcn.rowOf (F := Ideal) 0 Cert.ReferenceIdeal.Gen.slices_S3x64_S1x64_0_0 (m ((c : Thread nD τ).loc main_arg2))) (Cert.Gcn.rowOf (F := Ideal) 0 Cert.ReferenceIdeal.Gen.slices_S3x64_S1x64_0_0 (m ((c : Thread nD τ).loc main_arg3))) (Cert.Gcn.rowOf (F := Ideal) 0 Cert.ReferenceIdeal.Gen.slices_S3x64_S1x64_0_0 (m ((c : Thread nD τ).loc main_arg4))))) := by
  have hb : V5 m ρ c main_v53 = shapeCast _ (Cert.Gcn.rowOf (F := Ideal) 0 Cert.ReferenceIdeal.Gen.slices_S3x64_S1x64_0_0 (m ((c : Thread nD τ).loc main_arg2))) shapeCasts_S64_S1x64 :=
    (read_bias0 (W4 m ρ c)).trans (by rw [at4_arg2 m ρ c])
  have hg : V5 m ρ c main_v54 = shapeCast _ (Cert.Gcn.rowOf (F := Ideal) 0 Cert.ReferenceIdeal.Gen.slices_S3x64_S1x64_0_0 (m ((c : Thread nD τ).loc main_arg3))) shapeCasts_S64_S1x64 :=
    (read_scale0 (W4 m ρ c)).trans (by rw [at4_arg3 m ρ c])
  have hβ : V5 m ρ c main_v55 = shapeCast _ (Cert.Gcn.rowOf (F := Ideal) 0 Cert.ReferenceIdeal.Gen.slices_S3x64_S1x64_0_0 (m ((c : Thread nD τ).loc main_arg4))) shapeCasts_S64_S1x64 :=
    (read_shift0 (W4 m ρ c)).trans (by rw [at4_arg4 m ρ c])
  have h := norm_final1 (V5 m ρ) c (Cert.Gcn.rowOf (F := Ideal) 0 Cert.ReferenceIdeal.Gen.slices_S3x64_S1x64_0_0 (m ((c : Thread nD τ).loc main_arg2))) (Cert.Gcn.rowOf (F := Ideal) 0 Cert.ReferenceIdeal.Gen.slices_S3x64_S1x64_0_0 (m ((c : Thread nD τ).loc main_arg3))) (Cert.Gcn.rowOf (F := Ideal) 0 Cert.ReferenceIdeal.Gen.slices_S3x64_S1x64_0_0 (m ((c : Thread nD τ).loc main_arg4))) hb hg hβ
  have e : V5 m ρ c main_v46 = (Cert.Gcn.aggregate (F := Ideal) (Cert.Gcn.sources (F := Ideal) (m ((c : Thread nD τ).loc main_arg5))) (Cert.Gcn.targets (F := Ideal) (m ((c : Thread nD τ).loc main_arg5))) (Cert.Gcn.weights (F := Ideal) (Cert.Gcn.sources (F := Ideal) (m ((c : Thread nD τ).loc main_arg5))) (Cert.Gcn.targets (F := Ideal) (m ((c : Thread nD τ).loc main_arg5)))) (Cert.Gcn.dense (F := Ideal) (m ((c : Thread nD τ).loc main_arg0)) (Cert.Gcn.matOf (F := Ideal) 0 Cert.ReferenceIdeal.Gen.slices_S3x64x64_S1x64x64_0_0_0 (m ((c : Thread nD τ).loc main_arg1))))) := aggregated0 m ρ c
  rw [e] at h
  exact (W6_arr m ρ c 4).trans h

/-- Layer 2: the features the product launch finds. -/
theorem features1 : W7 m ρ c (Proc.devRef .tc main_v56) = (Cert.Gcn.relu (F := Ideal) (Cert.Gcn.layerNorm (F := Ideal) (Cert.Gcn.aggregate (F := Ideal) (Cert.Gcn.sources (F := Ideal) (m ((c : Thread nD τ).loc main_arg5))) (Cert.Gcn.targets (F := Ideal) (m ((c : Thread nD τ).loc main_arg5))) (Cert.Gcn.weights (F := Ideal) (Cert.Gcn.sources (F := Ideal) (m ((c : Thread nD τ).loc main_arg5))) (Cert.Gcn.targets (F := Ideal) (m ((c : Thread nD τ).loc main_arg5)))) (Cert.Gcn.dense (F := Ideal) (m ((c : Thread nD τ).loc main_arg0)) (Cert.Gcn.matOf (F := Ideal) 0 Cert.ReferenceIdeal.Gen.slices_S3x64x64_S1x64x64_0_0_0 (m ((c : Thread nD τ).loc main_arg1))))) (Cert.Gcn.rowOf (F := Ideal) 0 Cert.ReferenceIdeal.Gen.slices_S3x64_S1x64_0_0 (m ((c : Thread nD τ).loc main_arg2))) (Cert.Gcn.rowOf (F := Ideal) 0 Cert.ReferenceIdeal.Gen.slices_S3x64_S1x64_0_0 (m ((c : Thread nD τ).loc main_arg3))) (Cert.Gcn.rowOf (F := Ideal) 0 Cert.ReferenceIdeal.Gen.slices_S3x64_S1x64_0_0 (m ((c : Thread nD τ).loc main_arg4))))) := (kept_hostOps2_v56 (W6 m ρ c)).trans (out0 m ρ c)
/-- Layer 2: the weight matrix the product launch finds. -/
theorem matrix1 : W7 m ρ c (Proc.devRef .tc main_v58) = (Cert.Gcn.matOf (F := Ideal) 1 Cert.ReferenceIdeal.Gen.slices_S3x64x64_S1x64x64_1_0_0 (m ((c : Thread nD τ).loc main_arg1))) :=
  (read_matrix1 (W6 m ρ c)).trans (by rw [at6_arg1 m ρ c])
/-- Layer 2: after the product launch the product array holds H · W. -/
theorem product1 : W8 m ρ c (Proc.devRef .tc main_v59) = (Cert.Gcn.dense (F := Ideal) (Cert.Gcn.relu (F := Ideal) (Cert.Gcn.layerNorm (F := Ideal) (Cert.Gcn.aggregate (F := Ideal) (Cert.Gcn.sources (F := Ideal) (m ((c : Thread nD τ).loc main_arg5))) (Cert.Gcn.targets (F := Ideal) (m ((c : Thread nD τ).loc main_arg5))) (Cert.Gcn.weights (F := Ideal) (Cert.Gcn.sources (F := Ideal) (m ((c : Thread nD τ).loc main_arg5))) (Cert.Gcn.targets (F := Ideal) (m ((c : Thread nD τ).loc main_arg5)))) (Cert.Gcn.dense (F := Ideal) (m ((c : Thread nD τ).loc main_arg0)) (Cert.Gcn.matOf (F := Ideal) 0 Cert.ReferenceIdeal.Gen.slices_S3x64x64_S1x64x64_0_0_0 (m ((c : Thread nD τ).loc main_arg1))))) (Cert.Gcn.rowOf (F := Ideal) 0 Cert.ReferenceIdeal.Gen.slices_S3x64_S1x64_0_0 (m ((c : Thread nD τ).loc main_arg2))) (Cert.Gcn.rowOf (F := Ideal) 0 Cert.ReferenceIdeal.Gen.slices_S3x64_S1x64_0_0 (m ((c : Thread nD τ).loc main_arg3))) (Cert.Gcn.rowOf (F := Ideal) 0 Cert.ReferenceIdeal.Gen.slices_S3x64_S1x64_0_0 (m ((c : Thread nD τ).loc main_arg4))))) (Cert.Gcn.matOf (F := Ideal) 1 Cert.ReferenceIdeal.Gen.slices_S3x64x64_S1x64x64_1_0_0 (m ((c : Thread nD τ).loc main_arg1)))) := by
  have h := dense_final2 (V7 m ρ) c
  have e1 : V7 m ρ c main_v56 = (Cert.Gcn.relu (F := Ideal) (Cert.Gcn.layerNorm (F := Ideal) (Cert.Gcn.aggregate (F := Ideal) (Cert.Gcn.sources (F := Ideal) (m ((c : Thread nD τ).loc main_arg5))) (Cert.Gcn.targets (F := Ideal) (m ((c : Thread nD τ).loc main_arg5))) (Cert.Gcn.weights (F := Ideal) (Cert.Gcn.sources (F := Ideal) (m ((c : Thread nD τ).loc main_arg5))) (Cert.Gcn.targets (F := Ideal) (m ((c : Thread nD τ).loc main_arg5)))) (Cert.Gcn.dense (F := Ideal) (m ((c : Thread nD τ).loc main_arg0)) (Cert.Gcn.matOf (F := Ideal) 0 Cert.ReferenceIdeal.Gen.slices_S3x64x64_S1x64x64_0_0_0 (m ((c : Thread nD τ).loc main_arg1))))) (Cert.Gcn.rowOf (F := Ideal) 0 Cert.ReferenceIdeal.Gen.slices_S3x64_S1x64_0_0 (m ((c : Thread nD τ).loc main_arg2))) (Cert.Gcn.rowOf (F := Ideal) 0 Cert.ReferenceIdeal.Gen.slices_S3x64_S1x64_0_0 (m ((c : Thread nD τ).loc main_arg3))) (Cert.Gcn.rowOf (F := Ideal) 0 Cert.ReferenceIdeal.Gen.slices_S3x64_S1x64_0_0 (m ((c : Thread nD τ).loc main_arg4))))) := features1 m ρ c
  have e2 : V7 m ρ c main_v58 = (Cert.Gcn.matOf (F := Ideal) 1 Cert.ReferenceIdeal.Gen.slices_S3x64x64_S1x64x64_1_0_0 (m ((c : Thread nD τ).loc main_arg1))) := matrix1 m ρ c
  rw [e1, e2] at h
  exact (W8_arr m ρ c 2).trans h
/-- Layer 2: the weighted sums over the entries arriving at each node. -/
theorem aggregated1 : W9 m ρ c (Proc.devRef .tc main_v72) = (Cert.Gcn.aggregate (F := Ideal) (Cert.Gcn.sources (F := Ideal) (m ((c : Thread nD τ).loc main_arg5))) (Cert.Gcn.targets (F := Ideal) (m ((c : Thread nD τ).loc main_arg5))) (Cert.Gcn.weights (F := Ideal) (Cert.Gcn.sources (F := Ideal) (m ((c : Thread nD τ).loc main_arg5))) (Cert.Gcn.targets (F := Ideal) (m ((c : Thread nD τ).loc main_arg5)))) (Cert.Gcn.dense (F := Ideal) (Cert.Gcn.relu (F := Ideal) (Cert.Gcn.layerNorm (F := Ideal) (Cert.Gcn.aggregate (F := Ideal) (Cert.Gcn.sources (F := Ideal) (m ((c : Thread nD τ).loc main_arg5))) (Cert.Gcn.targets (F := Ideal) (m ((c : Thread nD τ).loc main_arg5))) (Cert.Gcn.weights (F := Ideal) (Cert.Gcn.sources (F := Ideal) (m ((c : Thread nD τ).loc main_arg5))) (Cert.Gcn.targets (F := Ideal) (m ((c : Thread nD τ).loc main_arg5)))) (Cert.Gcn.dense (F := Ideal) (m ((c : Thread nD τ).loc main_arg0)) (Cert.Gcn.matOf (F := Ideal) 0 Cert.ReferenceIdeal.Gen.slices_S3x64x64_S1x64x64_0_0_0 (m ((c : Thread nD τ).loc main_arg1))))) (Cert.Gcn.rowOf (F := Ideal) 0 Cert.ReferenceIdeal.Gen.slices_S3x64_S1x64_0_0 (m ((c : Thread nD τ).loc main_arg2))) (Cert.Gcn.rowOf (F := Ideal) 0 Cert.ReferenceIdeal.Gen.slices_S3x64_S1x64_0_0 (m ((c : Thread nD τ).loc main_arg3))) (Cert.Gcn.rowOf (F := Ideal) 0 Cert.ReferenceIdeal.Gen.slices_S3x64_S1x64_0_0 (m ((c : Thread nD τ).loc main_arg4))))) (Cert.Gcn.matOf (F := Ideal) 1 Cert.ReferenceIdeal.Gen.slices_S3x64x64_S1x64x64_1_0_0 (m ((c : Thread nD τ).loc main_arg1))))) :=
  (read_aggregate1 (W8 m ρ c)).trans (by rw [at8_v3 m ρ c, at8_v6 m ρ c, at8_v30 m ρ c, product1 m ρ c])
/-- Layer 2: after the normalisation launch the output array holds the layer's result. -/
theorem out1 : W10 m ρ c (Proc.devRef .tc main_v82) = (Cert.Gcn.relu (F := Ideal) (Cert.Gcn.layerNorm (F := Ideal) (Cert.Gcn.aggregate (F := Ideal) (Cert.Gcn.sources (F := Ideal) (m ((c : Thread nD τ).loc main_arg5))) (Cert.Gcn.targets (F := Ideal) (m ((c : Thread nD τ).loc main_arg5))) (Cert.Gcn.weights (F := Ideal) (Cert.Gcn.sources (F := Ideal) (m ((c : Thread nD τ).loc main_arg5))) (Cert.Gcn.targets (F := Ideal) (m ((c : Thread nD τ).loc main_arg5)))) (Cert.Gcn.dense (F := Ideal) (Cert.Gcn.relu (F := Ideal) (Cert.Gcn.layerNorm (F := Ideal) (Cert.Gcn.aggregate (F := Ideal) (Cert.Gcn.sources (F := Ideal) (m ((c : Thread nD τ).loc main_arg5))) (Cert.Gcn.targets (F := Ideal) (m ((c : Thread nD τ).loc main_arg5))) (Cert.Gcn.weights (F := Ideal) (Cert.Gcn.sources (F := Ideal) (m ((c : Thread nD τ).loc main_arg5))) (Cert.Gcn.targets (F := Ideal) (m ((c : Thread nD τ).loc main_arg5)))) (Cert.Gcn.dense (F := Ideal) (m ((c : Thread nD τ).loc main_arg0)) (Cert.Gcn.matOf (F := Ideal) 0 Cert.ReferenceIdeal.Gen.slices_S3x64x64_S1x64x64_0_0_0 (m ((c : Thread nD τ).loc main_arg1))))) (Cert.Gcn.rowOf (F := Ideal) 0 Cert.ReferenceIdeal.Gen.slices_S3x64_S1x64_0_0 (m ((c : Thread nD τ).loc main_arg2))) (Cert.Gcn.rowOf (F := Ideal) 0 Cert.ReferenceIdeal.Gen.slices_S3x64_S1x64_0_0 (m ((c : Thread nD τ).loc main_arg3))) (Cert.Gcn.rowOf (F := Ideal) 0 Cert.ReferenceIdeal.Gen.slices_S3x64_S1x64_0_0 (m ((c : Thread nD τ).loc main_arg4))))) (Cert.Gcn.matOf (F := Ideal) 1 Cert.ReferenceIdeal.Gen.slices_S3x64x64_S1x64x64_1_0_0 (m ((c : Thread nD τ).loc main_arg1))))) (Cert.Gcn.rowOf (F := Ideal) 1 Cert.ReferenceIdeal.Gen.slices_S3x64_S1x64_1_0 (m ((c : Thread nD τ).loc main_arg2))) (Cert.Gcn.rowOf (F := Ideal) 1 Cert.ReferenceIdeal.Gen.slices_S3x64_S1x64_1_0 (m ((c : Thread nD τ).loc main_arg3))) (Cert.Gcn.rowOf (F := Ideal) 1 Cert.ReferenceIdeal.Gen.slices_S3x64_S1x64_1_0 (m ((c : Thread nD τ).loc main_arg4))))) := by
  have hb : V9 m ρ c main_v79 = shapeCast _ (Cert.Gcn.rowOf (F := Ideal) 1 Cert.ReferenceIdeal.Gen.slices_S3x64_S1x64_1_0 (m ((c : Thread nD τ).loc main_arg2))) shapeCasts_S64_S1x64 :=
    (read_bias1 (W8 m ρ c)).trans (by rw [at8_arg2 m ρ c])
  have hg : V9 m ρ c main_v80 = shapeCast _ (Cert.Gcn.rowOf (F := Ideal) 1 Cert.ReferenceIdeal.Gen.slices_S3x64_S1x64_1_0 (m ((c : Thread nD τ).loc main_arg3))) shapeCasts_S64_S1x64 :=
    (read_scale1 (W8 m ρ c)).trans (by rw [at8_arg3 m ρ c])
  have hβ : V9 m ρ c main_v81 = shapeCast _ (Cert.Gcn.rowOf (F := Ideal) 1 Cert.ReferenceIdeal.Gen.slices_S3x64_S1x64_1_0 (m ((c : Thread nD τ).loc main_arg4))) shapeCasts_S64_S1x64 :=
    (read_shift1 (W8 m ρ c)).trans (by rw [at8_arg4 m ρ c])
  have h := norm_final3 (V9 m ρ) c (Cert.Gcn.rowOf (F := Ideal) 1 Cert.ReferenceIdeal.Gen.slices_S3x64_S1x64_1_0 (m ((c : Thread nD τ).loc main_arg2))) (Cert.Gcn.rowOf (F := Ideal) 1 Cert.ReferenceIdeal.Gen.slices_S3x64_S1x64_1_0 (m ((c : Thread nD τ).loc main_arg3))) (Cert.Gcn.rowOf (F := Ideal) 1 Cert.ReferenceIdeal.Gen.slices_S3x64_S1x64_1_0 (m ((c : Thread nD τ).loc main_arg4))) hb hg hβ
  have e : V9 m ρ c main_v72 = (Cert.Gcn.aggregate (F := Ideal) (Cert.Gcn.sources (F := Ideal) (m ((c : Thread nD τ).loc main_arg5))) (Cert.Gcn.targets (F := Ideal) (m ((c : Thread nD τ).loc main_arg5))) (Cert.Gcn.weights (F := Ideal) (Cert.Gcn.sources (F := Ideal) (m ((c : Thread nD τ).loc main_arg5))) (Cert.Gcn.targets (F := Ideal) (m ((c : Thread nD τ).loc main_arg5)))) (Cert.Gcn.dense (F := Ideal) (Cert.Gcn.relu (F := Ideal) (Cert.Gcn.layerNorm (F := Ideal) (Cert.Gcn.aggregate (F := Ideal) (Cert.Gcn.sources (F := Ideal) (m ((c : Thread nD τ).loc main_arg5))) (Cert.Gcn.targets (F := Ideal) (m ((c : Thread nD τ).loc main_arg5))) (Cert.Gcn.weights (F := Ideal) (Cert.Gcn.sources (F := Ideal) (m ((c : Thread nD τ).loc main_arg5))) (Cert.Gcn.targets (F := Ideal) (m ((c : Thread nD τ).loc main_arg5)))) (Cert.Gcn.dense (F := Ideal) (m ((c : Thread nD τ).loc main_arg0)) (Cert.Gcn.matOf (F := Ideal) 0 Cert.ReferenceIdeal.Gen.slices_S3x64x64_S1x64x64_0_0_0 (m ((c : Thread nD τ).loc main_arg1))))) (Cert.Gcn.rowOf (F := Ideal) 0 Cert.ReferenceIdeal.Gen.slices_S3x64_S1x64_0_0 (m ((c : Thread nD τ).loc main_arg2))) (Cert.Gcn.rowOf (F := Ideal) 0 Cert.ReferenceIdeal.Gen.slices_S3x64_S1x64_0_0 (m ((c : Thread nD τ).loc main_arg3))) (Cert.Gcn.rowOf (F := Ideal) 0 Cert.ReferenceIdeal.Gen.slices_S3x64_S1x64_0_0 (m ((c : Thread nD τ).loc main_arg4))))) (Cert.Gcn.matOf (F := Ideal) 1 Cert.ReferenceIdeal.Gen.slices_S3x64x64_S1x64x64_1_0_0 (m ((c : Thread nD τ).loc main_arg1))))) := aggregated1 m ρ c
  rw [e] at h
  exact (W10_arr m ρ c 4).trans h

/-- Layer 3: the features the product launch finds. -/
theorem features2 : W11 m ρ c (Proc.devRef .tc main_v82) = (Cert.Gcn.relu (F := Ideal) (Cert.Gcn.layerNorm (F := Ideal) (Cert.Gcn.aggregate (F := Ideal) (Cert.Gcn.sources (F := Ideal) (m ((c : Thread nD τ).loc main_arg5))) (Cert.Gcn.targets (F := Ideal) (m ((c : Thread nD τ).loc main_arg5))) (Cert.Gcn.weights (F := Ideal) (Cert.Gcn.sources (F := Ideal) (m ((c : Thread nD τ).loc main_arg5))) (Cert.Gcn.targets (F := Ideal) (m ((c : Thread nD τ).loc main_arg5)))) (Cert.Gcn.dense (F := Ideal) (Cert.Gcn.relu (F := Ideal) (Cert.Gcn.layerNorm (F := Ideal) (Cert.Gcn.aggregate (F := Ideal) (Cert.Gcn.sources (F := Ideal) (m ((c : Thread nD τ).loc main_arg5))) (Cert.Gcn.targets (F := Ideal) (m ((c : Thread nD τ).loc main_arg5))) (Cert.Gcn.weights (F := Ideal) (Cert.Gcn.sources (F := Ideal) (m ((c : Thread nD τ).loc main_arg5))) (Cert.Gcn.targets (F := Ideal) (m ((c : Thread nD τ).loc main_arg5)))) (Cert.Gcn.dense (F := Ideal) (m ((c : Thread nD τ).loc main_arg0)) (Cert.Gcn.matOf (F := Ideal) 0 Cert.ReferenceIdeal.Gen.slices_S3x64x64_S1x64x64_0_0_0 (m ((c : Thread nD τ).loc main_arg1))))) (Cert.Gcn.rowOf (F := Ideal) 0 Cert.ReferenceIdeal.Gen.slices_S3x64_S1x64_0_0 (m ((c : Thread nD τ).loc main_arg2))) (Cert.Gcn.rowOf (F := Ideal) 0 Cert.ReferenceIdeal.Gen.slices_S3x64_S1x64_0_0 (m ((c : Thread nD τ).loc main_arg3))) (Cert.Gcn.rowOf (F := Ideal) 0 Cert.ReferenceIdeal.Gen.slices_S3x64_S1x64_0_0 (m ((c : Thread nD τ).loc main_arg4))))) (Cert.Gcn.matOf (F := Ideal) 1 Cert.ReferenceIdeal.Gen.slices_S3x64x64_S1x64x64_1_0_0 (m ((c : Thread nD τ).loc main_arg1))))) (Cert.Gcn.rowOf (F := Ideal) 1 Cert.ReferenceIdeal.Gen.slices_S3x64_S1x64_1_0 (m ((c : Thread nD τ).loc main_arg2))) (Cert.Gcn.rowOf (F := Ideal) 1 Cert.ReferenceIdeal.Gen.slices_S3x64_S1x64_1_0 (m ((c : Thread nD τ).loc main_arg3))) (Cert.Gcn.rowOf (F := Ideal) 1 Cert.ReferenceIdeal.Gen.slices_S3x64_S1x64_1_0 (m ((c : Thread nD τ).loc main_arg4))))) := (kept_hostOps4_v82 (W10 m ρ c)).trans (out1 m ρ c)
/-- Layer 3: the weight matrix the product launch finds. -/
theorem matrix2 : W11 m ρ c (Proc.devRef .tc main_v84) = (Cert.Gcn.matOf (F := Ideal) 2 Cert.ReferenceIdeal.Gen.slices_S3x64x64_S1x64x64_2_0_0 (m ((c : Thread nD τ).loc main_arg1))) :=
  (read_matrix2 (W10 m ρ c)).trans (by rw [at10_arg1 m ρ c])
/-- Layer 3: after the product launch the product array holds H · W. -/
theorem product2 : W12 m ρ c (Proc.devRef .tc main_v85) = (Cert.Gcn.dense (F := Ideal) (Cert.Gcn.relu (F := Ideal) (Cert.Gcn.layerNorm (F := Ideal) (Cert.Gcn.aggregate (F := Ideal) (Cert.Gcn.sources (F := Ideal) (m ((c : Thread nD τ).loc main_arg5))) (Cert.Gcn.targets (F := Ideal) (m ((c : Thread nD τ).loc main_arg5))) (Cert.Gcn.weights (F := Ideal) (Cert.Gcn.sources (F := Ideal) (m ((c : Thread nD τ).loc main_arg5))) (Cert.Gcn.targets (F := Ideal) (m ((c : Thread nD τ).loc main_arg5)))) (Cert.Gcn.dense (F := Ideal) (Cert.Gcn.relu (F := Ideal) (Cert.Gcn.layerNorm (F := Ideal) (Cert.Gcn.aggregate (F := Ideal) (Cert.Gcn.sources (F := Ideal) (m ((c : Thread nD τ).loc main_arg5))) (Cert.Gcn.targets (F := Ideal) (m ((c : Thread nD τ).loc main_arg5))) (Cert.Gcn.weights (F := Ideal) (Cert.Gcn.sources (F := Ideal) (m ((c : Thread nD τ).loc main_arg5))) (Cert.Gcn.targets (F := Ideal) (m ((c : Thread nD τ).loc main_arg5)))) (Cert.Gcn.dense (F := Ideal) (m ((c : Thread nD τ).loc main_arg0)) (Cert.Gcn.matOf (F := Ideal) 0 Cert.ReferenceIdeal.Gen.slices_S3x64x64_S1x64x64_0_0_0 (m ((c : Thread nD τ).loc main_arg1))))) (Cert.Gcn.rowOf (F := Ideal) 0 Cert.ReferenceIdeal.Gen.slices_S3x64_S1x64_0_0 (m ((c : Thread nD τ).loc main_arg2))) (Cert.Gcn.rowOf (F := Ideal) 0 Cert.ReferenceIdeal.Gen.slices_S3x64_S1x64_0_0 (m ((c : Thread nD τ).loc main_arg3))) (Cert.Gcn.rowOf (F := Ideal) 0 Cert.ReferenceIdeal.Gen.slices_S3x64_S1x64_0_0 (m ((c : Thread nD τ).loc main_arg4))))) (Cert.Gcn.matOf (F := Ideal) 1 Cert.ReferenceIdeal.Gen.slices_S3x64x64_S1x64x64_1_0_0 (m ((c : Thread nD τ).loc main_arg1))))) (Cert.Gcn.rowOf (F := Ideal) 1 Cert.ReferenceIdeal.Gen.slices_S3x64_S1x64_1_0 (m ((c : Thread nD τ).loc main_arg2))) (Cert.Gcn.rowOf (F := Ideal) 1 Cert.ReferenceIdeal.Gen.slices_S3x64_S1x64_1_0 (m ((c : Thread nD τ).loc main_arg3))) (Cert.Gcn.rowOf (F := Ideal) 1 Cert.ReferenceIdeal.Gen.slices_S3x64_S1x64_1_0 (m ((c : Thread nD τ).loc main_arg4))))) (Cert.Gcn.matOf (F := Ideal) 2 Cert.ReferenceIdeal.Gen.slices_S3x64x64_S1x64x64_2_0_0 (m ((c : Thread nD τ).loc main_arg1)))) := by
  have h := dense_final4 (V11 m ρ) c
  have e1 : V11 m ρ c main_v82 = (Cert.Gcn.relu (F := Ideal) (Cert.Gcn.layerNorm (F := Ideal) (Cert.Gcn.aggregate (F := Ideal) (Cert.Gcn.sources (F := Ideal) (m ((c : Thread nD τ).loc main_arg5))) (Cert.Gcn.targets (F := Ideal) (m ((c : Thread nD τ).loc main_arg5))) (Cert.Gcn.weights (F := Ideal) (Cert.Gcn.sources (F := Ideal) (m ((c : Thread nD τ).loc main_arg5))) (Cert.Gcn.targets (F := Ideal) (m ((c : Thread nD τ).loc main_arg5)))) (Cert.Gcn.dense (F := Ideal) (Cert.Gcn.relu (F := Ideal) (Cert.Gcn.layerNorm (F := Ideal) (Cert.Gcn.aggregate (F := Ideal) (Cert.Gcn.sources (F := Ideal) (m ((c : Thread nD τ).loc main_arg5))) (Cert.Gcn.targets (F := Ideal) (m ((c : Thread nD τ).loc main_arg5))) (Cert.Gcn.weights (F := Ideal) (Cert.Gcn.sources (F := Ideal) (m ((c : Thread nD τ).loc main_arg5))) (Cert.Gcn.targets (F := Ideal) (m ((c : Thread nD τ).loc main_arg5)))) (Cert.Gcn.dense (F := Ideal) (m ((c : Thread nD τ).loc main_arg0)) (Cert.Gcn.matOf (F := Ideal) 0 Cert.ReferenceIdeal.Gen.slices_S3x64x64_S1x64x64_0_0_0 (m ((c : Thread nD τ).loc main_arg1))))) (Cert.Gcn.rowOf (F := Ideal) 0 Cert.ReferenceIdeal.Gen.slices_S3x64_S1x64_0_0 (m ((c : Thread nD τ).loc main_arg2))) (Cert.Gcn.rowOf (F := Ideal) 0 Cert.ReferenceIdeal.Gen.slices_S3x64_S1x64_0_0 (m ((c : Thread nD τ).loc main_arg3))) (Cert.Gcn.rowOf (F := Ideal) 0 Cert.ReferenceIdeal.Gen.slices_S3x64_S1x64_0_0 (m ((c : Thread nD τ).loc main_arg4))))) (Cert.Gcn.matOf (F := Ideal) 1 Cert.ReferenceIdeal.Gen.slices_S3x64x64_S1x64x64_1_0_0 (m ((c : Thread nD τ).loc main_arg1))))) (Cert.Gcn.rowOf (F := Ideal) 1 Cert.ReferenceIdeal.Gen.slices_S3x64_S1x64_1_0 (m ((c : Thread nD τ).loc main_arg2))) (Cert.Gcn.rowOf (F := Ideal) 1 Cert.ReferenceIdeal.Gen.slices_S3x64_S1x64_1_0 (m ((c : Thread nD τ).loc main_arg3))) (Cert.Gcn.rowOf (F := Ideal) 1 Cert.ReferenceIdeal.Gen.slices_S3x64_S1x64_1_0 (m ((c : Thread nD τ).loc main_arg4))))) := features2 m ρ c
  have e2 : V11 m ρ c main_v84 = (Cert.Gcn.matOf (F := Ideal) 2 Cert.ReferenceIdeal.Gen.slices_S3x64x64_S1x64x64_2_0_0 (m ((c : Thread nD τ).loc main_arg1))) := matrix2 m ρ c
  rw [e1, e2] at h
  exact (W12_arr m ρ c 2).trans h
/-- Layer 3: the weighted sums over the entries arriving at each node. -/
theorem aggregated2 : W13 m ρ c (Proc.devRef .tc main_v98) = (Cert.Gcn.aggregate (F := Ideal) (Cert.Gcn.sources (F := Ideal) (m ((c : Thread nD τ).loc main_arg5))) (Cert.Gcn.targets (F := Ideal) (m ((c : Thread nD τ).loc main_arg5))) (Cert.Gcn.weights (F := Ideal) (Cert.Gcn.sources (F := Ideal) (m ((c : Thread nD τ).loc main_arg5))) (Cert.Gcn.targets (F := Ideal) (m ((c : Thread nD τ).loc main_arg5)))) (Cert.Gcn.dense (F := Ideal) (Cert.Gcn.relu (F := Ideal) (Cert.Gcn.layerNorm (F := Ideal) (Cert.Gcn.aggregate (F := Ideal) (Cert.Gcn.sources (F := Ideal) (m ((c : Thread nD τ).loc main_arg5))) (Cert.Gcn.targets (F := Ideal) (m ((c : Thread nD τ).loc main_arg5))) (Cert.Gcn.weights (F := Ideal) (Cert.Gcn.sources (F := Ideal) (m ((c : Thread nD τ).loc main_arg5))) (Cert.Gcn.targets (F := Ideal) (m ((c : Thread nD τ).loc main_arg5)))) (Cert.Gcn.dense (F := Ideal) (Cert.Gcn.relu (F := Ideal) (Cert.Gcn.layerNorm (F := Ideal) (Cert.Gcn.aggregate (F := Ideal) (Cert.Gcn.sources (F := Ideal) (m ((c : Thread nD τ).loc main_arg5))) (Cert.Gcn.targets (F := Ideal) (m ((c : Thread nD τ).loc main_arg5))) (Cert.Gcn.weights (F := Ideal) (Cert.Gcn.sources (F := Ideal) (m ((c : Thread nD τ).loc main_arg5))) (Cert.Gcn.targets (F := Ideal) (m ((c : Thread nD τ).loc main_arg5)))) (Cert.Gcn.dense (F := Ideal) (m ((c : Thread nD τ).loc main_arg0)) (Cert.Gcn.matOf (F := Ideal) 0 Cert.ReferenceIdeal.Gen.slices_S3x64x64_S1x64x64_0_0_0 (m ((c : Thread nD τ).loc main_arg1))))) (Cert.Gcn.rowOf (F := Ideal) 0 Cert.ReferenceIdeal.Gen.slices_S3x64_S1x64_0_0 (m ((c : Thread nD τ).loc main_arg2))) (Cert.Gcn.rowOf (F := Ideal) 0 Cert.ReferenceIdeal.Gen.slices_S3x64_S1x64_0_0 (m ((c : Thread nD τ).loc main_arg3))) (Cert.Gcn.rowOf (F := Ideal) 0 Cert.ReferenceIdeal.Gen.slices_S3x64_S1x64_0_0 (m ((c : Thread nD τ).loc main_arg4))))) (Cert.Gcn.matOf (F := Ideal) 1 Cert.ReferenceIdeal.Gen.slices_S3x64x64_S1x64x64_1_0_0 (m ((c : Thread nD τ).loc main_arg1))))) (Cert.Gcn.rowOf (F := Ideal) 1 Cert.ReferenceIdeal.Gen.slices_S3x64_S1x64_1_0 (m ((c : Thread nD τ).loc main_arg2))) (Cert.Gcn.rowOf (F := Ideal) 1 Cert.ReferenceIdeal.Gen.slices_S3x64_S1x64_1_0 (m ((c : Thread nD τ).loc main_arg3))) (Cert.Gcn.rowOf (F := Ideal) 1 Cert.ReferenceIdeal.Gen.slices_S3x64_S1x64_1_0 (m ((c : Thread nD τ).loc main_arg4))))) (Cert.Gcn.matOf (F := Ideal) 2 Cert.ReferenceIdeal.Gen.slices_S3x64x64_S1x64x64_2_0_0 (m ((c : Thread nD τ).loc main_arg1))))) :=
  (read_aggregate2 (W12 m ρ c)).trans (by rw [at12_v3 m ρ c, at12_v6 m ρ c, at12_v30 m ρ c, product2 m ρ c])
/-- Layer 3: after the normalisation launch the output array holds the layer's result. -/
theorem out2 : W14 m ρ c (Proc.devRef .tc main_v108) = (Cert.Gcn.layerNorm (F := Ideal) (Cert.Gcn.aggregate (F := Ideal) (Cert.Gcn.sources (F := Ideal) (m ((c : Thread nD τ).loc main_arg5))) (Cert.Gcn.targets (F := Ideal) (m ((c : Thread nD τ).loc main_arg5))) (Cert.Gcn.weights (F := Ideal) (Cert.Gcn.sources (F := Ideal) (m ((c : Thread nD τ).loc main_arg5))) (Cert.Gcn.targets (F := Ideal) (m ((c : Thread nD τ).loc main_arg5)))) (Cert.Gcn.dense (F := Ideal) (Cert.Gcn.relu (F := Ideal) (Cert.Gcn.layerNorm (F := Ideal) (Cert.Gcn.aggregate (F := Ideal) (Cert.Gcn.sources (F := Ideal) (m ((c : Thread nD τ).loc main_arg5))) (Cert.Gcn.targets (F := Ideal) (m ((c : Thread nD τ).loc main_arg5))) (Cert.Gcn.weights (F := Ideal) (Cert.Gcn.sources (F := Ideal) (m ((c : Thread nD τ).loc main_arg5))) (Cert.Gcn.targets (F := Ideal) (m ((c : Thread nD τ).loc main_arg5)))) (Cert.Gcn.dense (F := Ideal) (Cert.Gcn.relu (F := Ideal) (Cert.Gcn.layerNorm (F := Ideal) (Cert.Gcn.aggregate (F := Ideal) (Cert.Gcn.sources (F := Ideal) (m ((c : Thread nD τ).loc main_arg5))) (Cert.Gcn.targets (F := Ideal) (m ((c : Thread nD τ).loc main_arg5))) (Cert.Gcn.weights (F := Ideal) (Cert.Gcn.sources (F := Ideal) (m ((c : Thread nD τ).loc main_arg5))) (Cert.Gcn.targets (F := Ideal) (m ((c : Thread nD τ).loc main_arg5)))) (Cert.Gcn.dense (F := Ideal) (m ((c : Thread nD τ).loc main_arg0)) (Cert.Gcn.matOf (F := Ideal) 0 Cert.ReferenceIdeal.Gen.slices_S3x64x64_S1x64x64_0_0_0 (m ((c : Thread nD τ).loc main_arg1))))) (Cert.Gcn.rowOf (F := Ideal) 0 Cert.ReferenceIdeal.Gen.slices_S3x64_S1x64_0_0 (m ((c : Thread nD τ).loc main_arg2))) (Cert.Gcn.rowOf (F := Ideal) 0 Cert.ReferenceIdeal.Gen.slices_S3x64_S1x64_0_0 (m ((c : Thread nD τ).loc main_arg3))) (Cert.Gcn.rowOf (F := Ideal) 0 Cert.ReferenceIdeal.Gen.slices_S3x64_S1x64_0_0 (m ((c : Thread nD τ).loc main_arg4))))) (Cert.Gcn.matOf (F := Ideal) 1 Cert.ReferenceIdeal.Gen.slices_S3x64x64_S1x64x64_1_0_0 (m ((c : Thread nD τ).loc main_arg1))))) (Cert.Gcn.rowOf (F := Ideal) 1 Cert.ReferenceIdeal.Gen.slices_S3x64_S1x64_1_0 (m ((c : Thread nD τ).loc main_arg2))) (Cert.Gcn.rowOf (F := Ideal) 1 Cert.ReferenceIdeal.Gen.slices_S3x64_S1x64_1_0 (m ((c : Thread nD τ).loc main_arg3))) (Cert.Gcn.rowOf (F := Ideal) 1 Cert.ReferenceIdeal.Gen.slices_S3x64_S1x64_1_0 (m ((c : Thread nD τ).loc main_arg4))))) (Cert.Gcn.matOf (F := Ideal) 2 Cert.ReferenceIdeal.Gen.slices_S3x64x64_S1x64x64_2_0_0 (m ((c : Thread nD τ).loc main_arg1))))) (Cert.Gcn.rowOf (F := Ideal) 2 Cert.ReferenceIdeal.Gen.slices_S3x64_S1x64_2_0 (m ((c : Thread nD τ).loc main_arg2))) (Cert.Gcn.rowOf (F := Ideal) 2 Cert.ReferenceIdeal.Gen.slices_S3x64_S1x64_2_0 (m ((c : Thread nD τ).loc main_arg3))) (Cert.Gcn.rowOf (F := Ideal) 2 Cert.ReferenceIdeal.Gen.slices_S3x64_S1x64_2_0 (m ((c : Thread nD τ).loc main_arg4)))) := by
  have hb : V13 m ρ c main_v105 = shapeCast _ (Cert.Gcn.rowOf (F := Ideal) 2 Cert.ReferenceIdeal.Gen.slices_S3x64_S1x64_2_0 (m ((c : Thread nD τ).loc main_arg2))) shapeCasts_S64_S1x64 :=
    (read_bias2 (W12 m ρ c)).trans (by rw [at12_arg2 m ρ c])
  have hg : V13 m ρ c main_v106 = shapeCast _ (Cert.Gcn.rowOf (F := Ideal) 2 Cert.ReferenceIdeal.Gen.slices_S3x64_S1x64_2_0 (m ((c : Thread nD τ).loc main_arg3))) shapeCasts_S64_S1x64 :=
    (read_scale2 (W12 m ρ c)).trans (by rw [at12_arg3 m ρ c])
  have hβ : V13 m ρ c main_v107 = shapeCast _ (Cert.Gcn.rowOf (F := Ideal) 2 Cert.ReferenceIdeal.Gen.slices_S3x64_S1x64_2_0 (m ((c : Thread nD τ).loc main_arg4))) shapeCasts_S64_S1x64 :=
    (read_shift2 (W12 m ρ c)).trans (by rw [at12_arg4 m ρ c])
  have h := norm_final5 (V13 m ρ) c (Cert.Gcn.rowOf (F := Ideal) 2 Cert.ReferenceIdeal.Gen.slices_S3x64_S1x64_2_0 (m ((c : Thread nD τ).loc main_arg2))) (Cert.Gcn.rowOf (F := Ideal) 2 Cert.ReferenceIdeal.Gen.slices_S3x64_S1x64_2_0 (m ((c : Thread nD τ).loc main_arg3))) (Cert.Gcn.rowOf (F := Ideal) 2 Cert.ReferenceIdeal.Gen.slices_S3x64_S1x64_2_0 (m ((c : Thread nD τ).loc main_arg4))) hb hg hβ
  have e : V13 m ρ c main_v98 = (Cert.Gcn.aggregate (F := Ideal) (Cert.Gcn.sources (F := Ideal) (m ((c : Thread nD τ).loc main_arg5))) (Cert.Gcn.targets (F := Ideal) (m ((c : Thread nD τ).loc main_arg5))) (Cert.Gcn.weights (F := Ideal) (Cert.Gcn.sources (F := Ideal) (m ((c : Thread nD τ).loc main_arg5))) (Cert.Gcn.targets (F := Ideal) (m ((c : Thread nD τ).loc main_arg5)))) (Cert.Gcn.dense (F := Ideal) (Cert.Gcn.relu (F := Ideal) (Cert.Gcn.layerNorm (F := Ideal) (Cert.Gcn.aggregate (F := Ideal) (Cert.Gcn.sources (F := Ideal) (m ((c : Thread nD τ).loc main_arg5))) (Cert.Gcn.targets (F := Ideal) (m ((c : Thread nD τ).loc main_arg5))) (Cert.Gcn.weights (F := Ideal) (Cert.Gcn.sources (F := Ideal) (m ((c : Thread nD τ).loc main_arg5))) (Cert.Gcn.targets (F := Ideal) (m ((c : Thread nD τ).loc main_arg5)))) (Cert.Gcn.dense (F := Ideal) (Cert.Gcn.relu (F := Ideal) (Cert.Gcn.layerNorm (F := Ideal) (Cert.Gcn.aggregate (F := Ideal) (Cert.Gcn.sources (F := Ideal) (m ((c : Thread nD τ).loc main_arg5))) (Cert.Gcn.targets (F := Ideal) (m ((c : Thread nD τ).loc main_arg5))) (Cert.Gcn.weights (F := Ideal) (Cert.Gcn.sources (F := Ideal) (m ((c : Thread nD τ).loc main_arg5))) (Cert.Gcn.targets (F := Ideal) (m ((c : Thread nD τ).loc main_arg5)))) (Cert.Gcn.dense (F := Ideal) (m ((c : Thread nD τ).loc main_arg0)) (Cert.Gcn.matOf (F := Ideal) 0 Cert.ReferenceIdeal.Gen.slices_S3x64x64_S1x64x64_0_0_0 (m ((c : Thread nD τ).loc main_arg1))))) (Cert.Gcn.rowOf (F := Ideal) 0 Cert.ReferenceIdeal.Gen.slices_S3x64_S1x64_0_0 (m ((c : Thread nD τ).loc main_arg2))) (Cert.Gcn.rowOf (F := Ideal) 0 Cert.ReferenceIdeal.Gen.slices_S3x64_S1x64_0_0 (m ((c : Thread nD τ).loc main_arg3))) (Cert.Gcn.rowOf (F := Ideal) 0 Cert.ReferenceIdeal.Gen.slices_S3x64_S1x64_0_0 (m ((c : Thread nD τ).loc main_arg4))))) (Cert.Gcn.matOf (F := Ideal) 1 Cert.ReferenceIdeal.Gen.slices_S3x64x64_S1x64x64_1_0_0 (m ((c : Thread nD τ).loc main_arg1))))) (Cert.Gcn.rowOf (F := Ideal) 1 Cert.ReferenceIdeal.Gen.slices_S3x64_S1x64_1_0 (m ((c : Thread nD τ).loc main_arg2))) (Cert.Gcn.rowOf (F := Ideal) 1 Cert.ReferenceIdeal.Gen.slices_S3x64_S1x64_1_0 (m ((c : Thread nD τ).loc main_arg3))) (Cert.Gcn.rowOf (F := Ideal) 1 Cert.ReferenceIdeal.Gen.slices_S3x64_S1x64_1_0 (m ((c : Thread nD τ).loc main_arg4))))) (Cert.Gcn.matOf (F := Ideal) 2 Cert.ReferenceIdeal.Gen.slices_S3x64x64_S1x64x64_2_0_0 (m ((c : Thread nD τ).loc main_arg1))))) := aggregated2 m ρ c
  rw [e] at h
  exact (W14_arr m ρ c 4).trans h

/-- The fold's last contents at the result buffer are the network of the argument arrays. -/
theorem kernel_result : W14 m ρ c (Proc.devRef .tc main_v108)
    = Cert.Gcn.gcn (F := Ideal) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) :=
  (out2 m ρ c).trans rfl

end Cert.KernelIdeal.Out

end
-- ==== Proof.RefSide.lean ====
/-
  The reference computes the network of Spec.lean.

  Its 216 host operations are read in nine stretches: the entry lists and the degrees; the degree's inverse square
  root; the weights; then, per layer, the product with its weighted sums, and the normalisation.  Over ANY contents K
  a stretch finds, each buffer the proof follows is either left alone or written with a named piece of the
  description applied to what K holds.  Chained from the launch contents, the result buffer holds the network of
  the argument arrays.
-/
import proofs.«162604_j70600672412128_1_alg».proof.Proof.Spec
import proofs.«162604_j70600672412128_1_alg».proof.Proof.RefRun
import Idealize.ShloMosaic.Lib.Pipeline.Frame

set_option maxRecDepth 16384

noncomputable section

namespace Cert.Gcn

open Cert.ReferenceIdeal Cert.ReferenceIdeal.Gen Idealize.ShloMosaic Idealize.ShloMosaic.TcCoe Idealize.SL.Sem Idealize.ShloMosaic.StableHlo

/-- No operation of a literal stretch writes the buffer: each operation's result buffer is another one. -/
macro "ref_keeps " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## Buffers a stretch leaves alone -/

theorem kept_s0a_arg0 (K : Valuation τ sig (Elt Ideal)) : after (Cert.ReferenceIdeal.RunP.s0a (F := Ideal)) K (Proc.devRef .tc main_arg0) = K (Proc.devRef .tc main_arg0) := by ref_keeps Cert.ReferenceIdeal.RunP.s0a
theorem kept_s0a_arg1 (K : Valuation τ sig (Elt Ideal)) : after (Cert.ReferenceIdeal.RunP.s0a (F := Ideal)) K (Proc.devRef .tc main_arg1) = K (Proc.devRef .tc main_arg1) := by ref_keeps Cert.ReferenceIdeal.RunP.s0a
theorem kept_s0a_arg2 (K : Valuation τ sig (Elt Ideal)) : after (Cert.ReferenceIdeal.RunP.s0a (F := Ideal)) K (Proc.devRef .tc main_arg2) = K (Proc.devRef .tc main_arg2) := by ref_keeps Cert.ReferenceIdeal.RunP.s0a
theorem kept_s0a_arg3 (K : Valuation τ sig (Elt Ideal)) : after (Cert.ReferenceIdeal.RunP.s0a (F := Ideal)) K (Proc.devRef .tc main_arg3) = K (Proc.devRef .tc main_arg3) := by ref_keeps Cert.ReferenceIdeal.RunP.s0a
theorem kept_s0a_arg4 (K : Valuation τ sig (Elt Ideal)) : after (Cert.ReferenceIdeal.RunP.s0a (F := Ideal)) K (Proc.devRef .tc main_arg4) = K (Proc.devRef .tc main_arg4) := by ref_keeps Cert.ReferenceIdeal.RunP.s0a
theorem kept_s0b_v3 (K : Valuation τ sig (Elt Ideal)) : after (Cert.ReferenceIdeal.RunP.s0b (F := Ideal)) K (Proc.devRef .tc main_v3) = K (Proc.devRef .tc main_v3) := by ref_keeps Cert.ReferenceIdeal.RunP.s0b
theorem kept_s0b_v6 (K : Valuation τ sig (Elt Ideal)) : after (Cert.ReferenceIdeal.RunP.s0b (F := Ideal)) K (Proc.devRef .tc main_v6) = K (Proc.devRef .tc main_v6) := by ref_keeps Cert.ReferenceIdeal.RunP.s0b
theorem kept_s0b_arg0 (K : Valuation τ sig (Elt Ideal)) : after (Cert.ReferenceIdeal.RunP.s0b (F := Ideal)) K (Proc.devRef .tc main_arg0) = K (Proc.devRef .tc main_arg0) := by ref_keeps Cert.ReferenceIdeal.RunP.s0b
theorem kept_s0b_arg1 (K : Valuation τ sig (Elt Ideal)) : after (Cert.ReferenceIdeal.RunP.s0b (F := Ideal)) K (Proc.devRef .tc main_arg1) = K (Proc.devRef .tc main_arg1) := by ref_keeps Cert.ReferenceIdeal.RunP.s0b
theorem kept_s0b_arg2 (K : Valuation τ sig (Elt Ideal)) : after (Cert.ReferenceIdeal.RunP.s0b (F := Ideal)) K (Proc.devRef .tc main_arg2) = K (Proc.devRef .tc main_arg2) := by ref_keeps Cert.ReferenceIdeal.RunP.s0b
theorem kept_s0b_arg3 (K : Valuation τ sig (Elt Ideal)) : after (Cert.ReferenceIdeal.RunP.s0b (F := Ideal)) K (Proc.devRef .tc main_arg3) = K (Proc.devRef .tc main_arg3) := by ref_keeps Cert.ReferenceIdeal.RunP.s0b
theorem kept_s0b_arg4 (K : Valuation τ sig (Elt Ideal)) : after (Cert.ReferenceIdeal.RunP.s0b (F := Ideal)) K (Proc.devRef .tc main_arg4) = K (Proc.devRef .tc main_arg4) := by ref_keeps Cert.ReferenceIdeal.RunP.s0b
theorem kept_s0c_v3 (K : Valuation τ sig (Elt Ideal)) : after (Cert.ReferenceIdeal.RunP.s0c (F := Ideal)) K (Proc.devRef .tc main_v3) = K (Proc.devRef .tc main_v3) := by ref_keeps Cert.ReferenceIdeal.RunP.s0c
theorem kept_s0c_v6 (K : Valuation τ sig (Elt Ideal)) : after (Cert.ReferenceIdeal.RunP.s0c (F := Ideal)) K (Proc.devRef .tc main_v6) = K (Proc.devRef .tc main_v6) := by ref_keeps Cert.ReferenceIdeal.RunP.s0c
theorem kept_s0c_arg0 (K : Valuation τ sig (Elt Ideal)) : after (Cert.ReferenceIdeal.RunP.s0c (F := Ideal)) K (Proc.devRef .tc main_arg0) = K (Proc.devRef .tc main_arg0) := by ref_keeps Cert.ReferenceIdeal.RunP.s0c
theorem kept_s0c_arg1 (K : Valuation τ sig (Elt Ideal)) : after (Cert.ReferenceIdeal.RunP.s0c (F := Ideal)) K (Proc.devRef .tc main_arg1) = K (Proc.devRef .tc main_arg1) := by ref_keeps Cert.ReferenceIdeal.RunP.s0c
theorem kept_s0c_arg2 (K : Valuation τ sig (Elt Ideal)) : after (Cert.ReferenceIdeal.RunP.s0c (F := Ideal)) K (Proc.devRef .tc main_arg2) = K (Proc.devRef .tc main_arg2) := by ref_keeps Cert.ReferenceIdeal.RunP.s0c
theorem kept_s0c_arg3 (K : Valuation τ sig (Elt Ideal)) : after (Cert.ReferenceIdeal.RunP.s0c (F := Ideal)) K (Proc.devRef .tc main_arg3) = K (Proc.devRef .tc main_arg3) := by ref_keeps Cert.ReferenceIdeal.RunP.s0c
theorem kept_s0c_arg4 (K : Valuation τ sig (Elt Ideal)) : after (Cert.ReferenceIdeal.RunP.s0c (F := Ideal)) K (Proc.devRef .tc main_arg4) = K (Proc.devRef .tc main_arg4) := by ref_keeps Cert.ReferenceIdeal.RunP.s0c
theorem kept_s1a_v3 (K : Valuation τ sig (Elt Ideal)) : after (Cert.ReferenceIdeal.RunP.s1a (F := Ideal)) K (Proc.devRef .tc main_v3) = K (Proc.devRef .tc main_v3) := by ref_keeps Cert.ReferenceIdeal.RunP.s1a
theorem kept_s1a_v6 (K : Valuation τ sig (Elt Ideal)) : after (Cert.ReferenceIdeal.RunP.s1a (F := Ideal)) K (Proc.devRef .tc main_v6) = K (Proc.devRef .tc main_v6) := by ref_keeps Cert.ReferenceIdeal.RunP.s1a
theorem kept_s1a_v30 (K : Valuation τ sig (Elt Ideal)) : after (Cert.ReferenceIdeal.RunP.s1a (F := Ideal)) K (Proc.devRef .tc main_v30) = K (Proc.devRef .tc main_v30) := by ref_keeps Cert.ReferenceIdeal.RunP.s1a
theorem kept_s1a_arg1 (K : Valuation τ sig (Elt Ideal)) : after (Cert.ReferenceIdeal.RunP.s1a (F := Ideal)) K (Proc.devRef .tc main_arg1) = K (Proc.devRef .tc main_arg1) := by ref_keeps Cert.ReferenceIdeal.RunP.s1a
theorem kept_s1a_arg2 (K : Valuation τ sig (Elt Ideal)) : after (Cert.ReferenceIdeal.RunP.s1a (F := Ideal)) K (Proc.devRef .tc main_arg2) = K (Proc.devRef .tc main_arg2) := by ref_keeps Cert.ReferenceIdeal.RunP.s1a
theorem kept_s1a_arg3 (K : Valuation τ sig (Elt Ideal)) : after (Cert.ReferenceIdeal.RunP.s1a (F := Ideal)) K (Proc.devRef .tc main_arg3) = K (Proc.devRef .tc main_arg3) := by ref_keeps Cert.ReferenceIdeal.RunP.s1a
theorem kept_s1a_arg4 (K : Valuation τ sig (Elt Ideal)) : after (Cert.ReferenceIdeal.RunP.s1a (F := Ideal)) K (Proc.devRef .tc main_arg4) = K (Proc.devRef .tc main_arg4) := by ref_keeps Cert.ReferenceIdeal.RunP.s1a
theorem kept_s1b_v3 (K : Valuation τ sig (Elt Ideal)) : after (Cert.ReferenceIdeal.RunP.s1b (F := Ideal)) K (Proc.devRef .tc main_v3) = K (Proc.devRef .tc main_v3) := by ref_keeps Cert.ReferenceIdeal.RunP.s1b
theorem kept_s1b_v6 (K : Valuation τ sig (Elt Ideal)) : after (Cert.ReferenceIdeal.RunP.s1b (F := Ideal)) K (Proc.devRef .tc main_v6) = K (Proc.devRef .tc main_v6) := by ref_keeps Cert.ReferenceIdeal.RunP.s1b
theorem kept_s1b_v30 (K : Valuation τ sig (Elt Ideal)) : after (Cert.ReferenceIdeal.RunP.s1b (F := Ideal)) K (Proc.devRef .tc main_v30) = K (Proc.devRef .tc main_v30) := by ref_keeps Cert.ReferenceIdeal.RunP.s1b
theorem kept_s1b_arg1 (K : Valuation τ sig (Elt Ideal)) : after (Cert.ReferenceIdeal.RunP.s1b (F := Ideal)) K (Proc.devRef .tc main_arg1) = K (Proc.devRef .tc main_arg1) := by ref_keeps Cert.ReferenceIdeal.RunP.s1b
theorem kept_s1b_arg2 (K : Valuation τ sig (Elt Ideal)) : after (Cert.ReferenceIdeal.RunP.s1b (F := Ideal)) K (Proc.devRef .tc main_arg2) = K (Proc.devRef .tc main_arg2) := by ref_keeps Cert.ReferenceIdeal.RunP.s1b
theorem kept_s1b_arg3 (K : Valuation τ sig (Elt Ideal)) : after (Cert.ReferenceIdeal.RunP.s1b (F := Ideal)) K (Proc.devRef .tc main_arg3) = K (Proc.devRef .tc main_arg3) := by ref_keeps Cert.ReferenceIdeal.RunP.s1b
theorem kept_s1b_arg4 (K : Valuation τ sig (Elt Ideal)) : after (Cert.ReferenceIdeal.RunP.s1b (F := Ideal)) K (Proc.devRef .tc main_arg4) = K (Proc.devRef .tc main_arg4) := by ref_keeps Cert.ReferenceIdeal.RunP.s1b
theorem kept_s2a_v3 (K : Valuation τ sig (Elt Ideal)) : after (Cert.ReferenceIdeal.RunP.s2a (F := Ideal)) K (Proc.devRef .tc main_v3) = K (Proc.devRef .tc main_v3) := by ref_keeps Cert.ReferenceIdeal.RunP.s2a
theorem kept_s2a_v6 (K : Valuation τ sig (Elt Ideal)) : after (Cert.ReferenceIdeal.RunP.s2a (F := Ideal)) K (Proc.devRef .tc main_v6) = K (Proc.devRef .tc main_v6) := by ref_keeps Cert.ReferenceIdeal.RunP.s2a
theorem kept_s2a_v30 (K : Valuation τ sig (Elt Ideal)) : after (Cert.ReferenceIdeal.RunP.s2a (F := Ideal)) K (Proc.devRef .tc main_v30) = K (Proc.devRef .tc main_v30) := by ref_keeps Cert.ReferenceIdeal.RunP.s2a
theorem kept_s2a_arg1 (K : Valuation τ sig (Elt Ideal)) : after (Cert.ReferenceIdeal.RunP.s2a (F := Ideal)) K (Proc.devRef .tc main_arg1) = K (Proc.devRef .tc main_arg1) := by ref_keeps Cert.ReferenceIdeal.RunP.s2a
theorem kept_s2a_arg2 (K : Valuation τ sig (Elt Ideal)) : after (Cert.ReferenceIdeal.RunP.s2a (F := Ideal)) K (Proc.devRef .tc main_arg2) = K (Proc.devRef .tc main_arg2) := by ref_keeps Cert.ReferenceIdeal.RunP.s2a
theorem kept_s2a_arg3 (K : Valuation τ sig (Elt Ideal)) : after (Cert.ReferenceIdeal.RunP.s2a (F := Ideal)) K (Proc.devRef .tc main_arg3) = K (Proc.devRef .tc main_arg3) := by ref_keeps Cert.ReferenceIdeal.RunP.s2a
theorem kept_s2a_arg4 (K : Valuation τ sig (Elt Ideal)) : after (Cert.ReferenceIdeal.RunP.s2a (F := Ideal)) K (Proc.devRef .tc main_arg4) = K (Proc.devRef .tc main_arg4) := by ref_keeps Cert.ReferenceIdeal.RunP.s2a
theorem kept_s2b_v3 (K : Valuation τ sig (Elt Ideal)) : after (Cert.ReferenceIdeal.RunP.s2b (F := Ideal)) K (Proc.devRef .tc main_v3) = K (Proc.devRef .tc main_v3) := by ref_keeps Cert.ReferenceIdeal.RunP.s2b
theorem kept_s2b_v6 (K : Valuation τ sig (Elt Ideal)) : after (Cert.ReferenceIdeal.RunP.s2b (F := Ideal)) K (Proc.devRef .tc main_v6) = K (Proc.devRef .tc main_v6) := by ref_keeps Cert.ReferenceIdeal.RunP.s2b
theorem kept_s2b_v30 (K : Valuation τ sig (Elt Ideal)) : after (Cert.ReferenceIdeal.RunP.s2b (F := Ideal)) K (Proc.devRef .tc main_v30) = K (Proc.devRef .tc main_v30) := by ref_keeps Cert.ReferenceIdeal.RunP.s2b
theorem kept_s2b_arg1 (K : Valuation τ sig (Elt Ideal)) : after (Cert.ReferenceIdeal.RunP.s2b (F := Ideal)) K (Proc.devRef .tc main_arg1) = K (Proc.devRef .tc main_arg1) := by ref_keeps Cert.ReferenceIdeal.RunP.s2b
theorem kept_s2b_arg2 (K : Valuation τ sig (Elt Ideal)) : after (Cert.ReferenceIdeal.RunP.s2b (F := Ideal)) K (Proc.devRef .tc main_arg2) = K (Proc.devRef .tc main_arg2) := by ref_keeps Cert.ReferenceIdeal.RunP.s2b
theorem kept_s2b_arg3 (K : Valuation τ sig (Elt Ideal)) : after (Cert.ReferenceIdeal.RunP.s2b (F := Ideal)) K (Proc.devRef .tc main_arg3) = K (Proc.devRef .tc main_arg3) := by ref_keeps Cert.ReferenceIdeal.RunP.s2b
theorem kept_s2b_arg4 (K : Valuation τ sig (Elt Ideal)) : after (Cert.ReferenceIdeal.RunP.s2b (F := Ideal)) K (Proc.devRef .tc main_arg4) = K (Proc.devRef .tc main_arg4) := by ref_keeps Cert.ReferenceIdeal.RunP.s2b
theorem kept_s3a_v3 (K : Valuation τ sig (Elt Ideal)) : after (Cert.ReferenceIdeal.RunP.s3a (F := Ideal)) K (Proc.devRef .tc main_v3) = K (Proc.devRef .tc main_v3) := by ref_keeps Cert.ReferenceIdeal.RunP.s3a
theorem kept_s3a_v6 (K : Valuation τ sig (Elt Ideal)) : after (Cert.ReferenceIdeal.RunP.s3a (F := Ideal)) K (Proc.devRef .tc main_v6) = K (Proc.devRef .tc main_v6) := by ref_keeps Cert.ReferenceIdeal.RunP.s3a
theorem kept_s3a_v30 (K : Valuation τ sig (Elt Ideal)) : after (Cert.ReferenceIdeal.RunP.s3a (F := Ideal)) K (Proc.devRef .tc main_v30) = K (Proc.devRef .tc main_v30) := by ref_keeps Cert.ReferenceIdeal.RunP.s3a
theorem kept_s3a_arg1 (K : Valuation τ sig (Elt Ideal)) : after (Cert.ReferenceIdeal.RunP.s3a (F := Ideal)) K (Proc.devRef .tc main_arg1) = K (Proc.devRef .tc main_arg1) := by ref_keeps Cert.ReferenceIdeal.RunP.s3a
theorem kept_s3a_arg2 (K : Valuation τ sig (Elt Ideal)) : after (Cert.ReferenceIdeal.RunP.s3a (F := Ideal)) K (Proc.devRef .tc main_arg2) = K (Proc.devRef .tc main_arg2) := by ref_keeps Cert.ReferenceIdeal.RunP.s3a
theorem kept_s3a_arg3 (K : Valuation τ sig (Elt Ideal)) : after (Cert.ReferenceIdeal.RunP.s3a (F := Ideal)) K (Proc.devRef .tc main_arg3) = K (Proc.devRef .tc main_arg3) := by ref_keeps Cert.ReferenceIdeal.RunP.s3a
theorem kept_s3a_arg4 (K : Valuation τ sig (Elt Ideal)) : after (Cert.ReferenceIdeal.RunP.s3a (F := Ideal)) K (Proc.devRef .tc main_arg4) = K (Proc.devRef .tc main_arg4) := by ref_keeps Cert.ReferenceIdeal.RunP.s3a

/-! ## What a stretch writes, as a piece of the network's description -/

set_option maxHeartbeats 4000000 in
theorem ref_sources (K : Valuation τ sig (Elt Ideal)) : after (Cert.ReferenceIdeal.RunP.s0a (F := Ideal)) K (Proc.devRef .tc main_v3)
    = sources (F := Ideal) (K (Proc.devRef .tc main_arg5)) := by
  after_results_simp <;> rfl
set_option maxHeartbeats 4000000 in
theorem ref_targets (K : Valuation τ sig (Elt Ideal)) : after (Cert.ReferenceIdeal.RunP.s0a (F := Ideal)) K (Proc.devRef .tc main_v6)
    = targets (F := Ideal) (K (Proc.devRef .tc main_arg5)) := by
  after_results_simp <;> rfl
set_option maxHeartbeats 4000000 in
theorem ref_degPositive (K : Valuation τ sig (Elt Ideal)) : after (Cert.ReferenceIdeal.RunP.s0a (F := Ideal)) K (Proc.devRef .tc main_v12)
    = (cmpf (F := Ideal) .ogt (degree (F := Ideal) (targets (F := Ideal) (K (Proc.devRef .tc main_arg5)))) (broadcastInDim S100000 ![] bcast_S_S100000 (constant (F := Ideal) S_ .f32 0x00000000#32)) : (⟨S100000, .i1⟩ : BufTy).Contents (Elt Ideal)) := by
  after_results_simp <;> rfl
set_option maxHeartbeats 4000000 in
theorem ref_degRsqrt (K : Valuation τ sig (Elt Ideal)) : after (Cert.ReferenceIdeal.RunP.s0a (F := Ideal)) K (Proc.devRef .tc main_v13)
    = (Host.rsqrt (F := Ideal) (φ := .f32) (degree (F := Ideal) (targets (F := Ideal) (K (Proc.devRef .tc main_arg5)))) : (⟨S100000, .f32⟩ : BufTy).Contents (Elt Ideal)) := by
  after_results_simp <;> rfl
set_option maxHeartbeats 4000000 in
theorem ref_zeros (K : Valuation τ sig (Elt Ideal)) : after (Cert.ReferenceIdeal.RunP.s0a (F := Ideal)) K (Proc.devRef .tc main_v14)
    = (broadcastInDim S100000 ![] bcast_S_S100000 (constant (F := Ideal) S_ .f32 0x00000000#32) : (⟨S100000, .f32⟩ : BufTy).Contents (Elt Ideal)) := by
  after_results_simp <;> rfl
set_option maxHeartbeats 4000000 in
theorem ref_degInvSqrt (K : Valuation τ sig (Elt Ideal)) : after (Cert.ReferenceIdeal.RunP.s0b (F := Ideal)) K (Proc.devRef .tc main_v15)
    = (select (K (Proc.devRef .tc main_v12)) (K (Proc.devRef .tc main_v13)) (K (Proc.devRef .tc main_v14)) : (⟨S100000, .f32⟩ : BufTy).Contents (Elt Ideal)) := by
  after_results_simp <;> rfl
set_option maxHeartbeats 4000000 in
theorem ref_weights (K : Valuation τ sig (Elt Ideal)) : after (Cert.ReferenceIdeal.RunP.s0c (F := Ideal)) K (Proc.devRef .tc main_v30)
    = (mulf (F := Ideal) (φ := .f32) (Host.gather gather_S100000_S1700000x1_S1700000_n_0_n_n_0_1_1 (K (Proc.devRef .tc main_v15)) (lookupAt (F := Ideal) (K (Proc.devRef .tc main_v3))))
        (Host.gather gather_S100000_S1700000x1_S1700000_n_0_n_n_0_1_1 (K (Proc.devRef .tc main_v15)) (lookupAt (F := Ideal) (K (Proc.devRef .tc main_v6)))) : (⟨S1700000, .f32⟩ : BufTy).Contents (Elt Ideal)) := by
  after_results_simp <;> rfl
set_option maxHeartbeats 4000000 in
theorem ref_aggregate0 (K : Valuation τ sig (Elt Ideal)) : after (Cert.ReferenceIdeal.RunP.s1a (F := Ideal)) K (Proc.devRef .tc main_v46)
    = aggregate (F := Ideal) (K (Proc.devRef .tc main_v3)) (K (Proc.devRef .tc main_v6)) (K (Proc.devRef .tc main_v30)) (dense (F := Ideal) (K (Proc.devRef .tc main_arg0)) (matOf (F := Ideal) 0 slices_S3x64x64_S1x64x64_0_0_0 (K (Proc.devRef .tc main_arg1)))) := by
  after_results_simp <;> rfl
set_option maxHeartbeats 4000000 in
theorem ref_norm0 (K : Valuation τ sig (Elt Ideal)) : after (Cert.ReferenceIdeal.RunP.s1b (F := Ideal)) K (Proc.devRef .tc main_v80)
    = relu (F := Ideal) (layerNorm (F := Ideal) (K (Proc.devRef .tc main_v46)) (rowOf (F := Ideal) 0 slices_S3x64_S1x64_0_0 (K (Proc.devRef .tc main_arg2))) (rowOf (F := Ideal) 0 slices_S3x64_S1x64_0_0 (K (Proc.devRef .tc main_arg3))) (rowOf (F := Ideal) 0 slices_S3x64_S1x64_0_0 (K (Proc.devRef .tc main_arg4)))) := by
  after_results_simp <;> rfl
set_option maxHeartbeats 4000000 in
theorem ref_aggregate1 (K : Valuation τ sig (Elt Ideal)) : after (Cert.ReferenceIdeal.RunP.s2a (F := Ideal)) K (Proc.devRef .tc main_v96)
    = aggregate (F := Ideal) (K (Proc.devRef .tc main_v3)) (K (Proc.devRef .tc main_v6)) (K (Proc.devRef .tc main_v30)) (dense (F := Ideal) (K (Proc.devRef .tc main_v80)) (matOf (F := Ideal) 1 slices_S3x64x64_S1x64x64_1_0_0 (K (Proc.devRef .tc main_arg1)))) := by
  after_results_simp <;> rfl
set_option maxHeartbeats 4000000 in
theorem ref_norm1 (K : Valuation τ sig (Elt Ideal)) : after (Cert.ReferenceIdeal.RunP.s2b (F := Ideal)) K (Proc.devRef .tc main_v130)
    = relu (F := Ideal) (layerNorm (F := Ideal) (K (Proc.devRef .tc main_v96)) (rowOf (F := Ideal) 1 slices_S3x64_S1x64_1_0 (K (Proc.devRef .tc main_arg2))) (rowOf (F := Ideal) 1 slices_S3x64_S1x64_1_0 (K (Proc.devRef .tc main_arg3))) (rowOf (F := Ideal) 1 slices_S3x64_S1x64_1_0 (K (Proc.devRef .tc main_arg4)))) := by
  after_results_simp <;> rfl
set_option maxHeartbeats 4000000 in
theorem ref_aggregate2 (K : Valuation τ sig (Elt Ideal)) : after (Cert.ReferenceIdeal.RunP.s3a (F := Ideal)) K (Proc.devRef .tc main_v146)
    = aggregate (F := Ideal) (K (Proc.devRef .tc main_v3)) (K (Proc.devRef .tc main_v6)) (K (Proc.devRef .tc main_v30)) (dense (F := Ideal) (K (Proc.devRef .tc main_v130)) (matOf (F := Ideal) 2 slices_S3x64x64_S1x64x64_2_0_0 (K (Proc.devRef .tc main_arg1)))) := by
  after_results_simp <;> rfl
set_option maxHeartbeats 4000000 in
theorem ref_norm2 (K : Valuation τ sig (Elt Ideal)) : after (Cert.ReferenceIdeal.RunP.s3b (F := Ideal)) K (Proc.devRef .tc main_v179)
    = layerNorm (F := Ideal) (K (Proc.devRef .tc main_v146)) (rowOf (F := Ideal) 2 slices_S3x64_S1x64_2_0 (K (Proc.devRef .tc main_arg2))) (rowOf (F := Ideal) 2 slices_S3x64_S1x64_2_0 (K (Proc.devRef .tc main_arg3))) (rowOf (F := Ideal) 2 slices_S3x64_S1x64_2_0 (K (Proc.devRef .tc main_arg4))) := by
  after_results_simp <;> rfl

/-! ## The contents after each stretch -/

variable (m : (ℓ : Loc nD τ sig) → Buf (Elt Ideal) ℓ) (c : Dev nD)

/-- The buffers at launch. -/
abbrev R0 : Valuation τ sig (Elt Ideal) := launchContents m c
/-- The buffers after stretch 1. -/
abbrev R1 : Valuation τ sig (Elt Ideal) := after (Cert.ReferenceIdeal.RunP.s0a (F := Ideal)) (R0 m c)
/-- The buffers after stretch 2. -/
abbrev R2 : Valuation τ sig (Elt Ideal) := after (Cert.ReferenceIdeal.RunP.s0b (F := Ideal)) (R1 m c)
/-- The buffers after stretch 3. -/
abbrev R3 : Valuation τ sig (Elt Ideal) := after (Cert.ReferenceIdeal.RunP.s0c (F := Ideal)) (R2 m c)
/-- The buffers after stretch 4. -/
abbrev R4 : Valuation τ sig (Elt Ideal) := after (Cert.ReferenceIdeal.RunP.s1a (F := Ideal)) (R3 m c)
/-- The buffers after stretch 5. -/
abbrev R5 : Valuation τ sig (Elt Ideal) := after (Cert.ReferenceIdeal.RunP.s1b (F := Ideal)) (R4 m c)
/-- The buffers after stretch 6. -/
abbrev R6 : Valuation τ sig (Elt Ideal) := after (Cert.ReferenceIdeal.RunP.s2a (F := Ideal)) (R5 m c)
/-- The buffers after stretch 7. -/
abbrev R7 : Valuation τ sig (Elt Ideal) := after (Cert.ReferenceIdeal.RunP.s2b (F := Ideal)) (R6 m c)
/-- The buffers after stretch 8. -/
abbrev R8 : Valuation τ sig (Elt Ideal) := after (Cert.ReferenceIdeal.RunP.s3a (F := Ideal)) (R7 m c)
/-- The buffers after stretch 9. -/
abbrev R9 : Valuation τ sig (Elt Ideal) := after (Cert.ReferenceIdeal.RunP.s3b (F := Ideal)) (R8 m c)

theorem r1_v3 : R1 m c (Proc.devRef .tc main_v3) = (sources (F := Ideal) (m ((c.tc : Thread nD τ).loc main_arg5))) := ref_sources (R0 m c)
theorem r1_v6 : R1 m c (Proc.devRef .tc main_v6) = (targets (F := Ideal) (m ((c.tc : Thread nD τ).loc main_arg5))) := ref_targets (R0 m c)
theorem r2_v3 : R2 m c (Proc.devRef .tc main_v3) = (sources (F := Ideal) (m ((c.tc : Thread nD τ).loc main_arg5))) := (kept_s0b_v3 (R1 m c)).trans (r1_v3 m c)
theorem r2_v6 : R2 m c (Proc.devRef .tc main_v6) = (targets (F := Ideal) (m ((c.tc : Thread nD τ).loc main_arg5))) := (kept_s0b_v6 (R1 m c)).trans (r1_v6 m c)
theorem r3_v3 : R3 m c (Proc.devRef .tc main_v3) = (sources (F := Ideal) (m ((c.tc : Thread nD τ).loc main_arg5))) := (kept_s0c_v3 (R2 m c)).trans (r2_v3 m c)
theorem r3_v6 : R3 m c (Proc.devRef .tc main_v6) = (targets (F := Ideal) (m ((c.tc : Thread nD τ).loc main_arg5))) := (kept_s0c_v6 (R2 m c)).trans (r2_v6 m c)
theorem r2_v15 : R2 m c (Proc.devRef .tc main_v15) = degInvSqrt (F := Ideal) (targets (F := Ideal) (m ((c.tc : Thread nD τ).loc main_arg5))) :=
  (ref_degInvSqrt (R1 m c)).trans (by
    rw [show R1 m c (Proc.devRef .tc main_v12) = _ from ref_degPositive (R0 m c), show R1 m c (Proc.devRef .tc main_v13) = _ from ref_degRsqrt (R0 m c),
      show R1 m c (Proc.devRef .tc main_v14) = _ from ref_zeros (R0 m c)]
    rfl)
theorem r3_v30 : R3 m c (Proc.devRef .tc main_v30) = (weights (F := Ideal) (sources (F := Ideal) (m ((c.tc : Thread nD τ).loc main_arg5))) (targets (F := Ideal) (m ((c.tc : Thread nD τ).loc main_arg5)))) :=
  (ref_weights (R2 m c)).trans (by rw [r2_v15 m c, r2_v3 m c, r2_v6 m c]; rfl)
theorem r3_arg0 : R3 m c (Proc.devRef .tc main_arg0) = (m ((c.tc : Thread nD τ).loc main_arg0)) :=
  (kept_s0c_arg0 (R2 m c)).trans ((kept_s0b_arg0 (R1 m c)).trans (kept_s0a_arg0 (R0 m c)))
theorem r3_arg1 : R3 m c (Proc.devRef .tc main_arg1) = (m ((c.tc : Thread nD τ).loc main_arg1)) :=
  (kept_s0c_arg1 (R2 m c)).trans ((kept_s0b_arg1 (R1 m c)).trans (kept_s0a_arg1 (R0 m c)))
theorem r3_arg2 : R3 m c (Proc.devRef .tc main_arg2) = (m ((c.tc : Thread nD τ).loc main_arg2)) :=
  (kept_s0c_arg2 (R2 m c)).trans ((kept_s0b_arg2 (R1 m c)).trans (kept_s0a_arg2 (R0 m c)))
theorem r3_arg3 : R3 m c (Proc.devRef .tc main_arg3) = (m ((c.tc : Thread nD τ).loc main_arg3)) :=
  (kept_s0c_arg3 (R2 m c)).trans ((kept_s0b_arg3 (R1 m c)).trans (kept_s0a_arg3 (R0 m c)))
theorem r3_arg4 : R3 m c (Proc.devRef .tc main_arg4) = (m ((c.tc : Thread nD τ).loc main_arg4)) :=
  (kept_s0c_arg4 (R2 m c)).trans ((kept_s0b_arg4 (R1 m c)).trans (kept_s0a_arg4 (R0 m c)))
theorem r4_v3 : R4 m c (Proc.devRef .tc main_v3) = (sources (F := Ideal) (m ((c.tc : Thread nD τ).loc main_arg5))) := (kept_s1a_v3 (R3 m c)).trans (r3_v3 m c)
theorem r4_v6 : R4 m c (Proc.devRef .tc main_v6) = (targets (F := Ideal) (m ((c.tc : Thread nD τ).loc main_arg5))) := (kept_s1a_v6 (R3 m c)).trans (r3_v6 m c)
theorem r4_v30 : R4 m c (Proc.devRef .tc main_v30) = (weights (F := Ideal) (sources (F := Ideal) (m ((c.tc : Thread nD τ).loc main_arg5))) (targets (F := Ideal) (m ((c.tc : Thread nD τ).loc main_arg5)))) := (kept_s1a_v30 (R3 m c)).trans (r3_v30 m c)
theorem r4_arg1 : R4 m c (Proc.devRef .tc main_arg1) = (m ((c.tc : Thread nD τ).loc main_arg1)) := (kept_s1a_arg1 (R3 m c)).trans (r3_arg1 m c)
theorem r4_arg2 : R4 m c (Proc.devRef .tc main_arg2) = (m ((c.tc : Thread nD τ).loc main_arg2)) := (kept_s1a_arg2 (R3 m c)).trans (r3_arg2 m c)
theorem r4_arg3 : R4 m c (Proc.devRef .tc main_arg3) = (m ((c.tc : Thread nD τ).loc main_arg3)) := (kept_s1a_arg3 (R3 m c)).trans (r3_arg3 m c)
theorem r4_arg4 : R4 m c (Proc.devRef .tc main_arg4) = (m ((c.tc : Thread nD τ).loc main_arg4)) := (kept_s1a_arg4 (R3 m c)).trans (r3_arg4 m c)
theorem r5_v3 : R5 m c (Proc.devRef .tc main_v3) = (sources (F := Ideal) (m ((c.tc : Thread nD τ).loc main_arg5))) := (kept_s1b_v3 (R4 m c)).trans (r4_v3 m c)
theorem r5_v6 : R5 m c (Proc.devRef .tc main_v6) = (targets (F := Ideal) (m ((c.tc : Thread nD τ).loc main_arg5))) := (kept_s1b_v6 (R4 m c)).trans (r4_v6 m c)
theorem r5_v30 : R5 m c (Proc.devRef .tc main_v30) = (weights (F := Ideal) (sources (F := Ideal) (m ((c.tc : Thread nD τ).loc main_arg5))) (targets (F := Ideal) (m ((c.tc : Thread nD τ).loc main_arg5)))) := (kept_s1b_v30 (R4 m c)).trans (r4_v30 m c)
theorem r5_arg1 : R5 m c (Proc.devRef .tc main_arg1) = (m ((c.tc : Thread nD τ).loc main_arg1)) := (kept_s1b_arg1 (R4 m c)).trans (r4_arg1 m c)
theorem r5_arg2 : R5 m c (Proc.devRef .tc main_arg2) = (m ((c.tc : Thread nD τ).loc main_arg2)) := (kept_s1b_arg2 (R4 m c)).trans (r4_arg2 m c)
theorem r5_arg3 : R5 m c (Proc.devRef .tc main_arg3) = (m ((c.tc : Thread nD τ).loc main_arg3)) := (kept_s1b_arg3 (R4 m c)).trans (r4_arg3 m c)
theorem r5_arg4 : R5 m c (Proc.devRef .tc main_arg4) = (m ((c.tc : Thread nD τ).loc main_arg4)) := (kept_s1b_arg4 (R4 m c)).trans (r4_arg4 m c)
theorem r6_v3 : R6 m c (Proc.devRef .tc main_v3) = (sources (F := Ideal) (m ((c.tc : Thread nD τ).loc main_arg5))) := (kept_s2a_v3 (R5 m c)).trans (r5_v3 m c)
theorem r6_v6 : R6 m c (Proc.devRef .tc main_v6) = (targets (F := Ideal) (m ((c.tc : Thread nD τ).loc main_arg5))) := (kept_s2a_v6 (R5 m c)).trans (r5_v6 m c)
theorem r6_v30 : R6 m c (Proc.devRef .tc main_v30) = (weights (F := Ideal) (sources (F := Ideal) (m ((c.tc : Thread nD τ).loc main_arg5))) (targets (F := Ideal) (m ((c.tc : Thread nD τ).loc main_arg5)))) := (kept_s2a_v30 (R5 m c)).trans (r5_v30 m c)
theorem r6_arg1 : R6 m c (Proc.devRef .tc main_arg1) = (m ((c.tc : Thread nD τ).loc main_arg1)) := (kept_s2a_arg1 (R5 m c)).trans (r5_arg1 m c)
theorem r6_arg2 : R6 m c (Proc.devRef .tc main_arg2) = (m ((c.tc : Thread nD τ).loc main_arg2)) := (kept_s2a_arg2 (R5 m c)).trans (r5_arg2 m c)
theorem r6_arg3 : R6 m c (Proc.devRef .tc main_arg3) = (m ((c.tc : Thread nD τ).loc main_arg3)) := (kept_s2a_arg3 (R5 m c)).trans (r5_arg3 m c)
theorem r6_arg4 : R6 m c (Proc.devRef .tc main_arg4) = (m ((c.tc : Thread nD τ).loc main_arg4)) := (kept_s2a_arg4 (R5 m c)).trans (r5_arg4 m c)
theorem r7_v3 : R7 m c (Proc.devRef .tc main_v3) = (sources (F := Ideal) (m ((c.tc : Thread nD τ).loc main_arg5))) := (kept_s2b_v3 (R6 m c)).trans (r6_v3 m c)
theorem r7_v6 : R7 m c (Proc.devRef .tc main_v6) = (targets (F := Ideal) (m ((c.tc : Thread nD τ).loc main_arg5))) := (kept_s2b_v6 (R6 m c)).trans (r6_v6 m c)
theorem r7_v30 : R7 m c (Proc.devRef .tc main_v30) = (weights (F := Ideal) (sources (F := Ideal) (m ((c.tc : Thread nD τ).loc main_arg5))) (targets (F := Ideal) (m ((c.tc : Thread nD τ).loc main_arg5)))) := (kept_s2b_v30 (R6 m c)).trans (r6_v30 m c)
theorem r7_arg1 : R7 m c (Proc.devRef .tc main_arg1) = (m ((c.tc : Thread nD τ).loc main_arg1)) := (kept_s2b_arg1 (R6 m c)).trans (r6_arg1 m c)
theorem r7_arg2 : R7 m c (Proc.devRef .tc main_arg2) = (m ((c.tc : Thread nD τ).loc main_arg2)) := (kept_s2b_arg2 (R6 m c)).trans (r6_arg2 m c)
theorem r7_arg3 : R7 m c (Proc.devRef .tc main_arg3) = (m ((c.tc : Thread nD τ).loc main_arg3)) := (kept_s2b_arg3 (R6 m c)).trans (r6_arg3 m c)
theorem r7_arg4 : R7 m c (Proc.devRef .tc main_arg4) = (m ((c.tc : Thread nD τ).loc main_arg4)) := (kept_s2b_arg4 (R6 m c)).trans (r6_arg4 m c)
theorem r8_v3 : R8 m c (Proc.devRef .tc main_v3) = (sources (F := Ideal) (m ((c.tc : Thread nD τ).loc main_arg5))) := (kept_s3a_v3 (R7 m c)).trans (r7_v3 m c)
theorem r8_v6 : R8 m c (Proc.devRef .tc main_v6) = (targets (F := Ideal) (m ((c.tc : Thread nD τ).loc main_arg5))) := (kept_s3a_v6 (R7 m c)).trans (r7_v6 m c)
theorem r8_v30 : R8 m c (Proc.devRef .tc main_v30) = (weights (F := Ideal) (sources (F := Ideal) (m ((c.tc : Thread nD τ).loc main_arg5))) (targets (F := Ideal) (m ((c.tc : Thread nD τ).loc main_arg5)))) := (kept_s3a_v30 (R7 m c)).trans (r7_v30 m c)
theorem r8_arg1 : R8 m c (Proc.devRef .tc main_arg1) = (m ((c.tc : Thread nD τ).loc main_arg1)) := (kept_s3a_arg1 (R7 m c)).trans (r7_arg1 m c)
theorem r8_arg2 : R8 m c (Proc.devRef .tc main_arg2) = (m ((c.tc : Thread nD τ).loc main_arg2)) := (kept_s3a_arg2 (R7 m c)).trans (r7_arg2 m c)
theorem r8_arg3 : R8 m c (Proc.devRef .tc main_arg3) = (m ((c.tc : Thread nD τ).loc main_arg3)) := (kept_s3a_arg3 (R7 m c)).trans (r7_arg3 m c)
theorem r8_arg4 : R8 m c (Proc.devRef .tc main_arg4) = (m ((c.tc : Thread nD τ).loc main_arg4)) := (kept_s3a_arg4 (R7 m c)).trans (r7_arg4 m c)

/-! ## The three layers -/

/-- Layer 1: the weighted sums over the entries arriving at each node. -/
theorem ref_aggregated0 : R4 m c (Proc.devRef .tc main_v46) = (aggregate (F := Ideal) (sources (F := Ideal) (m ((c.tc : Thread nD τ).loc main_arg5))) (targets (F := Ideal) (m ((c.tc : Thread nD τ).loc main_arg5))) (weights (F := Ideal) (sources (F := Ideal) (m ((c.tc : Thread nD τ).loc main_arg5))) (targets (F := Ideal) (m ((c.tc : Thread nD τ).loc main_arg5)))) (dense (F := Ideal) (m ((c.tc : Thread nD τ).loc main_arg0)) (matOf (F := Ideal) 0 slices_S3x64x64_S1x64x64_0_0_0 (m ((c.tc : Thread nD τ).loc main_arg1))))) :=
  (ref_aggregate0 (R3 m c)).trans (by rw [r3_v3 m c, r3_v6 m c, r3_v30 m c, r3_arg1 m c, show R3 m c (Proc.devRef .tc main_arg0) = _ from r3_arg0 m c])
/-- Layer 1: the layer's result. -/
theorem ref_out0 : R5 m c (Proc.devRef .tc main_v80) = (relu (F := Ideal) (layerNorm (F := Ideal) (aggregate (F := Ideal) (sources (F := Ideal) (m ((c.tc : Thread nD τ).loc main_arg5))) (targets (F := Ideal) (m ((c.tc : Thread nD τ).loc main_arg5))) (weights (F := Ideal) (sources (F := Ideal) (m ((c.tc : Thread nD τ).loc main_arg5))) (targets (F := Ideal) (m ((c.tc : Thread nD τ).loc main_arg5)))) (dense (F := Ideal) (m ((c.tc : Thread nD τ).loc main_arg0)) (matOf (F := Ideal) 0 slices_S3x64x64_S1x64x64_0_0_0 (m ((c.tc : Thread nD τ).loc main_arg1))))) (rowOf (F := Ideal) 0 slices_S3x64_S1x64_0_0 (m ((c.tc : Thread nD τ).loc main_arg2))) (rowOf (F := Ideal) 0 slices_S3x64_S1x64_0_0 (m ((c.tc : Thread nD τ).loc main_arg3))) (rowOf (F := Ideal) 0 slices_S3x64_S1x64_0_0 (m ((c.tc : Thread nD τ).loc main_arg4))))) :=
  (ref_norm0 (R4 m c)).trans (by rw [ref_aggregated0 m c, r4_arg2 m c, r4_arg3 m c, r4_arg4 m c])

/-- Layer 2: the weighted sums over the entries arriving at each node. -/
theorem ref_aggregated1 : R6 m c (Proc.devRef .tc main_v96) = (aggregate (F := Ideal) (sources (F := Ideal) (m ((c.tc : Thread nD τ).loc main_arg5))) (targets (F := Ideal) (m ((c.tc : Thread nD τ).loc main_arg5))) (weights (F := Ideal) (sources (F := Ideal) (m ((c.tc : Thread nD τ).loc main_arg5))) (targets (F := Ideal) (m ((c.tc : Thread nD τ).loc main_arg5)))) (dense (F := Ideal) (relu (F := Ideal) (layerNorm (F := Ideal) (aggregate (F := Ideal) (sources (F := Ideal) (m ((c.tc : Thread nD τ).loc main_arg5))) (targets (F := Ideal) (m ((c.tc : Thread nD τ).loc main_arg5))) (weights (F := Ideal) (sources (F := Ideal) (m ((c.tc : Thread nD τ).loc main_arg5))) (targets (F := Ideal) (m ((c.tc : Thread nD τ).loc main_arg5)))) (dense (F := Ideal) (m ((c.tc : Thread nD τ).loc main_arg0)) (matOf (F := Ideal) 0 slices_S3x64x64_S1x64x64_0_0_0 (m ((c.tc : Thread nD τ).loc main_arg1))))) (rowOf (F := Ideal) 0 slices_S3x64_S1x64_0_0 (m ((c.tc : Thread nD τ).loc main_arg2))) (rowOf (F := Ideal) 0 slices_S3x64_S1x64_0_0 (m ((c.tc : Thread nD τ).loc main_arg3))) (rowOf (F := Ideal) 0 slices_S3x64_S1x64_0_0 (m ((c.tc : Thread nD τ).loc main_arg4))))) (matOf (F := Ideal) 1 slices_S3x64x64_S1x64x64_1_0_0 (m ((c.tc : Thread nD τ).loc main_arg1))))) :=
  (ref_aggregate1 (R5 m c)).trans (by rw [r5_v3 m c, r5_v6 m c, r5_v30 m c, r5_arg1 m c, show R5 m c (Proc.devRef .tc main_v80) = _ from ref_out0 m c])
/-- Layer 2: the layer's result. -/
theorem ref_out1 : R7 m c (Proc.devRef .tc main_v130) = (relu (F := Ideal) (layerNorm (F := Ideal) (aggregate (F := Ideal) (sources (F := Ideal) (m ((c.tc : Thread nD τ).loc main_arg5))) (targets (F := Ideal) (m ((c.tc : Thread nD τ).loc main_arg5))) (weights (F := Ideal) (sources (F := Ideal) (m ((c.tc : Thread nD τ).loc main_arg5))) (targets (F := Ideal) (m ((c.tc : Thread nD τ).loc main_arg5)))) (dense (F := Ideal) (relu (F := Ideal) (layerNorm (F := Ideal) (aggregate (F := Ideal) (sources (F := Ideal) (m ((c.tc : Thread nD τ).loc main_arg5))) (targets (F := Ideal) (m ((c.tc : Thread nD τ).loc main_arg5))) (weights (F := Ideal) (sources (F := Ideal) (m ((c.tc : Thread nD τ).loc main_arg5))) (targets (F := Ideal) (m ((c.tc : Thread nD τ).loc main_arg5)))) (dense (F := Ideal) (m ((c.tc : Thread nD τ).loc main_arg0)) (matOf (F := Ideal) 0 slices_S3x64x64_S1x64x64_0_0_0 (m ((c.tc : Thread nD τ).loc main_arg1))))) (rowOf (F := Ideal) 0 slices_S3x64_S1x64_0_0 (m ((c.tc : Thread nD τ).loc main_arg2))) (rowOf (F := Ideal) 0 slices_S3x64_S1x64_0_0 (m ((c.tc : Thread nD τ).loc main_arg3))) (rowOf (F := Ideal) 0 slices_S3x64_S1x64_0_0 (m ((c.tc : Thread nD τ).loc main_arg4))))) (matOf (F := Ideal) 1 slices_S3x64x64_S1x64x64_1_0_0 (m ((c.tc : Thread nD τ).loc main_arg1))))) (rowOf (F := Ideal) 1 slices_S3x64_S1x64_1_0 (m ((c.tc : Thread nD τ).loc main_arg2))) (rowOf (F := Ideal) 1 slices_S3x64_S1x64_1_0 (m ((c.tc : Thread nD τ).loc main_arg3))) (rowOf (F := Ideal) 1 slices_S3x64_S1x64_1_0 (m ((c.tc : Thread nD τ).loc main_arg4))))) :=
  (ref_norm1 (R6 m c)).trans (by rw [ref_aggregated1 m c, r6_arg2 m c, r6_arg3 m c, r6_arg4 m c])

/-- Layer 3: the weighted sums over the entries arriving at each node. -/
theorem ref_aggregated2 : R8 m c (Proc.devRef .tc main_v146) = (aggregate (F := Ideal) (sources (F := Ideal) (m ((c.tc : Thread nD τ).loc main_arg5))) (targets (F := Ideal) (m ((c.tc : Thread nD τ).loc main_arg5))) (weights (F := Ideal) (sources (F := Ideal) (m ((c.tc : Thread nD τ).loc main_arg5))) (targets (F := Ideal) (m ((c.tc : Thread nD τ).loc main_arg5)))) (dense (F := Ideal) (relu (F := Ideal) (layerNorm (F := Ideal) (aggregate (F := Ideal) (sources (F := Ideal) (m ((c.tc : Thread nD τ).loc main_arg5))) (targets (F := Ideal) (m ((c.tc : Thread nD τ).loc main_arg5))) (weights (F := Ideal) (sources (F := Ideal) (m ((c.tc : Thread nD τ).loc main_arg5))) (targets (F := Ideal) (m ((c.tc : Thread nD τ).loc main_arg5)))) (dense (F := Ideal) (relu (F := Ideal) (layerNorm (F := Ideal) (aggregate (F := Ideal) (sources (F := Ideal) (m ((c.tc : Thread nD τ).loc main_arg5))) (targets (F := Ideal) (m ((c.tc : Thread nD τ).loc main_arg5))) (weights (F := Ideal) (sources (F := Ideal) (m ((c.tc : Thread nD τ).loc main_arg5))) (targets (F := Ideal) (m ((c.tc : Thread nD τ).loc main_arg5)))) (dense (F := Ideal) (m ((c.tc : Thread nD τ).loc main_arg0)) (matOf (F := Ideal) 0 slices_S3x64x64_S1x64x64_0_0_0 (m ((c.tc : Thread nD τ).loc main_arg1))))) (rowOf (F := Ideal) 0 slices_S3x64_S1x64_0_0 (m ((c.tc : Thread nD τ).loc main_arg2))) (rowOf (F := Ideal) 0 slices_S3x64_S1x64_0_0 (m ((c.tc : Thread nD τ).loc main_arg3))) (rowOf (F := Ideal) 0 slices_S3x64_S1x64_0_0 (m ((c.tc : Thread nD τ).loc main_arg4))))) (matOf (F := Ideal) 1 slices_S3x64x64_S1x64x64_1_0_0 (m ((c.tc : Thread nD τ).loc main_arg1))))) (rowOf (F := Ideal) 1 slices_S3x64_S1x64_1_0 (m ((c.tc : Thread nD τ).loc main_arg2))) (rowOf (F := Ideal) 1 slices_S3x64_S1x64_1_0 (m ((c.tc : Thread nD τ).loc main_arg3))) (rowOf (F := Ideal) 1 slices_S3x64_S1x64_1_0 (m ((c.tc : Thread nD τ).loc main_arg4))))) (matOf (F := Ideal) 2 slices_S3x64x64_S1x64x64_2_0_0 (m ((c.tc : Thread nD τ).loc main_arg1))))) :=
  (ref_aggregate2 (R7 m c)).trans (by rw [r7_v3 m c, r7_v6 m c, r7_v30 m c, r7_arg1 m c, show R7 m c (Proc.devRef .tc main_v130) = _ from ref_out1 m c])
/-- Layer 3: the layer's result. -/
theorem ref_out2 : R9 m c (Proc.devRef .tc main_v179) = (layerNorm (F := Ideal) (aggregate (F := Ideal) (sources (F := Ideal) (m ((c.tc : Thread nD τ).loc main_arg5))) (targets (F := Ideal) (m ((c.tc : Thread nD τ).loc main_arg5))) (weights (F := Ideal) (sources (F := Ideal) (m ((c.tc : Thread nD τ).loc main_arg5))) (targets (F := Ideal) (m ((c.tc : Thread nD τ).loc main_arg5)))) (dense (F := Ideal) (relu (F := Ideal) (layerNorm (F := Ideal) (aggregate (F := Ideal) (sources (F := Ideal) (m ((c.tc : Thread nD τ).loc main_arg5))) (targets (F := Ideal) (m ((c.tc : Thread nD τ).loc main_arg5))) (weights (F := Ideal) (sources (F := Ideal) (m ((c.tc : Thread nD τ).loc main_arg5))) (targets (F := Ideal) (m ((c.tc : Thread nD τ).loc main_arg5)))) (dense (F := Ideal) (relu (F := Ideal) (layerNorm (F := Ideal) (aggregate (F := Ideal) (sources (F := Ideal) (m ((c.tc : Thread nD τ).loc main_arg5))) (targets (F := Ideal) (m ((c.tc : Thread nD τ).loc main_arg5))) (weights (F := Ideal) (sources (F := Ideal) (m ((c.tc : Thread nD τ).loc main_arg5))) (targets (F := Ideal) (m ((c.tc : Thread nD τ).loc main_arg5)))) (dense (F := Ideal) (m ((c.tc : Thread nD τ).loc main_arg0)) (matOf (F := Ideal) 0 slices_S3x64x64_S1x64x64_0_0_0 (m ((c.tc : Thread nD τ).loc main_arg1))))) (rowOf (F := Ideal) 0 slices_S3x64_S1x64_0_0 (m ((c.tc : Thread nD τ).loc main_arg2))) (rowOf (F := Ideal) 0 slices_S3x64_S1x64_0_0 (m ((c.tc : Thread nD τ).loc main_arg3))) (rowOf (F := Ideal) 0 slices_S3x64_S1x64_0_0 (m ((c.tc : Thread nD τ).loc main_arg4))))) (matOf (F := Ideal) 1 slices_S3x64x64_S1x64x64_1_0_0 (m ((c.tc : Thread nD τ).loc main_arg1))))) (rowOf (F := Ideal) 1 slices_S3x64_S1x64_1_0 (m ((c.tc : Thread nD τ).loc main_arg2))) (rowOf (F := Ideal) 1 slices_S3x64_S1x64_1_0 (m ((c.tc : Thread nD τ).loc main_arg3))) (rowOf (F := Ideal) 1 slices_S3x64_S1x64_1_0 (m ((c.tc : Thread nD τ).loc main_arg4))))) (matOf (F := Ideal) 2 slices_S3x64x64_S1x64x64_2_0_0 (m ((c.tc : Thread nD τ).loc main_arg1))))) (rowOf (F := Ideal) 2 slices_S3x64_S1x64_2_0 (m ((c.tc : Thread nD τ).loc main_arg2))) (rowOf (F := Ideal) 2 slices_S3x64_S1x64_2_0 (m ((c.tc : Thread nD τ).loc main_arg3))) (rowOf (F := Ideal) 2 slices_S3x64_S1x64_2_0 (m ((c.tc : Thread nD τ).loc main_arg4)))) :=
  (ref_norm2 (R8 m c)).trans (by rw [ref_aggregated2 m c, r8_arg2 m c, r8_arg3 m c, r8_arg4 m c])

/-- The fold of the reference's operations over the launch contents, read at the result buffer, is the network
    of the argument arrays. -/
theorem reference_result :
    after (Cert.ReferenceIdeal.RunP.ops (F := Ideal)) (launchContents m c) (Proc.devRef .tc main_v179)
      = gcn (F := Ideal) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  rw [Cert.ReferenceIdeal.RunP.ops_eq]
  simp only [after_append]
  exact (ref_out2 m c).trans rfl

end Cert.Gcn

end
-- ==== Proof.RefArgs.lean ====
/-
  The reference leaves its argument arrays alone: none of its 216 host operations writes an argument's buffer,
  so each argument's contents after the run are its contents at launch.
-/
import proofs.«162604_j70600672412128_1_alg».proof.Proof.RefRun

noncomputable section

namespace Cert.Gcn

open Cert.ReferenceIdeal Cert.ReferenceIdeal.Gen Idealize.ShloMosaic Idealize.ShloMosaic.TcCoe Idealize.SL.Sem Idealize.ShloMosaic.StableHlo

variable {F : FTy → Type} [FloatOps F]

/-- Argument 0 after the reference's operations is argument 0 at launch. -/
theorem reference_kept_arg0 (m : (ℓ : Loc nD τ sig) → Buf (Elt F) ℓ) (c : Dev nD) :
    after (Cert.ReferenceIdeal.RunP.ops (F := F)) (launchContents m c) (Proc.devRef .tc main_arg0) = m ((c.tc : Thread nD τ).loc main_arg0) := by
  after_results_simp <;> rfl

/-- Argument 1 after the reference's operations is argument 1 at launch. -/
theorem reference_kept_arg1 (m : (ℓ : Loc nD τ sig) → Buf (Elt F) ℓ) (c : Dev nD) :
    after (Cert.ReferenceIdeal.RunP.ops (F := F)) (launchContents m c) (Proc.devRef .tc main_arg1) = m ((c.tc : Thread nD τ).loc main_arg1) := by
  after_results_simp <;> rfl

/-- Argument 2 after the reference's operations is argument 2 at launch. -/
theorem reference_kept_arg2 (m : (ℓ : Loc nD τ sig) → Buf (Elt F) ℓ) (c : Dev nD) :
    after (Cert.ReferenceIdeal.RunP.ops (F := F)) (launchContents m c) (Proc.devRef .tc main_arg2) = m ((c.tc : Thread nD τ).loc main_arg2) := by
  after_results_simp <;> rfl

/-- Argument 3 after the reference's operations is argument 3 at launch. -/
theorem reference_kept_arg3 (m : (ℓ : Loc nD τ sig) → Buf (Elt F) ℓ) (c : Dev nD) :
    after (Cert.ReferenceIdeal.RunP.ops (F := F)) (launchContents m c) (Proc.devRef .tc main_arg3) = m ((c.tc : Thread nD τ).loc main_arg3) := by
  after_results_simp <;> rfl

/-- Argument 4 after the reference's operations is argument 4 at launch. -/
theorem reference_kept_arg4 (m : (ℓ : Loc nD τ sig) → Buf (Elt F) ℓ) (c : Dev nD) :
    after (Cert.ReferenceIdeal.RunP.ops (F := F)) (launchContents m c) (Proc.devRef .tc main_arg4) = m ((c.tc : Thread nD τ).loc main_arg4) := by
  after_results_simp <;> rfl

/-- Argument 5 after the reference's operations is argument 5 at launch. -/
theorem reference_kept_arg5 (m : (ℓ : Loc nD τ sig) → Buf (Elt F) ℓ) (c : Dev nD) :
    after (Cert.ReferenceIdeal.RunP.ops (F := F)) (launchContents m c) (Proc.devRef .tc main_arg5) = m ((c.tc : Thread nD τ).loc main_arg5) := by
  after_results_simp <;> rfl

end Cert.Gcn

end
-- ==== Proof.lean ====
/-
  The claim: the kernel program and the reference, read over the extended reals, each run to the end without a
  fault and leave their six argument arrays as they found them, and from memories that agree on the arguments
  they end with the same result array.  Both results equal one function of the argument arrays, the three-layer
  graph convolution with layer normalisation of Proof/Spec.lean: the kernel program's because each of its six
  launches, read block by block, is one step of that description over whole arrays (three products with a weight
  matrix, three normalisations) with the aggregations done by the host operations in between; the reference's
  because its operation list, read in order, is that description step by step.  The idealised kernel program is
  the printed one with no operation replaced, so the claim about what the replacement preserves is the trivial one.
-/
import proofs.«162604_j70600672412128_1_alg».proof.Defs
import proofs.«162604_j70600672412128_1_alg».proof.Proof.Gen.Kernel
import proofs.«162604_j70600672412128_1_alg».proof.Proof.Gen.Kernel.Skeleton
import proofs.«162604_j70600672412128_1_alg».proof.Proof.Gen.Kernel.Launch
import proofs.«162604_j70600672412128_1_alg».proof.Proof.Gen.Kernel.Points
import proofs.«162604_j70600672412128_1_alg».proof.Proof.Gen.Kernel.Frame
import proofs.«162604_j70600672412128_1_alg».proof.Proof.Gen.KernelIdeal
import proofs.«162604_j70600672412128_1_alg».proof.Proof.Gen.KernelIdeal.Skeleton
import proofs.«162604_j70600672412128_1_alg».proof.Proof.Gen.KernelIdeal.Launch
import proofs.«162604_j70600672412128_1_alg».proof.Proof.Gen.KernelIdeal.Points
import proofs.«162604_j70600672412128_1_alg».proof.Proof.Gen.KernelIdeal.Frame
import proofs.«162604_j70600672412128_1_alg».proof.Proof.Gen.ReferenceIdeal
import proofs.«162604_j70600672412128_1_alg».proof.Proof.Gen.Pre_finite_inputs
import Idealize.ShloMosaic.Adequacy
import Idealize.ShloMosaic.Init
import proofs.«162604_j70600672412128_1_alg».proof.Proof.KernelRun
import proofs.«162604_j70600672412128_1_alg».proof.Proof.KernelChain
import proofs.«162604_j70600672412128_1_alg».proof.Proof.RefRun
import proofs.«162604_j70600672412128_1_alg».proof.Proof.RefSide
import proofs.«162604_j70600672412128_1_alg».proof.Proof.RefArgs

noncomputable section

namespace Cert.Proof

open Idealize.ShloMosaic Idealize.SL.Sem

/-- The kernel program as printed runs and leaves its arguments alone. -/
theorem frame_Kernel : Cert.frame_Kernel := fun m ρ _ => Cert.Kernel.Gen.frame m ρ

/-- So does the kernel program read over the extended reals. -/
theorem frame_KernelIdeal : Cert.frame_KernelIdeal := fun m ρ _ => Cert.KernelIdeal.Gen.frame m ρ

/-- The reference runs, and none of its operations writes an argument array. -/
theorem frame_ReferenceIdeal : Cert.frame_ReferenceIdeal := fun m ρ _ =>
  (θ_run Cert.ReferenceIdeal.defs _ _).mono (fun r h c =>
    ⟨(h c Cert.ReferenceIdeal.main_arg0).trans (Cert.Gcn.reference_kept_arg0 m c),
     (h c Cert.ReferenceIdeal.main_arg1).trans (Cert.Gcn.reference_kept_arg1 m c),
     (h c Cert.ReferenceIdeal.main_arg2).trans (Cert.Gcn.reference_kept_arg2 m c),
     (h c Cert.ReferenceIdeal.main_arg3).trans (Cert.Gcn.reference_kept_arg3 m c),
     (h c Cert.ReferenceIdeal.main_arg4).trans (Cert.Gcn.reference_kept_arg4 m c),
     (h c Cert.ReferenceIdeal.main_arg5).trans (Cert.Gcn.reference_kept_arg5 m c)⟩)
    (Cert.ReferenceIdeal.RunP.run_ops (F := Ideal) m ρ)

/-- From memories that agree on the arguments both programs end with the network of the argument arrays in
    their result array, and with the arguments unchanged. -/
theorem algebraic : Cert.algebraic_KernelIdeal_ReferenceIdeal := by
  intro m ρ m' ρ' _ hagree
  refine ⟨fun c => Cert.Gcn.gcn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Out.kernel_result m ρ c), (h c).2⟩)
      (Cert.KernelIdeal.Out.run_out (F := Ideal) m ρ)
  · refine (θ_run Cert.ReferenceIdeal.defs _ _).mono (fun r h c =>
      ⟨(h c Cert.ReferenceIdeal.main_v179).trans ((Cert.Gcn.reference_result m' c).trans ?_),
       (h c Cert.ReferenceIdeal.main_arg0).trans (Cert.Gcn.reference_kept_arg0 m' c),
       (h c Cert.ReferenceIdeal.main_arg1).trans (Cert.Gcn.reference_kept_arg1 m' c),
       (h c Cert.ReferenceIdeal.main_arg2).trans (Cert.Gcn.reference_kept_arg2 m' c),
       (h c Cert.ReferenceIdeal.main_arg3).trans (Cert.Gcn.reference_kept_arg3 m' c),
       (h c Cert.ReferenceIdeal.main_arg4).trans (Cert.Gcn.reference_kept_arg4 m' c),
       (h c Cert.ReferenceIdeal.main_arg5).trans (Cert.Gcn.reference_kept_arg5 m' c)⟩)
      (Cert.ReferenceIdeal.RunP.run_ops (F := Ideal) m' ρ')
    obtain ⟨e0, e1, e2, e3, e4, e5⟩ := hagree c
    rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, trivial, algebraic⟩

end Cert.Proof

end
